-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1x28x28 : Shape := ⟨4, ![8192, 1, 28, 28]⟩
abbrev S160x512 : Shape := ⟨2, ![160, 512]⟩
abbrev S1x128 : Shape := ⟨2, ![1, 128]⟩
abbrev S1280x640 : Shape := ⟨2, ![1280, 640]⟩
abbrev S1x640 : Shape := ⟨2, ![1, 640]⟩
abbrev S800x64 : Shape := ⟨2, ![800, 64]⟩
abbrev S1x64 : Shape := ⟨2, ![1, 64]⟩
abbrev S64x32 : Shape := ⟨2, ![64, 32]⟩
abbrev S1x32 : Shape := ⟨2, ![1, 32]⟩
abbrev S32x128 : Shape := ⟨2, ![32, 128]⟩
abbrev S_ : Shape := ⟨0, ![]⟩

class Facts : Prop where
  bcast_S_S8192x1x28x28 : S_.BroadcastsInDim S8192x1x28x28 (![] : Fin 0 → Fin S8192x1x28x28.rank)
  reducesTo_S8192x1x28x28_S_d0_1_2_3 : S8192x1x28x28.ReducesTo [0, 1, 2, 3] S_
  h_S_ : 0 < S_.numel
  bcast_S_S160x512 : S_.BroadcastsInDim S160x512 (![] : Fin 0 → Fin S160x512.rank)
  reducesTo_S160x512_S_d0_1 : S160x512.ReducesTo [0, 1] S_
  bcast_S_S1x128 : S_.BroadcastsInDim S1x128 (![] : Fin 0 → Fin S1x128.rank)
  reducesTo_S1x128_S_d0_1 : S1x128.ReducesTo [0, 1] S_
  bcast_S_S1280x640 : S_.BroadcastsInDim S1280x640 (![] : Fin 0 → Fin S1280x640.rank)
  reducesTo_S1280x640_S_d0_1 : S1280x640.ReducesTo [0, 1] S_
  bcast_S_S1x640 : S_.BroadcastsInDim S1x640 (![] : Fin 0 → Fin S1x640.rank)
  reducesTo_S1x640_S_d0_1 : S1x640.ReducesTo [0, 1] S_
  bcast_S_S800x64 : S_.BroadcastsInDim S800x64 (![] : Fin 0 → Fin S800x64.rank)
  reducesTo_S800x64_S_d0_1 : S800x64.ReducesTo [0, 1] S_
  bcast_S_S1x64 : S_.BroadcastsInDim S1x64 (![] : Fin 0 → Fin S1x64.rank)
  reducesTo_S1x64_S_d0_1 : S1x64.ReducesTo [0, 1] S_
  bcast_S_S64x32 : S_.BroadcastsInDim S64x32 (![] : Fin 0 → Fin S64x32.rank)
  reducesTo_S64x32_S_d0_1 : S64x32.ReducesTo [0, 1] S_
  bcast_S_S1x32 : S_.BroadcastsInDim S1x32 (![] : Fin 0 → Fin S1x32.rank)
  reducesTo_S1x32_S_d0_1 : S1x32.ReducesTo [0, 1] S_
  bcast_S_S32x128 : S_.BroadcastsInDim S32x128 (![] : Fin 0 → Fin S32x128.rank)
  reducesTo_S32x128_S_d0_1 : S32x128.ReducesTo [0, 1] S_

variable [Facts]

def fn_part3 {F : FTy → Type} [FloatOps F] (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  main_v53

def fn_part2 {F : FTy → Type} [FloatOps F] (main_arg7 : FVec F S64x32 .f32) (main_arg8 : FVec F S1x32 .f32) (main_arg9 : FVec F S32x128 .f32) (main_arg10 : FVec F S1x128 .f32) (main_v33 : IVec S_ 1) : IVec S_ 1 :=
  let main_v34 : FVec F S64x32 .f32 := Host.absf main_arg7
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S1x32 .f32 := Host.absf main_arg8
  let main_cst_14 : FVec F S_ .f32 := constant S_ .f32 0x7F800000#32
  let main_v40 : FVec F S1x32 .f32 := broadcastInDim S1x32 ![] bcast_S_S1x32 main_cst_14
  let main_v41 : IVec S1x32 1 := cmpf .olt main_v39 main_v40
  let main_c_15 : IVec S_ 1 := constantI S_ 1 1#1
  let main_v42 : IVec S_ 1 := (fun x v => Host.reduce IntOp.andi x v reducesTo_S1x32_S_d0_1 h_S_) main_v41 main_c_15
  let main_v43 : IVec S_ 1 := andi main_v38 main_v42
  let main_v44 : FVec F S32x128 .f32 := Host.absf main_arg9
  let main_cst_16 : FVec F S_ .f32 := constant S_ .f32 0x7F800000#32
  let main_v45 : FVec F S32x128 .f32 := broadcastInDim S32x128 ![] bcast_S_S32x128 main_cst_16
  let main_v46 : IVec S32x128 1 := cmpf .olt main_v44 main_v45
  let main_c_17 : IVec S_ 1 := constantI S_ 1 1#1
  let main_v47 : IVec S_ 1 := (fun x v => Host.reduce IntOp.andi x v reducesTo_S32x128_S_d0_1 h_S_) main_v46 main_c_17
  let main_v48 : IVec S_ 1 := andi main_v43 main_v47
  let main_v49 : FVec F S1x128 .f32 := Host.absf main_arg10
  let main_cst_18 : FVec F S_ .f32 := constant S_ .f32 0x7F800000#32
  let main_v50 : FVec F S1x128 .f32 := broadcastInDim S1x128 ![] bcast_S_S1x128 main_cst_18
  fn_part3 (F := F) main_v48 main_v49 main_v50

def fn_part1 {F : FTy → Type} [FloatOps F] (main_arg4 : FVec F S1x640 .f32) (main_arg5 : FVec F S800x64 .f32) (main_arg6 : FVec F S1x64 .f32) (main_arg7 : FVec F S64x32 .f32) (main_arg8 : FVec F S1x32 .f32) (main_arg9 : FVec F S32x128 .f32) (main_arg10 : FVec F S1x128 .f32) (main_v13 : IVec S_ 1) (main_v16 : IVec S1280x640 1) : IVec S_ 1 :=
  let main_c_5 : IVec S_ 1 := constantI S_ 1 1#1
  let main_v17 : IVec S_ 1 := (fun x v => Host.reduce IntOp.andi x v reducesTo_S1280x640_S_d0_1 h_S_) main_v16 main_c_5
  let main_v18 : IVec S_ 1 := andi main_v13 main_v17
  let main_v19 : FVec F S1x640 .f32 := Host.absf main_arg4
  let main_cst_6 : FVec F S_ .f32 := constant S_ .f32 0x7F800000#32
  let main_v20 : FVec F S1x640 .f32 := broadcastInDim S1x640 ![] bcast_S_S1x640 main_cst_6
  let main_v21 : IVec S1x640 1 := cmpf .olt main_v19 main_v20
  let main_c_7 : IVec S_ 1 := constantI S_ 1 1#1
  let main_v22 : IVec S_ 1 := (fun x v => Host.reduce IntOp.andi x v reducesTo_S1x640_S_d0_1 h_S_) main_v21 main_c_7
  let main_v23 : IVec S_ 1 := andi main_v18 main_v22
  let main_v24 : FVec F S800x64 .f32 := Host.absf main_arg5
  let main_cst_8 : FVec F S_ .f32 := constant S_ .f32 0x7F800000#32
  let main_v25 : FVec F S800x64 .f32 := broadcastInDim S800x64 ![] bcast_S_S800x64 main_cst_8
  let main_v26 : IVec S800x64 1 := cmpf .olt main_v24 main_v25
  let main_c_9 : IVec S_ 1 := constantI S_ 1 1#1
  let main_v27 : IVec S_ 1 := (fun x v => Host.reduce IntOp.andi x v reducesTo_S800x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1x28x28 .f32) (main_arg1 : FVec F S160x512 .f32) (main_arg2 : FVec F S1x128 .f32) (main_arg3 : FVec F S1280x640 .f32) (main_arg4 : FVec F S1x640 .f32) (main_arg5 : FVec F S800x64 .f32) (main_arg6 : FVec F S1x64 .f32) (main_arg7 : FVec F S64x32 .f32) (main_arg8 : FVec F S1x32 .f32) (main_arg9 : FVec F S32x128 .f32) (main_arg10 : FVec F S1x128 .f32) : IVec S_ 1 :=
  let main_v0 : FVec F S8192x1x28x28 .f32 := Host.absf main_arg0
  let main_cst : FVec F S_ .f32 := constant S_ .f32 0x7F800000#32
  let main_v1 : FVec F S8192x1x28x28 .f32 := broadcastInDim S8192x1x28x28 ![] bcast_S_S8192x1x28x28 main_cst
  let main_v2 : IVec S8192x1x28x28 1 := cmpf .olt main_v0 main_v1
  let main_c : IVec S_ 1 := constantI S_ 1 1#1
  let main_v3 : IVec S_ 1 := (fun x v => Host.reduce IntOp.andi x v reducesTo_S8192x1x28x28_S_d0_1_2_3 h_S_) main_v2 main_c
  let main_v4 : FVec F S160x512 .f32 := Host.absf main_arg1
  let main_cst_0 : FVec F S_ .f32 := constant S_ .f32 0x7F800000#32
  let main_v5 : FVec F S160x512 .f32 := broadcastInDim S160x512 ![] bcast_S_S160x512 main_cst_0
  let main_v6 : IVec S160x512 1 := cmpf .olt main_v4 main_v5
  let main_c_1 : IVec S_ 1 := constantI S_ 1 1#1
  let main_v7 : IVec S_ 1 := (fun x v => Host.reduce IntOp.andi x v reducesTo_S160x512_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S1280x640 .f32 := Host.absf main_arg3
  let main_cst_4 : FVec F S_ .f32 := constant S_ .f32 0x7F800000#32
  let main_v15 : FVec F S1280x640 .f32 := broadcastInDim S1280x640 ![] bcast_S_S1280x640 main_cst_4
  let main_v16 : IVec S1280x640 1 := cmpf .olt main_v14 main_v15
  fn_part1 (F := F) main_arg4 main_arg5 main_arg6 main_arg7 main_arg8 main_arg9 main_arg10 main_v13 main_v16
-- ==== Kernel.lean ====
abbrev S8192x1x28x28 : Shape := ⟨4, ![8192, 1, 28, 28]⟩
abbrev S160x512 : Shape := ⟨2, ![160, 512]⟩
abbrev S1x128 : Shape := ⟨2, ![1, 128]⟩
abbrev S1280x640 : Shape := ⟨2, ![1280, 640]⟩
abbrev S1x640 : Shape := ⟨2, ![1, 640]⟩
abbrev S800x64 : Shape := ⟨2, ![800, 64]⟩
abbrev S1x64 : Shape := ⟨2, ![1, 64]⟩
abbrev S64x32 : Shape := ⟨2, ![64, 32]⟩
abbrev S1x32 : Shape := ⟨2, ![1, 32]⟩
abbrev S32x128 : Shape := ⟨2, ![32, 128]⟩
abbrev S256x32x128 : Shape := ⟨3, ![256, 32, 128]⟩
abbrev S8192x128 : Shape := ⟨2, ![8192, 128]⟩
abbrev S8192x10 : Shape := ⟨2, ![8192, 10]⟩
abbrev S32x1x28x28 : Shape := ⟨4, ![32, 1, 28, 28]⟩
abbrev S1x32x128 : Shape := ⟨3, ![1, 32, 128]⟩
abbrev S32x28x28 : Shape := ⟨3, ![32, 28, 28]⟩
abbrev S32x8x28 : Shape := ⟨3, ![32, 8, 28]⟩
abbrev S32x36x28 : Shape := ⟨3, ![32, 36, 28]⟩
abbrev S32x36x8 : Shape := ⟨3, ![32, 36, 8]⟩
abbrev S32x36x36 : Shape := ⟨3, ![32, 36, 36]⟩
abbrev S32x9x4x36 : Shape := ⟨4, ![32, 9, 4, 36]⟩
abbrev S32x8x1x32 : Shape := ⟨4, ![32, 8, 1, 32]⟩
abbrev S32x8x32 : Shape := ⟨3, ![32, 8, 32]⟩
abbrev S32x8x160 : Shape := ⟨3, ![32, 8, 160]⟩
abbrev S32x1x8x160 : Shape := ⟨4, ![32, 1, 8, 160]⟩
abbrev S32x4x8x160 : Shape := ⟨4, ![32, 4, 8, 160]⟩
abbrev S1024x160 : Shape := ⟨2, ![1024, 160]⟩
abbrev S1024x512 : Shape := ⟨2, ![1024, 512]⟩
abbrev S1024x128 : Shape := ⟨2, ![1024, 128]⟩
abbrev S32x4x8x128 : Shape := ⟨4, ![32, 4, 8, 128]⟩
abbrev S32x1x8x128 : Shape := ⟨4, ![32, 1, 8, 128]⟩
abbrev S32x8x128 : Shape := ⟨3, ![32, 8, 128]⟩
abbrev S32x7x128 : Shape := ⟨3, ![32, 7, 128]⟩
abbrev S32x1x128 : Shape := ⟨3, ![32, 1, 128]⟩
abbrev S32x6x128 : Shape := ⟨3, ![32, 6, 128]⟩
abbrev S32x2x128 : Shape := ⟨3, ![32, 2, 128]⟩
abbrev S32x8x1280 : Shape := ⟨3, ![32, 8, 1280]⟩
abbrev S256x1280 : Shape := ⟨2, ![256, 1280]⟩
abbrev S256x640 : Shape := ⟨2, ![256, 640]⟩
abbrev S256x160 : Shape := ⟨2, ![256, 160]⟩
abbrev S32x1x160 : Shape := ⟨3, ![32, 1, 160]⟩
abbrev S32x160 : Shape := ⟨2, ![32, 160]⟩
abbrev S32x800 : Shape := ⟨2, ![32, 800]⟩
abbrev S32x64 : Shape := ⟨2, ![32, 64]⟩
abbrev S32x32 : Shape := ⟨2, ![32, 32]⟩
abbrev S32 : Shape := ⟨1, ![32]⟩
abbrev S32x1 : Shape := ⟨2, ![32, 1]⟩

abbrev nBuf : Space → Nat
  | .hbm => 17
  | .vmem => 14
  | .smem => 0
  | _ => 0

abbrev bufTy : (tb : Table) → Fin (tcTables nBuf tb) → BufTy
  | .hbm, ⟨0, _⟩ => ⟨S8192x1x28x28, .f32⟩
  | .hbm, ⟨1, _⟩ => ⟨S160x512, .f32⟩
  | .hbm, ⟨2, _⟩ => ⟨S1x128, .f32⟩
  | .hbm, ⟨3, _⟩ => ⟨S1280x640, .f32⟩
  | .hbm, ⟨4, _⟩ => ⟨S1x640, .f32⟩
  | .hbm, ⟨5, _⟩ => ⟨S800x64, .f32⟩
  | .hbm, ⟨6, _⟩ => ⟨S1x64, .f32⟩
  | .hbm, ⟨7, _⟩ => ⟨S64x32, .f32⟩
  | .hbm, ⟨8, _⟩ => ⟨S1x32, .f32⟩
  | .hbm, ⟨9, _⟩ => ⟨S32x128, .f32⟩
  | .hbm, ⟨10, _⟩ => ⟨S1x128, .f32⟩
  | .hbm, ⟨11, _⟩ => ⟨S160x512, .bf16⟩
  | .hbm, ⟨12, _⟩ => ⟨S1280x640, .bf16⟩
  | .hbm, ⟨13, _⟩ => ⟨S800x64, .bf16⟩
  | .hbm, ⟨14, _⟩ => ⟨S256x32x128, .f32⟩
  | .hbm, ⟨15, _⟩ => ⟨S8192x128, .f32⟩
  | .hbm, ⟨16, _⟩ => ⟨S8192x10, .f32⟩
  | .local _ .vmem, ⟨0, _⟩ => ⟨S32x1x28x28, .f32⟩
  | .local _ .vmem, ⟨1, _⟩ => ⟨S32x1x28x28, .f32⟩
  | .local _ .vmem, ⟨2, _⟩ => ⟨S160x512, .bf16⟩
  | .local _ .vmem, ⟨3, _⟩ => ⟨S1x128, .f32⟩
  | .local _ .vmem, ⟨4, _⟩ => ⟨S1280x640, .bf16⟩
  | .local _ .vmem, ⟨5, _⟩ => ⟨S1x640, .f32⟩
  | .local _ .vmem, ⟨6, _⟩ => ⟨S800x64, .bf16⟩
  | .local _ .vmem, ⟨7, _⟩ => ⟨S1x64, .f32⟩
  | .local _ .vmem, ⟨8, _⟩ => ⟨S64x32, .f32⟩
  | .local _ .vmem, ⟨9, _⟩ => ⟨S1x32, .f32⟩
  | .local _ .vmem, ⟨10, _⟩ => ⟨S32x128, .f32⟩
  | .local _ .vmem, ⟨11, _⟩ => ⟨S1x128, .f32⟩
  | .local _ .vmem, ⟨12, _⟩ => ⟨S1x32x128, .f32⟩
  | .local _ .vmem, ⟨13, _⟩ => ⟨S1x32x128, .f32⟩
  | _, _ => ⟨S8192x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![256], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x1x28x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S160x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1280x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S800x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x32x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  shapeCasts_S256x32x128_S8192x128 : S256x32x128.ShapeCasts S8192x128
  slices_S8192x128_S8192x10_0_0 : S8192x128.Slices ![0, 0] S8192x10
  inb_S32x1x28x28_S32x1x28x28_0_0_0_0 : ∀ a, (![0, 0, 0, 0] : Fin 4 → Nat) a + S32x1x28x28.size a ≤ S32x1x28x28.size a
  h_S32x1x28x28 : 0 < S32x1x28x28.numel
  shapeCasts_S32x1x28x28_S32x28x28 : S32x1x28x28.ShapeCasts S32x28x28
  concatenates_S32x28x28_S32x8x28_S32x36x28_d1 : Shape.Concatenates [S32x28x28, S32x8x28] S32x36x28 1
  concatenates_S32x36x28_S32x36x8_S32x36x36_d2 : Shape.Concatenates [S32x36x28, S32x36x8] S32x36x36 2
  shapeCasts_S32x36x36_S32x9x4x36 : S32x36x36.ShapeCasts S32x9x4x36
  slices_S32x9x4x36_o0_0_0_0_S32x8x1x32 : S32x9x4x36.Slices ![0, 0, 0, 0] S32x8x1x32
  shapeCasts_S32x8x1x32_S32x8x32 : S32x8x1x32.ShapeCasts S32x8x32
  slices_S32x9x4x36_o0_0_1_0_S32x8x1x32 : S32x9x4x36.Slices ![0, 0, 1, 0] S32x8x1x32
  slices_S32x9x4x36_o0_0_2_0_S32x8x1x32 : S32x9x4x36.Slices ![0, 0, 2, 0] S32x8x1x32
  slices_S32x9x4x36_o0_0_3_0_S32x8x1x32 : S32x9x4x36.Slices ![0, 0, 3, 0] S32x8x1x32
  slices_S32x9x4x36_o0_1_0_0_S32x8x1x32 : S32x9x4x36.Slices ![0, 1, 0, 0] S32x8x1x32
  concatenates_S32x8x32_S32x8x32_S32x8x32_S32x8x32_S32x8x32_S32x8x160_d2 : Shape.Concatenates [S32x8x32, S32x8x32, S32x8x32, S32x8x32, S32x8x32] S32x8x160 2
  slices_S32x9x4x36_o0_0_0_2_S32x8x1x32 : S32x9x4x36.Slices ![0, 0, 0, 2] S32x8x1x32
  slices_S32x9x4x36_o0_0_1_2_S32x8x1x32 : S32x9x4x36.Slices ![0, 0, 1, 2] S32x8x1x32
  slices_S32x9x4x36_o0_0_2_2_S32x8x1x32 : S32x9x4x36.Slices ![0, 0, 2, 2] S32x8x1x32
  slices_S32x9x4x36_o0_0_3_2_S32x8x1x32 : S32x9x4x36.Slices ![0, 0, 3, 2] S32x8x1x32
  slices_S32x9x4x36_o0_1_0_2_S32x8x1x32 : S32x9x4x36.Slices ![0, 1, 0, 2] S32x8x1x32
  slices_S32x9x4x36_o0_1_1_0_S32x8x1x32 : S32x9x4x36.Slices ![0, 1, 1, 0] S32x8x1x32
  slices_S32x9x4x36_o0_1_2_0_S32x8x1x32 : S32x9x4x36.Slices ![0, 1, 2, 0] S32x8x1x32
  slices_S32x9x4x36_o0_1_1_2_S32x8x1x32 : S32x9x4x36.Slices ![0, 1, 1, 2] S32x8x1x32
  slices_S32x9x4x36_o0_1_2_2_S32x8x1x32 : S32x9x4x36.Slices ![0, 1, 2, 2] S32x8x1x32
  shapeCasts_S32x8x160_S32x1x8x160 : S32x8x160.ShapeCasts S32x1x8x160
  concatenates_S32x1x8x160_S32x1x8x160_S32x1x8x160_S32x1x8x160_S32x4x8x160_d1 : Shape.Concatenates [S32x1x8x160, S32x1x8x160, S32x1x8x160, S32x1x8x160] S32x4x8x160 1
  shapeCasts_S32x4x8x160_S1024x160 : S32x4x8x160.ShapeCasts S1024x160
  inb_S160x512_S160x512_0_0 : ∀ a, (![0, 0] : Fin 2 → Nat) a + S160x512.size a ≤ S160x512.size a
  h_S160x512 : 0 < S160x512.numel
  shapeCasts_S160x512_S160x512 : S160x512.ShapeCasts S160x512
  slices_S1024x512_o0_0_S1024x128 : S1024x512.Slices ![0, 0] S1024x128
  slices_S1024x512_o0_128_S1024x128 : S1024x512.Slices ![0, 128] S1024x128
  slices_S1024x512_o0_256_S1024x128 : S1024x512.Slices ![0, 256] S1024x128
  slices_S1024x512_o0_384_S1024x128 : S1024x512.Slices ![0, 384] S1024x128
  inb_S1x128_S1x128_0_0 : ∀ a, (![0, 0] : Fin 2 → Nat) a + S1x128.size a ≤ S1x128.size a
  h_S1x128 : 0 < S1x128.numel
  broadcasts_S1x128_S1024x128 : S1x128.Broadcasts S1024x128
  shapeCasts_S1024x128_S32x4x8x128 : S1024x128.ShapeCasts S32x4x8x128
  slices_S32x4x8x128_o0_0_0_0_S32x1x8x128 : S32x4x8x128.Slices ![0, 0, 0, 0] S32x1x8x128
  shapeCasts_S32x1x8x128_S32x8x128 : S32x1x8x128.ShapeCasts S32x8x128
  slices_S32x4x8x128_o0_1_0_0_S32x1x8x128 : S32x4x8x128.Slices ![0, 1, 0, 0] S32x1x8x128
  slices_S32x4x8x128_o0_2_0_0_S32x1x8x128 : S32x4x8x128.Slices ![0, 2, 0, 0] S32x1x8x128
  slices_S32x4x8x128_o0_3_0_0_S32x1x8x128 : S32x4x8x128.Slices ![0, 3, 0, 0] S32x1x8x128
  slices_S32x8x128_o0_1_0_S32x7x128 : S32x8x128.Slices ![0, 1, 0] S32x7x128
  concatenates_S32x7x128_S32x1x128_S32x8x128_d1 : Shape.Concatenates [S32x7x128, S32x1x128] S32x8x128 1
  slices_S32x8x128_o0_2_0_S32x6x128 : S32x8x128.Slices ![0, 2, 0] S32x6x128
  concatenates_S32x6x128_S32x2x128_S32x8x128_d1 : Shape.Concatenates [S32x6x128, S32x2x128] S32x8x128 1
  concatenates_S32x8x128_S32x8x128_S32x8x128_S32x8x128_S32x8x128_S32x8x128_S32x8x128_S32x8x128_S32x8x128_S32x8x128_S32x8x1280_d2 : Shape.Concatenates [S32x8x128, S32x8x128, S32x8x128, S32x8x128, S32x8x128, S32x8x128, S32x8x128, S32x8x128, S32x8x128, S32x8x128] S32x8x1280 2
  shapeCasts_S32x8x1280_S256x1280 : S32x8x1280.ShapeCasts S256x1280
  inb_S1280x640_S1280x640_0_0 : ∀ a, (![0, 0] : Fin 2 → Nat) a + S1280x640.size a ≤ S1280x640.size a
  h_S1280x640 : 0 < S1280x640.numel
  shapeCasts_S1280x640_S1280x640 : S1280x640.ShapeCasts S1280x640
  inb_S1x640_S1x640_0_0 : ∀ a, (![0, 0] : Fin 2 → Nat) a + S1x640.size a ≤ S1x640.size a
  h_S1x640 : 0 < S1x640.numel
  broadcasts_S1x640_S256x640 : S1x640.Broadcasts S256x640
  slices_S256x640_o0_0_S256x160 : S256x640.Slices ![0, 0] S256x160
  slices_S256x640_o0_160_S256x160 : S256x640.Slices ![0, 160] S256x160
  slices_S256x640_o0_320_S256x160 : S256x640.Slices ![0, 320] S256x160
  slices_S256x640_o0_480_S256x160 : S256x640.Slices ![0, 480] S256x160
  shapeCasts_S256x160_S32x8x160 : S256x160.ShapeCasts S32x8x160
  slices_S32x8x160_o0_0_0_S32x1x160 : S32x8x160.Slices ![0, 0, 0] S32x1x160
  shapeCasts_S32x1x160_S32x160 : S32x1x160.ShapeCasts S32x160
  slices_S32x8x160_o0_1_0_S32x1x160 : S32x8x160.Slices ![0, 1, 0] S32x1x160
  slices_S32x8x160_o0_2_0_S32x1x160 : S32x8x160.Slices ![0, 2, 0] S32x1x160
  slices_S32x8x160_o0_3_0_S32x1x160 : S32x8x160.Slices ![0, 3, 0] S32x1x160
  slices_S32x8x160_o0_4_0_S32x1x160 : S32x8x160.Slices ![0, 4, 0] S32x1x160
  concatenates_S32x160_S32x160_S32x160_S32x160_S32x160_S32x800_d1 : Shape.Concatenates [S32x160, S32x160, S32x160, S32x160, S32x160] S32x800 1
  inb_S800x64_S800x64_0_0 : ∀ a, (![0, 0] : Fin 2 → Nat) a + S800x64.size a ≤ S800x64.size a
  h_S800x64 : 0 < S800x64.numel
  shapeCasts_S800x64_S800x64 : S800x64.ShapeCasts S800x64
  inb_S1x64_S1x64_0_0 : ∀ a, (![0, 0] : Fin 2 → Nat) a + S1x64.size a ≤ S1x64.size a
  h_S1x64 : 0 < S1x64.numel
  broadcasts_S1x64_S32x64 : S1x64.Broadcasts S32x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  broadcasts_S1x32_S32x32 : S1x32.Broadcasts S32x32
  inb_S32x128_S32x128_0_0 : ∀ a, (![0, 0] : Fin 2 → Nat) a + S32x128.size a ≤ S32x128.size a
  h_S32x128 : 0 < S32x128.numel
  broadcasts_S1x128_S32x128 : S1x128.Broadcasts S32x128
  reduces_S32x128_S32 : S32x128.Reduces [1] S32
  shapeCasts_S32_S32x1 : S32.ShapeCasts S32x1
  broadcasts_S32x1_S32x128 : S32x1.Broadcasts S32x128
  shapeCasts_S32x128_S1x32x128 : S32x128.ShapeCasts S1x32x128
  inb_S1x32x128_S1x32x128_0_0_0 : ∀ a, (![0, 0, 0] : Fin 3 → Nat) a + S1x32x128.size a ≤ S1x32x128.size a
  h_S1x32x128 : 0 < S1x32x128.numel
  dot_S1024x160_S160x512_S1024x512_1_0_0_1_n_n_wf : DotDims.WF S1024x160 S160x512 S1024x512 [1] [0] [0] [1] [] []
  dot_S256x1280_S1280x640_S256x640_1_0_0_1_n_n_wf : DotDims.WF S256x1280 S1280x640 S256x640 [1] [0] [0] [1] [] []
  dot_S32x800_S800x64_S32x64_1_0_0_1_n_n_wf : DotDims.WF S32x800 S800x64 S32x64 [1] [0] [0] [1] [] []
  dot_S32x64_S64x32_S32x32_1_0_0_1_n_n_wf : DotDims.WF S32x64 S64x32 S32x32 [1] [0] [0] [1] [] []
  dot_S32x32_S32x128_S32x128_1_0_0_1_n_n_wf : DotDims.WF S32x32 S32x128 S32x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1x28x28.size a ≤ S8192x1x28x28.size a
  hwx0_0 : ∀ i : grid0.Coords, EltTy.bits .f32 = 32 ∨ (Rect.block (s := S8192x1x28x28) S32x1x28x28.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S160x512.size a ≤ S160x512.size a
  hwx0_1 : ∀ i : grid0.Coords, EltTy.bits .bf16 = 32 ∨ (Rect.block (s := S160x512) S160x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1280x640.size a ≤ S1280x640.size a
  hwx0_3 : ∀ i : grid0.Coords, EltTy.bits .bf16 = 32 ∨ (Rect.block (s := S1280x640) S1280x640.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x640.size a ≤ S1x640.size a
  hwx0_4 : ∀ i : grid0.Coords, EltTy.bits .f32 = 32 ∨ (Rect.block (s := S1x640) S1x640.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S800x64.size a ≤ S800x64.size a
  hwx0_5 : ∀ i : grid0.Coords, EltTy.bits .bf16 = 32 ∨ (Rect.block (s := S800x64) S800x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .f32 = 32 ∨ (Rect.block (s := S64x32) S64x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x128.size a ≤ S32x128.size a
  hwx0_9 : ∀ i : grid0.Coords, EltTy.bits .f32 = 32 ∨ (Rect.block (s := S32x128) S32x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x32x128.size a ≤ S256x32x128.size a
  hwx0_11 : ∀ i : grid0.Coords, EltTy.bits .f32 = 32 ∨ (Rect.block (s := S256x32x128) S1x32x128.size (cc0_transform_11 i) (hinb0_11 i)).WholeWords (EltTy.packing .f32)

variable [Facts₀]

def dot_S1024x160_S160x512_S1024x512_1_0_0_1_n_n : DotDims S1024x160 S160x512 S1024x512 where
  lhsContracting := [1]
  rhsContracting := [0]
  lhsNonContracting := [0]
  rhsNonContracting := [1]
  lhsBatch := []
  rhsBatch := []
  wf := dot_S1024x160_S160x512_S1024x512_1_0_0_1_n_n_wf
def dot_S256x1280_S1280x640_S256x640_1_0_0_1_n_n : DotDims S256x1280 S1280x640 S256x640 where
  lhsContracting := [1]
  rhsContracting := [0]
  lhsNonContracting := [0]
  rhsNonContracting := [1]
  lhsBatch := []
  rhsBatch := []
  wf := dot_S256x1280_S1280x640_S256x640_1_0_0_1_n_n_wf
def dot_S32x800_S800x64_S32x64_1_0_0_1_n_n : DotDims S32x800 S800x64 S32x64 where
  lhsContracting := [1]
  rhsContracting := [0]
  lhsNonContracting := [0]
  rhsNonContracting := [1]
  lhsBatch := []
  rhsBatch := []
  wf := dot_S32x800_S800x64_S32x64_1_0_0_1_n_n_wf
def dot_S32x64_S64x32_S32x32_1_0_0_1_n_n : DotDims S32x64 S64x32 S32x32 where
  lhsContracting := [1]
  rhsContracting := [0]
  lhsNonContracting := [0]
  rhsNonContracting := [1]
  lhsBatch := []
  rhsBatch := []
  wf := dot_S32x64_S64x32_S32x32_1_0_0_1_n_n_wf
def dot_S32x32_S32x128_S32x128_1_0_0_1_n_n : DotDims S32x32 S32x128 S32x128 where
  lhsContracting := [1]
  rhsContracting := [0]
  lhsNonContracting := [0]
  rhsNonContracting := [1]
  lhsBatch := []
  rhsBatch := []
  wf := dot_S32x32_S32x128_S32x128_1_0_0_1_n_n_wf

abbrev win0_0 : Pipeline.Window sig grid0 :=
  Pipeline.Window.ofSpec (Memref.whole main_arg0) S32x1x28x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S160x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1280x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S800x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S32x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v3) S1x32x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8192x1x28x28 : Shape := ⟨4, ![8192, 1, 28, 28]⟩
abbrev S160x512 : Shape := ⟨2, ![160, 512]⟩
abbrev S1x128 : Shape := ⟨2, ![1, 128]⟩
abbrev S1280x640 : Shape := ⟨2, ![1280, 640]⟩
abbrev S1x640 : Shape := ⟨2, ![1, 640]⟩
abbrev S800x64 : Shape := ⟨2, ![800, 64]⟩
abbrev S1x64 : Shape := ⟨2, ![1, 64]⟩
abbrev S64x32 : Shape := ⟨2, ![64, 32]⟩
abbrev S1x32 : Shape := ⟨2, ![1, 32]⟩
abbrev S32x128 : Shape := ⟨2, ![32, 128]⟩
abbrev S8192x28x28 : Shape := ⟨3, ![8192, 28, 28]⟩
abbrev S_ : Shape := ⟨0, ![]⟩
abbrev S8192x36x36 : Shape := ⟨3, ![8192, 36, 36]⟩
abbrev S8 : Shape := ⟨1, ![8]⟩
abbrev S8x1x1 : Shape := ⟨3, ![8, 1, 1]⟩
abbrev S2 : Shape := ⟨1, ![2]⟩
abbrev S1x2x1 : Shape := ⟨3, ![1, 2, 1]⟩
abbrev S5 : Shape := ⟨1, ![5]⟩
abbrev S1x1x5 : Shape := ⟨3, ![1, 1, 5]⟩
abbrev S8x2x1 : Shape := ⟨3, ![8, 2, 1]⟩
abbrev S8x2x5 : Shape := ⟨3, ![8, 2, 5]⟩
abbrev S2x1 : Shape := ⟨2, ![2, 1]⟩
abbrev S32 : Shape := ⟨1, ![32]⟩
abbrev S2x32 : Shape := ⟨2, ![2, 32]⟩
abbrev S8x2x5x1x1 : Shape := ⟨5, ![8, 2, 5, 1, 1]⟩
abbrev S1x1x1x2x32 : Shape := ⟨5, ![1, 1, 1, 2, 32]⟩
abbrev S8x2x5x2x32 : Shape := ⟨5, ![8, 2, 5, 2, 32]⟩
abbrev S8x2x5x2x32x1 : Shape := ⟨6, ![8, 2, 5, 2, 32, 1]⟩
abbrev S8x2x5x2x32x2 : Shape := ⟨6, ![8, 2, 5, 2, 32, 2]⟩
abbrev S8192x8x2x5x2x32 : Shape := ⟨6, ![8192, 8, 2, 5, 2, 32]⟩
abbrev S8192x2x2x8x5x32 : Shape := ⟨6, ![8192, 2, 2, 8, 5, 32]⟩
abbrev S8192x32x160 : Shape := ⟨3, ![8192, 32, 160]⟩
abbrev S256x32x128 : Shape := ⟨3, ![256, 32, 128]⟩
abbrev S8192x128 : Shape := ⟨2, ![8192, 128]⟩
abbrev S8192x10 : Shape := ⟨2, ![8192, 10]⟩
abbrev S32x32x160 : Shape := ⟨3, ![32, 32, 160]⟩
abbrev S1x32x128 : Shape := ⟨3, ![1, 32, 128]⟩
abbrev S1024x160 : Shape := ⟨2, ![1024, 160]⟩
abbrev S1024x512 : Shape := ⟨2, ![1024, 512]⟩
abbrev S1024x128 : Shape := ⟨2, ![1024, 128]⟩
abbrev S32x4x8x128 : Shape := ⟨4, ![32, 4, 8, 128]⟩
abbrev S32x1x8x128 : Shape := ⟨4, ![32, 1, 8, 128]⟩
abbrev S32x8x128 : Shape := ⟨3, ![32, 8, 128]⟩
abbrev S32x7x128 : Shape := ⟨3, ![32, 7, 128]⟩
abbrev S32x1x128 : Shape := ⟨3, ![32, 1, 128]⟩
abbrev S32x6x128 : Shape := ⟨3, ![32, 6, 128]⟩
abbrev S32x2x128 : Shape := ⟨3, ![32, 2, 128]⟩
abbrev S32x8x1280 : Shape := ⟨3, ![32, 8, 1280]⟩
abbrev S256x1280 : Shape := ⟨2, ![256, 1280]⟩
abbrev S256x640 : Shape := ⟨2, ![256, 640]⟩
abbrev S256x160 : Shape := ⟨2, ![256, 160]⟩
abbrev S32x8x160 : Shape := ⟨3, ![32, 8, 160]⟩
abbrev S32x1x160 : Shape := ⟨3, ![32, 1, 160]⟩
abbrev S32x160 : Shape := ⟨2, ![32, 160]⟩
abbrev S32x800 : Shape := ⟨2, ![32, 800]⟩
abbrev S32x64 : Shape := ⟨2, ![32, 64]⟩
abbrev S32x32 : Shape := ⟨2, ![32, 32]⟩
abbrev S32x1 : Shape := ⟨2, ![32, 1]⟩

abbrev nBuf : Space → Nat
  | .hbm => 70
  | .vmem => 14
  | .smem => 0
  | _ => 0

abbrev bufTy : (tb : Table) → Fin (tcTables nBuf tb) → BufTy
  | .hbm, ⟨0, _⟩ => ⟨S8192x1x28x28, .f32⟩
  | .hbm, ⟨1, _⟩ => ⟨S160x512, .f32⟩
  | .hbm, ⟨2, _⟩ => ⟨S1x128, .f32⟩
  | .hbm, ⟨3, _⟩ => ⟨S1280x640, .f32⟩
  | .hbm, ⟨4, _⟩ => ⟨S1x640, .f32⟩
  | .hbm, ⟨5, _⟩ => ⟨S800x64, .f32⟩
  | .hbm, ⟨6, _⟩ => ⟨S1x64, .f32⟩
  | .hbm, ⟨7, _⟩ => ⟨S64x32, .f32⟩
  | .hbm, ⟨8, _⟩ => ⟨S1x32, .f32⟩
  | .hbm, ⟨9, _⟩ => ⟨S32x128, .f32⟩
  | .hbm, ⟨10, _⟩ => ⟨S1x128, .f32⟩
  | .hbm, ⟨11, _⟩ => ⟨S8192x28x28, .f32⟩
  | .hbm, ⟨12, _⟩ => ⟨S_, .i32⟩
  | .hbm, ⟨13, _⟩ => ⟨S_, .f32⟩
  | .hbm, ⟨14, _⟩ => ⟨S8192x36x36, .f32⟩
  | .hbm, ⟨15, _⟩ => ⟨S8, .i32⟩
  | .hbm, ⟨16, _⟩ => ⟨S8x1x1, .i32⟩
  | .hbm, ⟨17, _⟩ => ⟨S2, .i32⟩
  | .hbm, ⟨18, _⟩ => ⟨S1x2x1, .i32⟩
  | .hbm, ⟨19, _⟩ => ⟨S5, .i32⟩
  | .hbm, ⟨20, _⟩ => ⟨S1x1x5, .i32⟩
  | .hbm, ⟨21, _⟩ => ⟨S_, .i32⟩
  | .hbm, ⟨22, _⟩ => ⟨S8x1x1, .i32⟩
  | .hbm, ⟨23, _⟩ => ⟨S8x1x1, .i32⟩
  | .hbm, ⟨24, _⟩ => ⟨S_, .i32⟩
  | .hbm, ⟨25, _⟩ => ⟨S1x2x1, .i32⟩
  | .hbm, ⟨26, _⟩ => ⟨S1x2x1, .i32⟩
  | .hbm, ⟨27, _⟩ => ⟨S8x2x1, .i32⟩
  | .hbm, ⟨28, _⟩ => ⟨S8x2x1, .i32⟩
  | .hbm, ⟨29, _⟩ => ⟨S8x2x1, .i32⟩
  | .hbm, ⟨30, _⟩ => ⟨S8x2x5, .i32⟩
  | .hbm, ⟨31, _⟩ => ⟨S8x2x5, .i32⟩
  | .hbm, ⟨32, _⟩ => ⟨S8x2x5, .i32⟩
  | .hbm, ⟨33, _⟩ => ⟨S2, .i32⟩
  | .hbm, ⟨34, _⟩ => ⟨S2x1, .i32⟩
  | .hbm, ⟨35, _⟩ => ⟨S32, .i32⟩
  | .hbm, ⟨36, _⟩ => ⟨S1x32, .i32⟩
  | .hbm, ⟨37, _⟩ => ⟨S_, .i32⟩
  | .hbm, ⟨38, _⟩ => ⟨S2x1, .i32⟩
  | .hbm, ⟨39, _⟩ => ⟨S2x1, .i32⟩
  | .hbm, ⟨40, _⟩ => ⟨S2x32, .i32⟩
  | .hbm, ⟨41, _⟩ => ⟨S2x32, .i32⟩
  | .hbm, ⟨42, _⟩ => ⟨S2x32, .i32⟩
  | .hbm, ⟨43, _⟩ => ⟨S8x2x5x1x1, .i32⟩
  | .hbm, ⟨44, _⟩ => ⟨S1x1x1x2x32, .i32⟩
  | .hbm, ⟨45, _⟩ => ⟨S_, .i32⟩
  | .hbm, ⟨46, _⟩ => ⟨S8x2x5x1x1, .i32⟩
  | .hbm, ⟨47, _⟩ => ⟨S8x2x5x1x1, .i1⟩
  | .hbm, ⟨48, _⟩ => ⟨S_, .i32⟩
  | .hbm, ⟨49, _⟩ => ⟨S8x2x5x1x1, .i32⟩
  | .hbm, ⟨50, _⟩ => ⟨S8x2x5x1x1, .i32⟩
  | .hbm, ⟨51, _⟩ => ⟨S8x2x5x1x1, .i32⟩
  | .hbm, ⟨52, _⟩ => ⟨S_, .i32⟩
  | .hbm, ⟨53, _⟩ => ⟨S1x1x1x2x32, .i32⟩
  | .hbm, ⟨54, _⟩ => ⟨S1x1x1x2x32, .i1⟩
  | .hbm, ⟨55, _⟩ => ⟨S_, .i32⟩
  | .hbm, ⟨56, _⟩ => ⟨S1x1x1x2x32, .i32⟩
  | .hbm, ⟨57, _⟩ => ⟨S1x1x1x2x32, .i32⟩
  | .hbm, ⟨58, _⟩ => ⟨S1x1x1x2x32, .i32⟩
  | .hbm, ⟨59, _⟩ => ⟨S8x2x5x2x32, .i32⟩
  | .hbm, ⟨60, _⟩ => ⟨S8x2x5x2x32, .i32⟩
  | .hbm, ⟨61, _⟩ => ⟨S8x2x5x2x32x1, .i32⟩
  | .hbm, ⟨62, _⟩ => ⟨S8x2x5x2x32x1, .i32⟩
  | .hbm, ⟨63, _⟩ => ⟨S8x2x5x2x32x2, .i32⟩
  | .hbm, ⟨64, _⟩ => ⟨S8192x8x2x5x2x32, .f32⟩
  | .hbm, ⟨65, _⟩ => ⟨S8192x2x2x8x5x32, .f32⟩
  | .hbm, ⟨66, _⟩ => ⟨S8192x32x160, .f32⟩
  | .hbm, ⟨67, _⟩ => ⟨S256x32x128, .f32⟩
  | .hbm, ⟨68, _⟩ => ⟨S8192x128, .f32⟩
  | .hbm, ⟨69, _⟩ => ⟨S8192x10, .f32⟩
  | .local _ .vmem, ⟨0, _⟩ => ⟨S32x32x160, .f32⟩
  | .local _ .vmem, ⟨1, _⟩ => ⟨S32x32x160, .f32⟩
  | .local _ .vmem, ⟨2, _⟩ => ⟨S160x512, .f32⟩
  | .local _ .vmem, ⟨3, _⟩ => ⟨S1x128, .f32⟩
  | .local _ .vmem, ⟨4, _⟩ => ⟨S1280x640, .f32⟩
  | .local _ .vmem, ⟨5, _⟩ => ⟨S1x640, .f32⟩
  | .local _ .vmem, ⟨6, _⟩ => ⟨S800x64, .f32⟩
  | .local _ .vmem, ⟨7, _⟩ => ⟨S1x64, .f32⟩
  | .local _ .vmem, ⟨8, _⟩ => ⟨S64x32, .f32⟩
  | .local _ .vmem, ⟨9, _⟩ => ⟨S1x32, .f32⟩
  | .local _ .vmem, ⟨10, _⟩ => ⟨S32x128, .f32⟩
  | .local _ .vmem, ⟨11, _⟩ => ⟨S1x128, .f32⟩
  | .local _ .vmem, ⟨12, _⟩ => ⟨S1x32x128, .f32⟩
  | .local _ .vmem, ⟨13, _⟩ => ⟨S1x32x128, .f32⟩
  | _, _ => ⟨S8192x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_c : Ref sig .tc := ⟨.hbm, 12, rfl⟩
abbrev main_call0_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_c_0 : Ref sig .tc := ⟨.hbm, 21, rfl⟩
abbrev main_call0_v8 : Ref sig .tc := ⟨.hbm, 22, rfl⟩
abbrev main_call0_v9 : Ref sig .tc := ⟨.hbm, 23, rfl⟩
abbrev main_call0_c_1 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_call0_v17 : Ref sig .tc := ⟨.hbm, 32, rfl⟩
abbrev main_call0_v18 : Ref sig .tc := ⟨.hbm, 33, rfl⟩
abbrev main_call0_v19 : Ref sig .tc := ⟨.hbm, 34, rfl⟩
abbrev main_call0_v20 : Ref sig .tc := ⟨.hbm, 35, rfl⟩
abbrev main_call0_v21 : Ref sig .tc := ⟨.hbm, 36, rfl⟩
abbrev main_call0_c_2 : Ref sig .tc := ⟨.hbm, 37, rfl⟩
abbrev main_call0_v22 : Ref sig .tc := ⟨.hbm, 38, rfl⟩
abbrev main_call0_v23 : Ref sig .tc := ⟨.hbm, 39, rfl⟩
abbrev main_call0_v24 : Ref sig .tc := ⟨.hbm, 40, rfl⟩
abbrev main_call0_v25 : Ref sig .tc := ⟨.hbm, 41, rfl⟩
abbrev main_call0_v26 : Ref sig .tc := ⟨.hbm, 42, rfl⟩
abbrev main_call0_v27 : Ref sig .tc := ⟨.hbm, 43, rfl⟩
abbrev main_call0_v28 : Ref sig .tc := ⟨.hbm, 44, rfl⟩
abbrev main_call0_c_3 : Ref sig .tc := ⟨.hbm, 45, rfl⟩
abbrev main_call0_v29 : Ref sig .tc := ⟨.hbm, 46, rfl⟩
abbrev main_call0_v30 : Ref sig .tc := ⟨.hbm, 47, rfl⟩
abbrev main_call0_c_4 : Ref sig .tc := ⟨.hbm, 48, rfl⟩
abbrev main_call0_v31 : Ref sig .tc := ⟨.hbm, 49, rfl⟩
abbrev main_call0_v32 : Ref sig .tc := ⟨.hbm, 50, rfl⟩
abbrev main_call0_v33 : Ref sig .tc := ⟨.hbm, 51, rfl⟩
abbrev main_call0_c_5 : Ref sig .tc := ⟨.hbm, 52, rfl⟩
abbrev main_call0_v34 : Ref sig .tc := ⟨.hbm, 53, rfl⟩
abbrev main_call0_v35 : Ref sig .tc := ⟨.hbm, 54, rfl⟩
abbrev main_call0_c_6 : Ref sig .tc := ⟨.hbm, 55, rfl⟩
abbrev main_call0_v36 : Ref sig .tc := ⟨.hbm, 56, rfl⟩
abbrev main_call0_v37 : Ref sig .tc := ⟨.hbm, 57, rfl⟩
abbrev main_call0_v38 : Ref sig .tc := ⟨.hbm, 58, rfl⟩
abbrev main_call0_v39 : Ref sig .tc := ⟨.hbm, 59, rfl⟩
abbrev main_call0_v40 : Ref sig .tc := ⟨.hbm, 60, rfl⟩
abbrev main_call0_v41 : Ref sig .tc := ⟨.hbm, 61, rfl⟩
abbrev main_call0_v42 : Ref sig .tc := ⟨.hbm, 62, rfl⟩
abbrev main_call0_v43 : Ref sig .tc := ⟨.hbm, 63, rfl⟩
abbrev main_call0_v44 : Ref sig .tc := ⟨.hbm, 64, rfl⟩
abbrev main_call0_v45 : Ref sig .tc := ⟨.hbm, 65, rfl⟩
abbrev main_call0_v46 : Ref sig .tc := ⟨.hbm, 66, rfl⟩
abbrev main_call0_v47 : Ref sig .tc := ⟨.hbm, 67, rfl⟩
abbrev main_call0_v48 : Ref sig .tc := ⟨.hbm, 68, rfl⟩
abbrev main_v0 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x32x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S160x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1280x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S800x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x32x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S8192x1x28x28_S8192x28x28 : S8192x1x28x28.ShapeCasts S8192x28x28
  pads_S8192x28x28_S8192x36x36_000_080_080 : S8192x28x28.Pads (![0, 0, 0] : Fin 3 → Nat) ![0, 8, 8] ![0, 0, 0] S8192x36x36
  h_S_ : 0 < S_.numel
  bcast_S8_S8x1x1_0 : S8.BroadcastsInDim S8x1x1 (![0] : Fin 1 → Fin S8x1x1.rank)
  bcast_S2_S1x2x1_1 : S2.BroadcastsInDim S1x2x1 (![1] : Fin 1 → Fin S1x2x1.rank)
  bcast_S5_S1x1x5_2 : S5.BroadcastsInDim S1x1x5 (![2] : Fin 1 → Fin S1x1x5.rank)
  bcast_S_S8x1x1 : S_.BroadcastsInDim S8x1x1 (![] : Fin 0 → Fin S8x1x1.rank)
  bcast_S_S1x2x1 : S_.BroadcastsInDim S1x2x1 (![] : Fin 0 → Fin S1x2x1.rank)
  bcast_S8x1x1_S8x2x1_0_1_2 : S8x1x1.BroadcastsInDim S8x2x1 (![0, 1, 2] : Fin 3 → Fin S8x2x1.rank)
  bcast_S1x2x1_S8x2x1_0_1_2 : S1x2x1.BroadcastsInDim S8x2x1 (![0, 1, 2] : Fin 3 → Fin S8x2x1.rank)
  bcast_S8x2x1_S8x2x5_0_1_2 : S8x2x1.BroadcastsInDim S8x2x5 (![0, 1, 2] : Fin 3 → Fin S8x2x5.rank)
  bcast_S1x1x5_S8x2x5_0_1_2 : S1x1x5.BroadcastsInDim S8x2x5 (![0, 1, 2] : Fin 3 → Fin S8x2x5.rank)
  bcast_S2_S2x1_0 : S2.BroadcastsInDim S2x1 (![0] : Fin 1 → Fin S2x1.rank)
  bcast_S32_S1x32_1 : S32.BroadcastsInDim S1x32 (![1] : Fin 1 → Fin S1x32.rank)
  bcast_S_S2x1 : S_.BroadcastsInDim S2x1 (![] : Fin 0 → Fin S2x1.rank)
  bcast_S2x1_S2x32_0_1 : S2x1.BroadcastsInDim S2x32 (![0, 1] : Fin 2 → Fin S2x32.rank)
  bcast_S1x32_S2x32_0_1 : S1x32.BroadcastsInDim S2x32 (![0, 1] : Fin 2 → Fin S2x32.rank)
  bcast_S8x2x5_S8x2x5x1x1_0_1_2 : S8x2x5.BroadcastsInDim S8x2x5x1x1 (![0, 1, 2] : Fin 3 → Fin S8x2x5x1x1.rank)
  bcast_S2x32_S1x1x1x2x32_3_4 : S2x32.BroadcastsInDim S1x1x1x2x32 (![3, 4] : Fin 2 → Fin S1x1x1x2x32.rank)
  bcast_S_S8x2x5x1x1 : S_.BroadcastsInDim S8x2x5x1x1 (![] : Fin 0 → Fin S8x2x5x1x1.rank)
  bcast_S_S1x1x1x2x32 : S_.BroadcastsInDim S1x1x1x2x32 (![] : Fin 0 → Fin S1x1x1x2x32.rank)
  bcast_S8x2x5x1x1_S8x2x5x2x32_0_1_2_3_4 : S8x2x5x1x1.BroadcastsInDim S8x2x5x2x32 (![0, 1, 2, 3, 4] : Fin 5 → Fin S8x2x5x2x32.rank)
  bcast_S1x1x1x2x32_S8x2x5x2x32_0_1_2_3_4 : S1x1x1x2x32.BroadcastsInDim S8x2x5x2x32 (![0, 1, 2, 3, 4] : Fin 5 → Fin S8x2x5x2x32.rank)
  bcast_S8x2x5x2x32_S8x2x5x2x32x1_0_1_2_3_4 : S8x2x5x2x32.BroadcastsInDim S8x2x5x2x32x1 (![0, 1, 2, 3, 4] : Fin 5 → Fin S8x2x5x2x32x1.rank)
  concatenates_S8x2x5x2x32x1_S8x2x5x2x32x1_S8x2x5x2x32x2_d5 : Shape.Concatenates [S8x2x5x2x32x1, S8x2x5x2x32x1] S8x2x5x2x32x2 5
  transposes_S8192x8x2x5x2x32_S8192x2x2x8x5x32_0_2_4_1_3_5 : S8192x8x2x5x2x32.Transposes [0, 2, 4, 1, 3, 5] S8192x2x2x8x5x32
  shapeCasts_S8192x2x2x8x5x32_S8192x32x160 : S8192x2x2x8x5x32.ShapeCasts S8192x32x160
  shapeCasts_S256x32x128_S8192x128 : S256x32x128.ShapeCasts S8192x128
  slices_S8192x128_S8192x10_0_0 : S8192x128.Slices ![0, 0] S8192x10
  inb_S32x32x160_S32x32x160_0_0_0 : ∀ a, (![0, 0, 0] : Fin 3 → Nat) a + S32x32x160.size a ≤ S32x32x160.size a
  h_S32x32x160 : 0 < S32x32x160.numel
  shapeCasts_S32x32x160_S32x32x160 : S32x32x160.ShapeCasts S32x32x160
  shapeCasts_S32x32x160_S1024x160 : S32x32x160.ShapeCasts S1024x160
  inb_S160x512_S160x512_0_0 : ∀ a, (![0, 0] : Fin 2 → Nat) a + S160x512.size a ≤ S160x512.size a
  h_S160x512 : 0 < S160x512.numel
  slices_S1024x512_o0_0_S1024x128 : S1024x512.Slices ![0, 0] S1024x128
  slices_S1024x512_o0_128_S1024x128 : S1024x512.Slices ![0, 128] S1024x128
  slices_S1024x512_o0_256_S1024x128 : S1024x512.Slices ![0, 256] S1024x128
  slices_S1024x512_o0_384_S1024x128 : S1024x512.Slices ![0, 384] S1024x128
  inb_S1x128_S1x128_0_0 : ∀ a, (![0, 0] : Fin 2 → Nat) a + S1x128.size a ≤ S1x128.size a
  h_S1x128 : 0 < S1x128.numel
  broadcasts_S1x128_S1024x128 : S1x128.Broadcasts S1024x128
  shapeCasts_S1024x128_S32x4x8x128 : S1024x128.ShapeCasts S32x4x8x128
  slices_S32x4x8x128_o0_0_0_0_S32x1x8x128 : S32x4x8x128.Slices ![0, 0, 0, 0] S32x1x8x128
  shapeCasts_S32x1x8x128_S32x8x128 : S32x1x8x128.ShapeCasts S32x8x128
  slices_S32x4x8x128_o0_1_0_0_S32x1x8x128 : S32x4x8x128.Slices ![0, 1, 0, 0] S32x1x8x128
  slices_S32x4x8x128_o0_2_0_0_S32x1x8x128 : S32x4x8x128.Slices ![0, 2, 0, 0] S32x1x8x128
  slices_S32x4x8x128_o0_3_0_0_S32x1x8x128 : S32x4x8x128.Slices ![0, 3, 0, 0] S32x1x8x128
  slices_S32x8x128_o0_1_0_S32x7x128 : S32x8x128.Slices ![0, 1, 0] S32x7x128
  concatenates_S32x7x128_S32x1x128_S32x8x128_d1 : Shape.Concatenates [S32x7x128, S32x1x128] S32x8x128 1
  slices_S32x8x128_o0_2_0_S32x6x128 : S32x8x128.Slices ![0, 2, 0] S32x6x128
  concatenates_S32x6x128_S32x2x128_S32x8x128_d1 : Shape.Concatenates [S32x6x128, S32x2x128] S32x8x128 1
  concatenates_S32x8x128_S32x8x128_S32x8x128_S32x8x128_S32x8x128_S32x8x128_S32x8x128_S32x8x128_S32x8x128_S32x8x128_S32x8x1280_d2 : Shape.Concatenates [S32x8x128, S32x8x128, S32x8x128, S32x8x128, S32x8x128, S32x8x128, S32x8x128, S32x8x128, S32x8x128, S32x8x128] S32x8x1280 2
  shapeCasts_S32x8x1280_S256x1280 : S32x8x1280.ShapeCasts S256x1280
  inb_S1280x640_S1280x640_0_0 : ∀ a, (![0, 0] : Fin 2 → Nat) a + S1280x640.size a ≤ S1280x640.size a
  h_S1280x640 : 0 < S1280x640.numel
  inb_S1x640_S1x640_0_0 : ∀ a, (![0, 0] : Fin 2 → Nat) a + S1x640.size a ≤ S1x640.size a
  h_S1x640 : 0 < S1x640.numel
  broadcasts_S1x640_S256x640 : S1x640.Broadcasts S256x640
  slices_S256x640_o0_0_S256x160 : S256x640.Slices ![0, 0] S256x160
  slices_S256x640_o0_160_S256x160 : S256x640.Slices ![0, 160] S256x160
  slices_S256x640_o0_320_S256x160 : S256x640.Slices ![0, 320] S256x160
  slices_S256x640_o0_480_S256x160 : S256x640.Slices ![0, 480] S256x160
  shapeCasts_S256x160_S32x8x160 : S256x160.ShapeCasts S32x8x160
  slices_S32x8x160_o0_0_0_S32x1x160 : S32x8x160.Slices ![0, 0, 0] S32x1x160
  shapeCasts_S32x1x160_S32x160 : S32x1x160.ShapeCasts S32x160
  slices_S32x8x160_o0_1_0_S32x1x160 : S32x8x160.Slices ![0, 1, 0] S32x1x160
  slices_S32x8x160_o0_2_0_S32x1x160 : S32x8x160.Slices ![0, 2, 0] S32x1x160
  slices_S32x8x160_o0_3_0_S32x1x160 : S32x8x160.Slices ![0, 3, 0] S32x1x160
  slices_S32x8x160_o0_4_0_S32x1x160 : S32x8x160.Slices ![0, 4, 0] S32x1x160
  concatenates_S32x160_S32x160_S32x160_S32x160_S32x160_S32x800_d1 : Shape.Concatenates [S32x160, S32x160, S32x160, S32x160, S32x160] S32x800 1
  inb_S800x64_S800x64_0_0 : ∀ a, (![0, 0] : Fin 2 → Nat) a + S800x64.size a ≤ S800x64.size a
  h_S800x64 : 0 < S800x64.numel
  inb_S1x64_S1x64_0_0 : ∀ a, (![0, 0] : Fin 2 → Nat) a + S1x64.size a ≤ S1x64.size a
  h_S1x64 : 0 < S1x64.numel
  broadcasts_S1x64_S32x64 : S1x64.Broadcasts S32x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  broadcasts_S1x32_S32x32 : S1x32.Broadcasts S32x32
  inb_S32x128_S32x128_0_0 : ∀ a, (![0, 0] : Fin 2 → Nat) a + S32x128.size a ≤ S32x128.size a
  h_S32x128 : 0 < S32x128.numel
  broadcasts_S1x128_S32x128 : S1x128.Broadcasts S32x128
  reduces_S32x128_S32 : S32x128.Reduces [1] S32
  shapeCasts_S32_S32x1 : S32.ShapeCasts S32x1
  broadcasts_S32x1_S32x128 : S32x1.Broadcasts S32x128
  shapeCasts_S32x128_S1x32x128 : S32x128.ShapeCasts S1x32x128
  inb_S1x32x128_S1x32x128_0_0_0 : ∀ a, (![0, 0, 0] : Fin 3 → Nat) a + S1x32x128.size a ≤ S1x32x128.size a
  h_S1x32x128 : 0 < S1x32x128.numel
  gather_S8192x36x36_S8x2x5x2x32x2_S8192x8x2x5x2x32_0_12_n_n_12_5_819211_wf : GatherDims.WF S8192x36x36 S8x2x5x2x32x2 S8192x8x2x5x2x32 [0] [1, 2] [] [1, 2] [] 5 ![8192, 1, 1]
  dot_S1024x160_S160x512_S1024x512_1_0_0_1_n_n_wf : DotDims.WF S1024x160 S160x512 S1024x512 [1] [0] [0] [1] [] []
  dot_S256x1280_S1280x640_S256x640_1_0_0_1_n_n_wf : DotDims.WF S256x1280 S1280x640 S256x640 [1] [0] [0] [1] [] []
  dot_S32x800_S800x64_S32x64_1_0_0_1_n_n_wf : DotDims.WF S32x800 S800x64 S32x64 [1] [0] [0] [1] [] []
  dot_S32x64_S64x32_S32x32_1_0_0_1_n_n_wf : DotDims.WF S32x64 S64x32 S32x32 [1] [0] [0] [1] [] []
  dot_S32x32_S32x128_S32x128_1_0_0_1_n_n_wf : DotDims.WF S32x32 S32x128 S32x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32x160.size a ≤ S8192x32x160.size a
  hwx0_0 : ∀ i : grid0.Coords, EltTy.bits .f32 = 32 ∨ (Rect.block (s := S8192x32x160) S32x32x160.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S160x512.size a ≤ S160x512.size a
  hwx0_1 : ∀ i : grid0.Coords, EltTy.bits .f32 = 32 ∨ (Rect.block (s := S160x512) S160x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1280x640.size a ≤ S1280x640.size a
  hwx0_3 : ∀ i : grid0.Coords, EltTy.bits .f32 = 32 ∨ (Rect.block (s := S1280x640) S1280x640.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x640.size a ≤ S1x640.size a
  hwx0_4 : ∀ i : grid0.Coords, EltTy.bits .f32 = 32 ∨ (Rect.block (s := S1x640) S1x640.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S800x64.size a ≤ S800x64.size a
  hwx0_5 : ∀ i : grid0.Coords, EltTy.bits .f32 = 32 ∨ (Rect.block (s := S800x64) S800x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .f32 = 32 ∨ (Rect.block (s := S64x32) S64x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x128.size a ≤ S32x128.size a
  hwx0_9 : ∀ i : grid0.Coords, EltTy.bits .f32 = 32 ∨ (Rect.block (s := S32x128) S32x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x32x128.size a ≤ S256x32x128.size a
  hwx0_11 : ∀ i : grid0.Coords, EltTy.bits .f32 = 32 ∨ (Rect.block (s := S256x32x128) S1x32x128.size (cc0_transform_11 i) (hinb0_11 i)).WholeWords (EltTy.packing .f32)

variable [Facts₀]

def gather_S8192x36x36_S8x2x5x2x32x2_S8192x8x2x5x2x32_0_12_n_n_12_5_819211 : GatherDims S8192x36x36 S8x2x5x2x32x2 S8192x8x2x5x2x32 where
  offsetDims := [0]
  collapsedSliceDims := [1, 2]
  operandBatchingDims := []
  startIndicesBatchingDims := []
  startIndexMap := [1, 2]
  indexVectorDim := 5
  sliceSizes := ![8192, 1, 1]
  wf := gather_S8192x36x36_S8x2x5x2x32x2_S8192x8x2x5x2x32_0_12_n_n_12_5_819211_wf
def dot_S1024x160_S160x512_S1024x512_1_0_0_1_n_n : DotDims S1024x160 S160x512 S1024x512 where
  lhsContracting := [1]
  rhsContracting := [0]
  lhsNonContracting := [0]
  rhsNonContracting := [1]
  lhsBatch := []
  rhsBatch := []
  wf := dot_S1024x160_S160x512_S1024x512_1_0_0_1_n_n_wf
def dot_S256x1280_S1280x640_S256x640_1_0_0_1_n_n : DotDims S256x1280 S1280x640 S256x640 where
  lhsContracting := [1]
  rhsContracting := [0]
  lhsNonContracting := [0]
  rhsNonContracting := [1]
  lhsBatch := []
  rhsBatch := []
  wf := dot_S256x1280_S1280x640_S256x640_1_0_0_1_n_n_wf
def dot_S32x800_S800x64_S32x64_1_0_0_1_n_n : DotDims S32x800 S800x64 S32x64 where
  lhsContracting := [1]
  rhsContracting := [0]
  lhsNonContracting := [0]
  rhsNonContracting := [1]
  lhsBatch := []
  rhsBatch := []
  wf := dot_S32x800_S800x64_S32x64_1_0_0_1_n_n_wf
def dot_S32x64_S64x32_S32x32_1_0_0_1_n_n : DotDims S32x64 S64x32 S32x32 where
  lhsContracting := [1]
  rhsContracting := [0]
  lhsNonContracting := [0]
  rhsNonContracting := [1]
  lhsBatch := []
  rhsBatch := []
  wf := dot_S32x64_S64x32_S32x32_1_0_0_1_n_n_wf
def dot_S32x32_S32x128_S32x128_1_0_0_1_n_n : DotDims S32x32 S32x128 S32x128 where
  lhsContracting := [1]
  rhsContracting := [0]
  lhsNonContracting := [0]
  rhsNonContracting := [1]
  lhsBatch := []
  rhsBatch := []
  wf := dot_S32x32_S32x128_S32x128_1_0_0_1_n_n_wf

abbrev win0_0 : Pipeline.Window sig grid0 :=
  Pipeline.Window.ofSpec (Memref.whole main_call0_v46) S32x32x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S160x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1280x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S800x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S32x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v47) S1x32x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== Proof.Logits.lean ====
/-
  The reference's result as one function of the patch matrices and the weights.

  The reference's kernel handles 32 images per grid point: from their 32 patch matrices (32 x 160 each) and the ten
  weight and bias arrays it stores a 1 x 32 x 128 block, the softmax of the network's 128 padded logits per image. The
  256 blocks stacked give 8192 rows, and the program returns their first ten lanes.
-/
import proofs.«126704_g2000501235386493_pallaspilot1_12_3_alg».proof.Proof.Gen.ReferenceIdeal.Skeleton
import Idealize.ShloMosaic.Lib.ValueIdx

noncomputable section

namespace Cert.Net

open Idealize.ShloMosaic Idealize.ShloMosaic.ValueIdx Cert.ReferenceIdeal Cert.ReferenceIdeal.Gen

/-- What the reference's kernel stores for one block of 32 images: its chain of stages, from the images' patch
    matrices `P` and the weights. -/
def refChain (P : Vec Ideal S32x32x160 .f32) (w1 : Vec Ideal S160x512 .f32) (b1 : Vec Ideal S1x128 .f32) (w2 : Vec Ideal S1280x640 .f32) (b2 : Vec Ideal S1x640 .f32)
    (w3 : Vec Ideal S800x64 .f32) (b3 : Vec Ideal S1x64 .f32) (w4 : Vec Ideal S64x32 .f32) (b4 : Vec Ideal S1x32 .f32)
    (w5 : Vec Ideal S32x128 .f32) (b5 : Vec Ideal S1x128 .f32) : FVec Ideal S1x32x128 .f32 :=
  k0_pay1 (F := Ideal) (k0_pay11 (F := Ideal) (k0_pay2 P w1 b1) (k0_pay3 P w1 b1) (k0_pay4 P w1 b1) (k0_pay5 P w1 b1) (k0_pay6 P w1 b1)
      (k0_pay7 P w1 b1) (k0_pay8 P w1 b1) (k0_pay9 P w1 b1) (k0_pay10 P w1 b1) w2 b2 w3 b3)
    (Scalar.ofBits .f32 0x00000000#32) w4 b4 w5 b5

/-- Images `32*t .. 32*t + 31` of a batch of 8192 patch matrices. -/
def blockOf (P : S8192x32x160.Idx → EReal) (t : Fin 256) : Vec Ideal S32x32x160 .f32 :=
  fun y => P (ix3 ⟨32 * t.val + (y 0).val, by have h : (y 0).val < 32 := (y 0).isLt; have := t.isLt; omega⟩ (y 1) (y 2))

/-- All 256 blocks: entry `(t, b, l)` is lane `l` of image `32*t + b`. -/
def logitsBlocks (P : S8192x32x160.Idx → EReal) (w1 : Vec Ideal S160x512 .f32) (b1 : Vec Ideal S1x128 .f32) (w2 : Vec Ideal S1280x640 .f32) (b2 : Vec Ideal S1x640 .f32)
    (w3 : Vec Ideal S800x64 .f32) (b3 : Vec Ideal S1x64 .f32) (w4 : Vec Ideal S64x32 .f32) (b4 : Vec Ideal S1x32 .f32)
    (w5 : Vec Ideal S32x128 .f32) (b5 : Vec Ideal S1x128 .f32) : S256x32x128.Idx → EReal :=
  fun i => refChain (blockOf P (i 0)) w1 b1 w2 b2 w3 b3 w4 b4 w5 b5 (ix3 0 (i 1) (i 2))

/-- The program's result from the blocks: stacked into 8192 rows, the first ten lanes kept. -/
def result (G : S256x32x128.Idx → EReal) : S8192x10.Idx → EReal :=
  extractStridedSlice S8192x10 ![0, 0] (shapeCast S8192x128 G shapeCasts_S256x32x128_S8192x128) slices_S8192x128_S8192x10_0_0

end Cert.Net

end
-- ==== Proof.KernelLogits.lean ====
/-
  The kernel's result as one function of the image batch and the weights.

  The kernel handles 32 images per grid point: from the 32 raw images and the ten weight and bias arrays it builds the
  patch matrices itself and stores a 1 x 32 x 128 block. The 256 blocks stacked give 8192 rows, and the program returns
  their first ten lanes.
-/
import proofs.«126704_g2000501235386493_pallaspilot1_12_3_alg».proof.Proof.Gen.KernelIdeal.Skeleton
import Idealize.ShloMosaic.Lib.ValueIdx

noncomputable section

namespace Cert.Net

open Idealize.ShloMosaic Idealize.ShloMosaic.ValueIdx Cert.KernelIdeal Cert.KernelIdeal.Gen

/-- What the kernel stores for one block of 32 images: its chain of stages, from the images `x` and the weights. -/
def kerChain (x : Vec Ideal S32x1x28x28 .f32) (w1 : Vec Ideal S160x512 .f32) (b1 : Vec Ideal S1x128 .f32) (w2 : Vec Ideal S1280x640 .f32) (b2 : Vec Ideal S1x640 .f32)
    (w3 : Vec Ideal S800x64 .f32) (b3 : Vec Ideal S1x64 .f32) (w4 : Vec Ideal S64x32 .f32) (b4 : Vec Ideal S1x32 .f32)
    (w5 : Vec Ideal S32x128 .f32) (b5 : Vec Ideal S1x128 .f32) : FVec Ideal S1x32x128 .f32 :=
  k0_pay1 (F := Ideal) (k0_pay16 (F := Ideal)
      (k0_pay7 (k0_pay3 x) (k0_pay4 x) (k0_pay5 x) (k0_pay6 x) w1 b1) (k0_pay8 (k0_pay3 x) (k0_pay4 x) (k0_pay5 x) (k0_pay6 x) w1 b1)
      (k0_pay9 (k0_pay3 x) (k0_pay4 x) (k0_pay5 x) (k0_pay6 x) w1 b1) (k0_pay10 (k0_pay3 x) (k0_pay4 x) (k0_pay5 x) (k0_pay6 x) w1 b1)
      (k0_pay11 (k0_pay3 x) (k0_pay4 x) (k0_pay5 x) (k0_pay6 x) w1 b1) (k0_pay12 (k0_pay3 x) (k0_pay4 x) (k0_pay5 x) (k0_pay6 x) w1 b1)
      (k0_pay13 (k0_pay3 x) (k0_pay4 x) (k0_pay5 x) (k0_pay6 x) w1 b1) (k0_pay14 (k0_pay3 x) (k0_pay4 x) (k0_pay5 x) (k0_pay6 x) w1 b1)
      (k0_pay15 (k0_pay3 x) (k0_pay4 x) (k0_pay5 x) (k0_pay6 x) w1 b1) w2 b2 w3) b3 w4 b4 w5 b5

/-- Images `32*t .. 32*t + 31` of a batch of 8192. -/
def imagesOf (X : S8192x1x28x28.Idx → EReal) (t : Fin 256) : Vec Ideal S32x1x28x28 .f32 :=
  fun y => X (ix4 ⟨32 * t.val + (y 0).val, by have h : (y 0).val < 32 := (y 0).isLt; have := t.isLt; omega⟩ (y 1) (y 2) (y 3))

/-- All 256 blocks: entry `(t, b, l)` is lane `l` of image `32*t + b`. -/
def kerBlocks (X : S8192x1x28x28.Idx → EReal) (w1 : Vec Ideal S160x512 .f32) (b1 : Vec Ideal S1x128 .f32) (w2 : Vec Ideal S1280x640 .f32) (b2 : Vec Ideal S1x640 .f32)
    (w3 : Vec Ideal S800x64 .f32) (b3 : Vec Ideal S1x64 .f32) (w4 : Vec Ideal S64x32 .f32) (b4 : Vec Ideal S1x32 .f32)
    (w5 : Vec Ideal S32x128 .f32) (b5 : Vec Ideal S1x128 .f32) : S256x32x128.Idx → EReal :=
  fun i => kerChain (imagesOf X (i 0)) w1 b1 w2 b2 w3 b3 w4 b4 w5 b5 (ix3 0 (i 1) (i 2))

/-- The program's result from the blocks: stacked into 8192 rows, the first ten lanes kept. -/
def kerResult (G : S256x32x128.Idx → EReal) : S8192x10.Idx → EReal :=
  extractStridedSlice S8192x10 ![0, 0] (shapeCast S8192x128 G shapeCasts_S256x32x128_S8192x128) slices_S8192x128_S8192x10_0_0

end Cert.Net

end
-- ==== Proof.TailNet.lean ====
/-
  After the patch matrix both programs run the same chain of operations: the first matrix product with the 2x2 maximum
  over its four column phases, bias and rectifier; the ten shifted copies that feed the second product, its bias,
  rectifier and the mean of four column phases; the five rows that feed the third product; two dense layers with a
  hyperbolic tangent between them and a softmax over 128 lanes. The kernel narrows three operands to a 16-bit format
  before the products; on the extended reals a change of format is the identity, and the zero of either format is 0.
  So each stage of the kernel's chain equals the reference's stage, at every argument.
-/
import proofs.«126704_g2000501235386493_pallaspilot1_12_3_alg».proof.Proof.Gen.KernelIdeal.Skeleton
import proofs.«126704_g2000501235386493_pallaspilot1_12_3_alg».proof.Proof.Gen.ReferenceIdeal.Skeleton
import proofs.«126704_g2000501235386493_pallaspilot1_12_3_alg».proof.Proof.Logits
import proofs.«126704_g2000501235386493_pallaspilot1_12_3_alg».proof.Proof.KernelLogits
import Idealize.ShloMosaic.Lib.Pipeline.Value
import Idealize.ShloMosaic.Lib.IdealHost
import Idealize.ShloMosaic.PureOps.Ideal.Laws

noncomputable section

namespace Cert.Net.Tail

open Idealize.ShloMosaic Idealize.ShloMosaic.View Cert.KernelIdeal Cert.KernelIdeal.Gen

/-- The 1024 x 160 matrix the kernel's first product consumes, from its four slabs of eight rows per image. -/
def rows (v39 v50 : FVec Ideal S32x8x160 .f32) (v51 v52 : FVec Ideal S32x1x8x160 .f32) : FVec Ideal S1024x160 .f32 :=
  shapeCast S1024x160 (concatenate S32x4x8x160 1 [⟨S32x1x8x160, v51⟩, ⟨S32x1x8x160, v52⟩, ⟨S32x1x8x160, shapeCast S32x1x8x160 v39 shapeCasts_S32x8x160_S32x1x8x160⟩, ⟨S32x1x8x160, shapeCast S32x1x8x160 v50 shapeCasts_S32x8x160_S32x1x8x160⟩] concatenates_S32x1x8x160_S32x1x8x160_S32x1x8x160_S32x1x8x160_S32x4x8x160_d1) shapeCasts_S32x4x8x160_S1024x160

theorem cutsInto : S1024x160.ShapeCasts Cert.ReferenceIdeal.S32x32x160 := by decide

/-- The same matrix cut into 32 patch matrices of 32 rows: the form in which the reference's kernel is handed it. -/
def perImage (P : FVec Ideal S1024x160 .f32) : Vec Ideal Cert.ReferenceIdeal.S32x32x160 .f32 :=
  shapeCast Cert.ReferenceIdeal.S32x32x160 P cutsInto

/-- The zero of the 16-bit format is the zero of the 32-bit one. -/
theorem zero16 : (Scalar.ofBits .bf16 0x0000#16 : Ideal .bf16) = (Scalar.ofBits .f32 0x00000000#32 : Ideal .f32) := by
  show Ideal.ofBits .bf16 0x0000#16 = Ideal.ofBits .f32 0x00000000#32
  rw [Ideal.ofBits_zero_bf16, Ideal.ofBits_zero_f32]

theorem zero16' : (FloatOps.ofBits (F := Ideal) .bf16 0x0000#16 : Ideal .bf16) = (FloatOps.ofBits (F := Ideal) .f32 0x00000000#32 : Ideal .f32) := zero16

/-- Narrowing to a smaller format is the identity on the extended reals. -/
theorem narrow_id {s : Shape} {φ ψ : FTy} (a : FVec Ideal s φ) (h : ψ.bits < φ.bits) : (truncf ψ a h : FVec Ideal s ψ) = a := rfl

/-- First product, maximum over the four phases, bias, rectifier. -/
theorem conv1 (v39 v50 : FVec Ideal S32x8x160 .f32) (v51 v52 : FVec Ideal S32x1x8x160 .f32)
    (w1 : S160x512.Idx → EReal) (b1 : S1x128.Idx → EReal) :
    k0_pay7 (F := Ideal) v39 v50 v51 v52 w1 b1 = Cert.ReferenceIdeal.Gen.k0_pay2 (F := Ideal) (perImage (rows v39 v50 v51 v52)) w1 b1 := by
  unfold k0_pay7 Cert.ReferenceIdeal.Gen.k0_pay2 perImage
  simp only [shapeCast_self, shapeCast_shapeCast]
  rfl

/-- Phase 0 of the first stage's result, as eight rows per image. -/
theorem phase0 (v39 v50 : FVec Ideal S32x8x160 .f32) (v51 v52 : FVec Ideal S32x1x8x160 .f32)
    (w1 : S160x512.Idx → EReal) (b1 : S1x128.Idx → EReal) :
    k0_pay8 (F := Ideal) v39 v50 v51 v52 w1 b1 = Cert.ReferenceIdeal.Gen.k0_pay3 (F := Ideal) (perImage (rows v39 v50 v51 v52)) w1 b1 := by
  unfold k0_pay8 Cert.ReferenceIdeal.Gen.k0_pay3
  rw [conv1]

/-- Phase 1 of the first stage's result, as eight rows per image. -/
theorem phase1 (v39 v50 : FVec Ideal S32x8x160 .f32) (v51 v52 : FVec Ideal S32x1x8x160 .f32)
    (w1 : S160x512.Idx → EReal) (b1 : S1x128.Idx → EReal) :
    k0_pay9 (F := Ideal) v39 v50 v51 v52 w1 b1 = Cert.ReferenceIdeal.Gen.k0_pay4 (F := Ideal) (perImage (rows v39 v50 v51 v52)) w1 b1 := by
  unfold k0_pay9 Cert.ReferenceIdeal.Gen.k0_pay4
  rw [conv1]

/-- Phase 2 of the first stage's result, as eight rows per image. -/
theorem phase2 (v39 v50 : FVec Ideal S32x8x160 .f32) (v51 v52 : FVec Ideal S32x1x8x160 .f32)
    (w1 : S160x512.Idx → EReal) (b1 : S1x128.Idx → EReal) :
    k0_pay10 (F := Ideal) v39 v50 v51 v52 w1 b1 = Cert.ReferenceIdeal.Gen.k0_pay5 (F := Ideal) (perImage (rows v39 v50 v51 v52)) w1 b1 := by
  unfold k0_pay10 Cert.ReferenceIdeal.Gen.k0_pay5
  rw [conv1]

/-- Phase 3 of the first stage's result, as eight rows per image. -/
theorem phase3 (v39 v50 : FVec Ideal S32x8x160 .f32) (v51 v52 : FVec Ideal S32x1x8x160 .f32)
    (w1 : S160x512.Idx → EReal) (b1 : S1x128.Idx → EReal) :
    k0_pay11 (F := Ideal) v39 v50 v51 v52 w1 b1 = Cert.ReferenceIdeal.Gen.k0_pay6 (F := Ideal) (perImage (rows v39 v50 v51 v52)) w1 b1 := by
  unfold k0_pay11 Cert.ReferenceIdeal.Gen.k0_pay6
  rw [conv1]

/-- Phase 0 shifted up by one row, a zero row appended. -/
theorem shifted0 (v39 v50 : FVec Ideal S32x8x160 .f32) (v51 v52 : FVec Ideal S32x1x8x160 .f32)
    (w1 : S160x512.Idx → EReal) (b1 : S1x128.Idx → EReal) :
    k0_pay12 (F := Ideal) v39 v50 v51 v52 w1 b1 = Cert.ReferenceIdeal.Gen.k0_pay7 (F := Ideal) (perImage (rows v39 v50 v51 v52)) w1 b1 := by
  unfold k0_pay12 Cert.ReferenceIdeal.Gen.k0_pay7
  rw [conv1, zero16]

/-- Phase 1 shifted up by one row, a zero row appended. -/
theorem shifted1 (v39 v50 : FVec Ideal S32x8x160 .f32) (v51 v52 : FVec Ideal S32x1x8x160 .f32)
    (w1 : S160x512.Idx → EReal) (b1 : S1x128.Idx → EReal) :
    k0_pay13 (F := Ideal) v39 v50 v51 v52 w1 b1 = Cert.ReferenceIdeal.Gen.k0_pay8 (F := Ideal) (perImage (rows v39 v50 v51 v52)) w1 b1 := by
  unfold k0_pay13 Cert.ReferenceIdeal.Gen.k0_pay8
  rw [conv1, zero16]

/-- Phase 2 shifted up by one row, a zero row appended. -/
theorem shifted2 (v39 v50 : FVec Ideal S32x8x160 .f32) (v51 v52 : FVec Ideal S32x1x8x160 .f32)
    (w1 : S160x512.Idx → EReal) (b1 : S1x128.Idx → EReal) :
    k0_pay14 (F := Ideal) v39 v50 v51 v52 w1 b1 = Cert.ReferenceIdeal.Gen.k0_pay9 (F := Ideal) (perImage (rows v39 v50 v51 v52)) w1 b1 := by
  unfold k0_pay14 Cert.ReferenceIdeal.Gen.k0_pay9
  rw [conv1, zero16]

/-- Phase 3 shifted up by one row, a zero row appended. -/
theorem shifted3 (v39 v50 : FVec Ideal S32x8x160 .f32) (v51 v52 : FVec Ideal S32x1x8x160 .f32)
    (w1 : S160x512.Idx → EReal) (b1 : S1x128.Idx → EReal) :
    k0_pay15 (F := Ideal) v39 v50 v51 v52 w1 b1 = Cert.ReferenceIdeal.Gen.k0_pay10 (F := Ideal) (perImage (rows v39 v50 v51 v52)) w1 b1 := by
  unfold k0_pay15 Cert.ReferenceIdeal.Gen.k0_pay10
  rw [conv1, zero16]

/-! ## The stages after the first product, as functions of their inputs -/

/-- One phase of the first stage's result: eight rows per image. -/
def phaseOf (q : Fin 2) (a : FVec Ideal S32x4x8x128 .f32) : FVec Ideal S32x8x128 .f32 :=
  match q with
  | ⟨0, _⟩ => shapeCast S32x8x128 (extractStridedSlice S32x1x8x128 ![0, 0, 0, 0] a slices_S32x4x8x128_o0_0_0_0_S32x1x8x128) shapeCasts_S32x1x8x128_S32x8x128
  | ⟨1, _⟩ => shapeCast S32x8x128 (extractStridedSlice S32x1x8x128 ![0, 1, 0, 0] a slices_S32x4x8x128_o0_1_0_0_S32x1x8x128) shapeCasts_S32x1x8x128_S32x8x128

/-- Eight rows shifted up by two, two zero rows appended. -/
def shiftTwo (v : FVec Ideal S32x8x128 .f32) : FVec Ideal S32x8x128 .f32 :=
  concatenate S32x8x128 1 [⟨S32x6x128, extractStridedSlice S32x6x128 ![0, 2, 0] v slices_S32x8x128_o0_2_0_S32x6x128⟩, ⟨S32x2x128, broadcast S32x2x128 (Scalar.ofBits .f32 0x00000000#32)⟩] concatenates_S32x6x128_S32x2x128_S32x8x128_d1

/-- The second product's left operand: ten copies of the first stage's phases side by side, 256 rows. -/
def secondRows (a : FVec Ideal S32x4x8x128 .f32) (c0 c1 c2 c3 c4 c5 c6 c7 : FVec Ideal S32x8x128 .f32) : FVec Ideal S256x1280 .f32 :=
  shapeCast S256x1280 (concatenate S32x8x1280 2 [⟨S32x8x128, c0⟩, ⟨S32x8x128, c1⟩, ⟨S32x8x128, c2⟩, ⟨S32x8x128, c3⟩, ⟨S32x8x128, c4⟩, ⟨S32x8x128, c5⟩, ⟨S32x8x128, c6⟩, ⟨S32x8x128, c7⟩, ⟨S32x8x128, shiftTwo (phaseOf 0 a)⟩, ⟨S32x8x128, shiftTwo (phaseOf 1 a)⟩] concatenates_S32x8x128_S32x8x128_S32x8x128_S32x8x128_S32x8x128_S32x8x128_S32x8x128_S32x8x128_S32x8x128_S32x8x128_S32x8x1280_d2) shapeCasts_S32x8x1280_S256x1280

/-- The second product, bias, rectifier, and a quarter of the sum of its four column phases. -/
def secondStage (p2 : FVec Ideal S256x1280 .f32) (w2 : FVec Ideal S1280x640 .f32) (b2 : FVec Ideal S1x640 .f32) : FVec Ideal S32x8x160 .f32 :=
  have v117 : FVec Ideal S256x640 .f32 := matmul dot_S256x1280_S1280x640_S256x640_1_0_0_1_n_n none p2 w2 (constant S256x640 .f32 0x00000000#32)
  have v122 : FVec Ideal S256x640 .f32 := maximumf (addf v117 (broadcastTo S256x640 b2 broadcasts_S1x640_S256x640)) (broadcast S256x640 (Scalar.ofBits .f32 0x00000000#32))
  have v129 : FVec Ideal S256x160 .f32 := addf (addf (addf (extractStridedSlice S256x160 ![0, 0] v122 slices_S256x640_o0_0_S256x160) (extractStridedSlice S256x160 ![0, 160] v122 slices_S256x640_o0_160_S256x160)) (extractStridedSlice S256x160 ![0, 320] v122 slices_S256x640_o0_320_S256x160)) (extractStridedSlice S256x160 ![0, 480] v122 slices_S256x640_o0_480_S256x160)
  shapeCast S32x8x160 (mulf (broadcast S256x160 (Scalar.ofBits .f32 0x3E800000#32)) v129) shapeCasts_S256x160_S32x8x160

/-- The third product's left operand: rows 0..4 of each image's eight side by side. -/
def thirdRows (y2 : FVec Ideal S32x8x160 .f32) : FVec Ideal S32x800 .f32 :=
  concatenate S32x800 1 [⟨S32x160, shapeCast S32x160 (extractStridedSlice S32x1x160 ![0, 0, 0] y2 slices_S32x8x160_o0_0_0_S32x1x160) shapeCasts_S32x1x160_S32x160⟩, ⟨S32x160, shapeCast S32x160 (extractStridedSlice S32x1x160 ![0, 1, 0] y2 slices_S32x8x160_o0_1_0_S32x1x160) shapeCasts_S32x1x160_S32x160⟩, ⟨S32x160, shapeCast S32x160 (extractStridedSlice S32x1x160 ![0, 2, 0] y2 slices_S32x8x160_o0_2_0_S32x1x160) shapeCasts_S32x1x160_S32x160⟩, ⟨S32x160, shapeCast S32x160 (extractStridedSlice S32x1x160 ![0, 3, 0] y2 slices_S32x8x160_o0_3_0_S32x1x160) shapeCasts_S32x1x160_S32x160⟩, ⟨S32x160, shapeCast S32x160 (extractStridedSlice S32x1x160 ![0, 4, 0] y2 slices_S32x8x160_o0_4_0_S32x1x160) shapeCasts_S32x1x160_S32x160⟩] concatenates_S32x160_S32x160_S32x160_S32x160_S32x160_S32x800_d1

/-- The third product. -/
def thirdProduct (p3 : FVec Ideal S32x800 .f32) (w3 : FVec Ideal S800x64 .f32) : FVec Ideal S32x64 .f32 :=
  matmul dot_S32x800_S800x64_S32x64_1_0_0_1_n_n none p3 w3 (constant S32x64 .f32 0x00000000#32)

/-- The dense head: a dense layer with hyperbolic tangent, a dense layer, and the softmax over the 128 lanes. -/
def dense (h3 : FVec Ideal S32x64 .f32) (w4 : FVec Ideal S64x32 .f32) (b4 : FVec Ideal S1x32 .f32) (w5 : FVec Ideal S32x128 .f32) (b5 : FVec Ideal S1x128 .f32) : FVec Ideal S1x32x128 .f32 :=
  have v154 : FVec Ideal S32x32 .f32 := matmul dot_S32x64_S64x32_S32x32_1_0_0_1_n_n none h3 w4 (constant S32x32 .f32 0x00000000#32)
  have v158 : FVec Ideal S32x32 .f32 := tanh (addf v154 (broadcastTo S32x32 b4 broadcasts_S1x32_S32x32))
  have v160 : FVec Ideal S32x128 .f32 := matmul dot_S32x32_S32x128_S32x128_1_0_0_1_n_n none v158 w5 (constant S32x128 .f32 0x00000000#32)
  have v163 : FVec Ideal S32x128 .f32 := addf v160 (broadcastTo S32x128 b5 broadcasts_S1x128_S32x128)
  have v164 : FVec Ideal S32 .f32 := multiReduction .maximumf [1] S32 v163 0xFF800000#32 reduces_S32x128_S32 (.inl rfl) rfl
  have v168 : FVec Ideal S32x128 .f32 := exp (subf v163 (broadcastTo S32x128 (shapeCast S32x1 v164 shapeCasts_S32_S32x1) broadcasts_S32x1_S32x128))
  have v169 : FVec Ideal S32 .f32 := multiReduction .add [1] S32 v168 0x00000000#32 reduces_S32x128_S32 (.inl rfl) rfl
  shapeCast S1x32x128 (divf v168 (broadcastTo S32x128 (shapeCast S32x1 v169 shapeCasts_S32_S32x1) broadcasts_S32x1_S32x128)) shapeCasts_S32x128_S1x32x128

/-- Bias and rectifier after the third product. -/
def thirdStage (v : FVec Ideal S32x64 .f32) (b3 : FVec Ideal S1x64 .f32) : FVec Ideal S32x64 .f32 :=
  maximumf (addf v (broadcastTo S32x64 b3 broadcasts_S1x64_S32x64)) (broadcast S32x64 (Scalar.ofBits .f32 0x00000000#32))

theorem kernelMid (a : FVec Ideal S32x4x8x128 .f32) (c0 c1 c2 c3 c4 c5 c6 c7 : FVec Ideal S32x8x128 .f32)
    (w2 : FVec Ideal S1280x640 .f32) (b2 : FVec Ideal S1x640 .f32) (w3 : FVec Ideal S800x64 .f32) :
    k0_pay16 (F := Ideal) a c0 c1 c2 c3 c4 c5 c6 c7 w2 b2 w3
      = thirdProduct (thirdRows (secondStage (secondRows a c0 c1 c2 c3 c4 c5 c6 c7) w2 b2)) w3 := by
  unfold k0_pay16
  rw [shapeCast_self, shapeCast_self, zero16]
  rfl

theorem referenceMid (a : FVec Ideal S32x4x8x128 .f32) (c0 c1 c2 c3 c4 c5 c6 c7 : FVec Ideal S32x8x128 .f32)
    (w2 : FVec Ideal S1280x640 .f32) (b2 : FVec Ideal S1x640 .f32) (w3 : FVec Ideal S800x64 .f32) (b3 : FVec Ideal S1x64 .f32) :
    Cert.ReferenceIdeal.Gen.k0_pay11 (F := Ideal) a c0 c1 c2 c3 c4 c5 c6 c7 w2 b2 w3 b3
      = addf (thirdProduct (thirdRows (secondStage (secondRows a c0 c1 c2 c3 c4 c5 c6 c7) w2 b2)) w3) (broadcastTo S32x64 b3 broadcasts_S1x64_S32x64) := by
  unfold Cert.ReferenceIdeal.Gen.k0_pay11
  rfl

theorem kernelHead (v : FVec Ideal S32x64 .f32) (b3 : FVec Ideal S1x64 .f32) (w4 : FVec Ideal S64x32 .f32) (b4 : FVec Ideal S1x32 .f32) (w5 : FVec Ideal S32x128 .f32) (b5 : FVec Ideal S1x128 .f32) :
    k0_pay1 (F := Ideal) v b3 w4 b4 w5 b5 = dense (thirdStage v b3) w4 b4 w5 b5 := by
  unfold k0_pay1
  rfl

theorem referenceHead (v : FVec Ideal S32x64 .f32) (b3 : FVec Ideal S1x64 .f32) (w4 : FVec Ideal S64x32 .f32) (b4 : FVec Ideal S1x32 .f32) (w5 : FVec Ideal S32x128 .f32) (b5 : FVec Ideal S1x128 .f32) :
    Cert.ReferenceIdeal.Gen.k0_pay1 (F := Ideal) (addf v (broadcastTo S32x64 b3 broadcasts_S1x64_S32x64)) (Scalar.ofBits .f32 0x00000000#32) w4 b4 w5 b5 = dense (thirdStage v b3) w4 b4 w5 b5 := by
  unfold Cert.ReferenceIdeal.Gen.k0_pay1
  rfl

/-- Second and third products and the dense head agree. The kernel adds the third bias after its cut, the reference
    before. -/
theorem head (a : FVec Ideal S32x4x8x128 .f32) (c0 c1 c2 c3 c4 c5 c6 c7 : FVec Ideal S32x8x128 .f32)
    (w2 : S1280x640.Idx → EReal) (b2 : S1x640.Idx → EReal) (w3 : S800x64.Idx → EReal) (b3 : S1x64.Idx → EReal)
    (w4 : S64x32.Idx → EReal) (b4 : S1x32.Idx → EReal) (w5 : S32x128.Idx → EReal) (b5 : S1x128.Idx → EReal) :
    k0_pay1 (F := Ideal) (k0_pay16 (F := Ideal) a c0 c1 c2 c3 c4 c5 c6 c7 w2 b2 w3) b3 w4 b4 w5 b5
      = Cert.ReferenceIdeal.Gen.k0_pay1 (F := Ideal) (Cert.ReferenceIdeal.Gen.k0_pay11 (F := Ideal) a c0 c1 c2 c3 c4 c5 c6 c7 w2 b2 w3 b3)
          (Scalar.ofBits .f32 0x00000000#32) w4 b4 w5 b5 := by
  rw [kernelMid, kernelHead, referenceMid, referenceHead]

/-- THE CHAIN: what the kernel stores, from its image block and the weights, is what the reference stores from the
    kernel's own patch matrix cut per image. -/
theorem chain (x : Vec Ideal S32x1x28x28 .f32)
    (w1 : S160x512.Idx → EReal) (b1 : S1x128.Idx → EReal)
    (w2 : S1280x640.Idx → EReal) (b2 : S1x640.Idx → EReal) (w3 : S800x64.Idx → EReal) (b3 : S1x64.Idx → EReal)
    (w4 : S64x32.Idx → EReal) (b4 : S1x32.Idx → EReal) (w5 : S32x128.Idx → EReal) (b5 : S1x128.Idx → EReal) :
    Cert.Net.kerChain x w1 b1 w2 b2 w3 b3 w4 b4 w5 b5
      = Cert.Net.refChain (perImage (rows (k0_pay3 x) (k0_pay4 x) (k0_pay5 x) (k0_pay6 x))) w1 b1 w2 b2 w3 b3 w4 b4 w5 b5 := by
  unfold Cert.Net.kerChain Cert.Net.refChain
  rw [head, conv1, phase0, phase1, phase2, phase3, shifted0, shifted1, shifted2, shifted3]

end Cert.Net.Tail

end
-- ==== Proof.Patches.lean ====
/-
  The first convolution's patch matrix, as one function of the image batch.

  An image of the batch is 28 x 28; padded with zeros to 36 x 36 it is read by the first matrix product through
  32 x 160 "patch" entries per image: patch row `r = (2*pr + ps) * 8 + ar` and column `k = 32*u + v` hold the padded
  pixel at row `4*ar + 2*pr + u` and column `2*ps + v`. Both programs feed exactly this matrix to the same chain of
  matrix products; they differ only in where it is assembled.
-/
import Idealize.ShloMosaic.Lib.ValueIdx
import Idealize.ShloMosaic.PureOps.Ideal

noncomputable section

namespace Cert.Net

open Idealize.ShloMosaic Idealize.ShloMosaic.ValueIdx

/-- Pixel `(r, w)` of image `b` of a batch of 28 x 28 images padded with zeros (any `r`, `w`). -/
def padAt {B : Nat} (X : (⟨4, ![B, 1, 28, 28]⟩ : Shape).Idx → EReal) (b : Fin B) (r w : Nat) : EReal :=
  if h : r < 28 ∧ w < 28 then X (ix4 b 0 ⟨r, h.1⟩ ⟨w, h.2⟩) else 0

/-- The padded-image row that patch entry `(r, k)` reads: `4*ar + 2*pr + u` with `ar = r % 8`, `pr = r / 16`,
    `u = k / 32`. -/
def patchRow (r k : Nat) : Nat := 4 * (r % 8) + 2 * (r / 8 / 2) + k / 32

/-- The padded-image column that patch entry `(r, k)` reads: `2*ps + v` with `ps = r / 8 % 2`, `v = k % 32`. -/
def patchCol (r k : Nat) : Nat := 2 * (r / 8 % 2) + k % 32

/-- The patch matrices of a batch: entry `(b, r, k)` is the padded pixel `(patchRow r k, patchCol r k)` of image `b`. -/
def patches {B : Nat} (X : (⟨4, ![B, 1, 28, 28]⟩ : Shape).Idx → EReal) : (⟨3, ![B, 32, 160]⟩ : Shape).Idx → EReal :=
  fun i => padAt X (i 0) (patchRow (i 1).val (i 2).val) (patchCol (i 1).val (i 2).val)

/-- The patch matrices of a batch of 32 images stacked into 1024 rows: row `32*b + r`. -/
def patchRows (x : (⟨4, ![32, 1, 28, 28]⟩ : Shape).Idx → EReal) : (⟨2, ![1024, 160]⟩ : Shape).Idx → EReal :=
  fun j => padAt x ⟨(j 0).val / 32, by have := idx2_lt0 j; omega⟩ (patchRow ((j 0).val % 32) (j 1).val) (patchCol ((j 0).val % 32) (j 1).val)

end Cert.Net

end
-- ==== Proof.KernelRows.lean ====
/-
  The kernel's patch matrix.

  The kernel pads each 28 x 28 image of its 32-image block with zeros to 36 x 36, regroups the padded rows in fours
  (padded row 4*a + j sits at [a, j]) and cuts four slabs q = 2*pr + ps out of it; slab q is five taps u = 0..4 laid
  side by side, tap u holding, at (ar, v), the padded pixel at row 4*ar + 2*pr + u and column 2*ps + v. The four slabs
  stacked and flattened to 1024 rows are the patch rows of the block.
-/
import proofs.«126704_g2000501235386493_pallaspilot1_12_3_alg».proof.Proof.Gen.KernelIdeal.Skeleton
import proofs.«126704_g2000501235386493_pallaspilot1_12_3_alg».proof.Proof.Patches
import Idealize.ShloMosaic.Lib.Pipeline.Value
import Idealize.ShloMosaic.Lib.ValueIdx
import Idealize.ShloMosaic.PureOps.Ideal.Laws
noncomputable section
namespace Cert.Net.KernelRows
open Idealize.ShloMosaic Idealize.ShloMosaic.ValueIdx Cert.KernelIdeal Cert.KernelIdeal.Gen

def rowsK (v39 v50 : FVec Ideal S32x8x160 .f32) (v51 v52 : FVec Ideal S32x1x8x160 .f32) : FVec Ideal S1024x160 .f32 :=
  shapeCast S1024x160 (concatenate S32x4x8x160 1 [⟨S32x1x8x160, v51⟩, ⟨S32x1x8x160, v52⟩, ⟨S32x1x8x160, shapeCast S32x1x8x160 v39 shapeCasts_S32x8x160_S32x1x8x160⟩, ⟨S32x1x8x160, shapeCast S32x1x8x160 v50 shapeCasts_S32x8x160_S32x1x8x160⟩] concatenates_S32x1x8x160_S32x1x8x160_S32x1x8x160_S32x1x8x160_S32x4x8x160_d1) shapeCasts_S32x4x8x160_S1024x160

/-- Two padded pixels named by equal coordinates are equal. -/
theorem padAt_congr (x : Vec Ideal S32x1x28x28 .f32) (b b' : Fin 32) (r r' w w' : Nat)
    (hb : b = b') (hr : r = r') (hw : w = w') : Cert.Net.padAt x b r w = Cert.Net.padAt x b' r' w' := by
  subst hb hr hw; rfl

/-- The padded, regrouped image: at [b, a, j, w] it holds the padded pixel (4*a + j, w) of image b. -/
theorem pad_apply (x : Vec Ideal S32x1x28x28 .f32) (b : Fin 32) (a : Fin 9) (jj : Fin 4) (w : Fin 36) :
    k0_pay2 x (ix4 b a jj w) = Cert.Net.padAt x b (4 * a.val + jj.val) w.val := by
  have hb := b.isLt; have ha := a.isLt; have hj := jj.isLt; have hw := w.isLt
  have hr : 4 * a.val + jj.val < 36 := by omega
  unfold k0_pay2
  -- the regrouping: [32,9,4,36] at (b, a, j, w) reads [32,36,36] at (b, 4*a + j, w)
  refine (shapeCast_apply _ _ _ (ix3 b (⟨4 * a.val + jj.val, hr⟩ : Fin 36) w) (by
      rw [Shape.rowMajor_val_three, Shape.rowMajor_val_four]
      show (b.val * 36 + (4 * a.val + jj.val)) * 36 + w.val = ((b.val * 9 + a.val) * 4 + jj.val) * 36 + w.val
      omega)).trans ?_
  by_cases hw28 : w.val < 28
  · -- columns below 28: the row-padded image
    refine (concatenate_pair_apply_left (t := S32x36x36) (s₁ := S32x36x28) (s₂ := S32x36x8) 2 _ _ _ (ix3 b (⟨4 * a.val + jj.val, hr⟩ : Fin 36) w) rfl (ix3 b (⟨4 * a.val + jj.val, hr⟩ : Fin 36) (⟨w.val, hw28⟩ : Fin 28))
      (fun c => match c with | ⟨0, _⟩ => rfl | ⟨1, _⟩ => rfl | ⟨2, _⟩ => rfl)).trans ?_
    by_cases hr28 : 4 * a.val + jj.val < 28
    · -- rows below 28: the image itself
      refine (concatenate_pair_apply_left (t := S32x36x28) (s₁ := S32x28x28) (s₂ := S32x8x28) 1 _ _ _ (ix3 b (⟨4 * a.val + jj.val, hr⟩ : Fin 36) (⟨w.val, hw28⟩ : Fin 28)) rfl (ix3 b (⟨4 * a.val + jj.val, hr28⟩ : Fin 28) (⟨w.val, hw28⟩ : Fin 28))
        (fun c => match c with | ⟨0, _⟩ => rfl | ⟨1, _⟩ => rfl | ⟨2, _⟩ => rfl)).trans ?_
      refine (shapeCast_apply _ _ _ (ix4 b (0 : Fin 1) (⟨4 * a.val + jj.val, hr28⟩ : Fin 28) (⟨w.val, hw28⟩ : Fin 28)) (by
        rw [Shape.rowMajor_val_four, Shape.rowMajor_val_three]
        show ((b.val * 1 + 0) * 28 + (4 * a.val + jj.val)) * 28 + w.val = (b.val * 28 + (4 * a.val + jj.val)) * 28 + w.val
        omega)).trans ?_
      rw [Cert.Net.padAt, dif_pos ⟨hr28, hw28⟩]
    · -- rows 28..35: zero
      refine (concatenate_pair_apply_right (t := S32x36x28) (s₁ := S32x28x28) (s₂ := S32x8x28) 1 _ _ _ (ix3 b (⟨4 * a.val + jj.val, hr⟩ : Fin 36) (⟨w.val, hw28⟩ : Fin 28)) rfl rfl (ix3 b (⟨4 * a.val + jj.val - 28, by omega⟩ : Fin 8) (⟨w.val, hw28⟩ : Fin 28))
        (fun c hc => match c, hc with | ⟨0, _⟩, _ => rfl | ⟨1, _⟩, hc => (hc rfl).elim | ⟨2, _⟩, _ => rfl)
        (by show 4 * a.val + jj.val - 28 + 28 = 4 * a.val + jj.val; omega)).trans ?_
      rw [Cert.Net.padAt, dif_neg (fun h => hr28 h.1)]
      exact Ideal.ofBits_zero_f32
  · -- columns 28..35: zero
    refine (concatenate_pair_apply_right (t := S32x36x36) (s₁ := S32x36x28) (s₂ := S32x36x8) 2 _ _ _ (ix3 b (⟨4 * a.val + jj.val, hr⟩ : Fin 36) w) rfl rfl (ix3 b (⟨4 * a.val + jj.val, hr⟩ : Fin 36) (⟨w.val - 28, by omega⟩ : Fin 8))
      (fun c hc => match c, hc with | ⟨0, _⟩, _ => rfl | ⟨1, _⟩, _ => rfl | ⟨2, _⟩, hc => (hc rfl).elim)
      (by show w.val - 28 + 28 = w.val; omega)).trans ?_
    rw [Cert.Net.padAt, dif_neg (fun h => hw28 h.2)]
    exact Ideal.ofBits_zero_f32

/-- One tap: the [32,8,1,32] block of the regrouped image at offsets (0, c, j, o), read at (b, ar, v), is the padded
    pixel (4*(c + ar) + j, o + v) of image b. -/
theorem tap_pad (x : Vec Ideal S32x1x28x28 .f32) (c jj o : Nat) (h : S32x9x4x36.Slices ![0, c, jj, o] S32x8x1x32)
    (b : Fin 32) (ar : Fin 8) (v : Nat) (hv : v < 32) :
    shapeCast S32x8x32 (extractStridedSlice S32x8x1x32 ![0, c, jj, o] (k0_pay2 x) h) shapeCasts_S32x8x1x32_S32x8x32
        (ix3 b ar (⟨v, hv⟩ : Fin 32))
      = Cert.Net.padAt x b (4 * (c + ar.val) + jj) (o + v) := by
  have hb := b.isLt; have har := ar.isLt
  have h1 := h.2 (1 : Fin 4)
  have h2 := h.2 (2 : Fin 4)
  have h3 := h.2 (3 : Fin 4)
  have h1 : c + 8 ≤ 9 := h1
  have h2 : jj + 1 ≤ 4 := h2
  have h3 : o + 32 ≤ 36 := h3
  refine (shapeCast_apply _ _ _ (ix4 b ar (0 : Fin 1) (⟨v, hv⟩ : Fin 32)) (by
    rw [Shape.rowMajor_val_four, Shape.rowMajor_val_three]
    show ((b.val * 8 + ar.val) * 1 + 0) * 32 + v = (b.val * 8 + ar.val) * 32 + v
    omega)).trans ?_
  refine (extractStridedSlice_apply _ _ _ _
    (ix4 b (⟨c + ar.val, by omega⟩ : Fin 9) (⟨jj, by omega⟩ : Fin 4) (⟨o + v, by omega⟩ : Fin 36))
    (fun a => match a with
      | ⟨0, _⟩ => by show b.val = 0 + b.val; omega
      | ⟨1, _⟩ => by show c + ar.val = c + ar.val; rfl
      | ⟨2, _⟩ => by show jj = jj + 0; omega
      | ⟨3, _⟩ => by show o + v = o + v; rfl)).trans ?_
  exact pad_apply x b _ _ _

/-- One slab: five taps at offsets (0, c_u, j_u, o) with 4*c_u + j_u = m + u, laid side by side, read at (b, ar, k):
    the padded pixel (4*ar + m + k/32, o + k%32) of image b. -/
theorem slab_apply (x : Vec Ideal S32x1x28x28 .f32) (m o c0 j0 c1 j1 c2 j2 c3 j3 c4 j4 : Nat)
    (h0 : S32x9x4x36.Slices ![0, c0, j0, o] S32x8x1x32) (h1 : S32x9x4x36.Slices ![0, c1, j1, o] S32x8x1x32)
    (h2 : S32x9x4x36.Slices ![0, c2, j2, o] S32x8x1x32) (h3 : S32x9x4x36.Slices ![0, c3, j3, o] S32x8x1x32)
    (h4 : S32x9x4x36.Slices ![0, c4, j4, o] S32x8x1x32)
    (e0 : 4 * c0 + j0 = m) (e1 : 4 * c1 + j1 = m + 1) (e2 : 4 * c2 + j2 = m + 2) (e3 : 4 * c3 + j3 = m + 3)
    (e4 : 4 * c4 + j4 = m + 4) (b : Fin 32) (ar : Fin 8) (k : Fin 160) :
    concatenate S32x8x160 2
        [⟨S32x8x32, shapeCast S32x8x32 (extractStridedSlice S32x8x1x32 ![0, c0, j0, o] (k0_pay2 x) h0) shapeCasts_S32x8x1x32_S32x8x32⟩,
         ⟨S32x8x32, shapeCast S32x8x32 (extractStridedSlice S32x8x1x32 ![0, c1, j1, o] (k0_pay2 x) h1) shapeCasts_S32x8x1x32_S32x8x32⟩,
         ⟨S32x8x32, shapeCast S32x8x32 (extractStridedSlice S32x8x1x32 ![0, c2, j2, o] (k0_pay2 x) h2) shapeCasts_S32x8x1x32_S32x8x32⟩,
         ⟨S32x8x32, shapeCast S32x8x32 (extractStridedSlice S32x8x1x32 ![0, c3, j3, o] (k0_pay2 x) h3) shapeCasts_S32x8x1x32_S32x8x32⟩,
         ⟨S32x8x32, shapeCast S32x8x32 (extractStridedSlice S32x8x1x32 ![0, c4, j4, o] (k0_pay2 x) h4) shapeCasts_S32x8x1x32_S32x8x32⟩]
        concatenates_S32x8x32_S32x8x32_S32x8x32_S32x8x32_S32x8x32_S32x8x160_d2 (ix3 b ar k)
      = Cert.Net.padAt x b (4 * ar.val + m + k.val / 32) (o + k.val % 32) := by
  have hk := k.isLt
  have hv : k.val % 32 < 32 := Nat.mod_lt _ (by decide)
  have hu : k.val / 32 = 0 ∨ k.val / 32 = 1 ∨ k.val / 32 = 2 ∨ k.val / 32 = 3 ∨ k.val / 32 = 4 := by omega
  rcases hu with hu | hu | hu | hu | hu
  · refine (concatenate_apply_piece (t := S32x8x160) 2 _ _ (ix3 b ar k) 0 (by show (0 : Nat) < 5; decide) S32x8x32 _ rfl rfl 0 rfl
      (ix3 b ar (⟨k.val % 32, hv⟩ : Fin 32))
      (fun c hc => match c, hc with | ⟨0, _⟩, _ => rfl | ⟨1, _⟩, _ => rfl | ⟨2, _⟩, hc => (hc rfl).elim)
      (by show 0 + k.val % 32 = k.val; omega)).trans ?_
    refine (tap_pad x c0 j0 o h0 b ar _ hv).trans ?_
    exact padAt_congr x _ _ _ _ _ _ rfl (by omega) rfl
  · refine (concatenate_apply_piece (t := S32x8x160) 2 _ _ (ix3 b ar k) 1 (by show (1 : Nat) < 5; decide) S32x8x32 _ rfl rfl 32 rfl
      (ix3 b ar (⟨k.val % 32, hv⟩ : Fin 32))
      (fun c hc => match c, hc with | ⟨0, _⟩, _ => rfl | ⟨1, _⟩, _ => rfl | ⟨2, _⟩, hc => (hc rfl).elim)
      (by show 32 + k.val % 32 = k.val; omega)).trans ?_
    refine (tap_pad x c1 j1 o h1 b ar _ hv).trans ?_
    exact padAt_congr x _ _ _ _ _ _ rfl (by omega) rfl
  · refine (concatenate_apply_piece (t := S32x8x160) 2 _ _ (ix3 b ar k) 2 (by show (2 : Nat) < 5; decide) S32x8x32 _ rfl rfl 64 rfl
      (ix3 b ar (⟨k.val % 32, hv⟩ : Fin 32))
      (fun c hc => match c, hc with | ⟨0, _⟩, _ => rfl | ⟨1, _⟩, _ => rfl | ⟨2, _⟩, hc => (hc rfl).elim)
      (by show 64 + k.val % 32 = k.val; omega)).trans ?_
    refine (tap_pad x c2 j2 o h2 b ar _ hv).trans ?_
    exact padAt_congr x _ _ _ _ _ _ rfl (by omega) rfl
  · refine (concatenate_apply_piece (t := S32x8x160) 2 _ _ (ix3 b ar k) 3 (by show (3 : Nat) < 5; decide) S32x8x32 _ rfl rfl 96 rfl
      (ix3 b ar (⟨k.val % 32, hv⟩ : Fin 32))
      (fun c hc => match c, hc with | ⟨0, _⟩, _ => rfl | ⟨1, _⟩, _ => rfl | ⟨2, _⟩, hc => (hc rfl).elim)
      (by show 96 + k.val % 32 = k.val; omega)).trans ?_
    refine (tap_pad x c3 j3 o h3 b ar _ hv).trans ?_
    exact padAt_congr x _ _ _ _ _ _ rfl (by omega) rfl
  · refine (concatenate_apply_piece (t := S32x8x160) 2 _ _ (ix3 b ar k) 4 (by show (4 : Nat) < 5; decide) S32x8x32 _ rfl rfl 128 rfl
      (ix3 b ar (⟨k.val % 32, hv⟩ : Fin 32))
      (fun c hc => match c, hc with | ⟨0, _⟩, _ => rfl | ⟨1, _⟩, _ => rfl | ⟨2, _⟩, hc => (hc rfl).elim)
      (by show 128 + k.val % 32 = k.val; omega)).trans ?_
    refine (tap_pad x c4 j4 o h4 b ar _ hv).trans ?_
    exact padAt_congr x _ _ _ _ _ _ rfl (by omega) rfl

/-- A slab given a unit second axis, read at (b, 0, ar, k), is the slab at (b, ar, k). -/
theorem unit_apply (s : S32x8x160.Idx → EReal) (b : Fin 32) (z : Fin 1) (ar : Fin 8) (k : Fin 160) :
    shapeCast S32x1x8x160 s shapeCasts_S32x8x160_S32x1x8x160 (ix4 b z ar k) = s (ix3 b ar k) := by
  have hz := z.isLt
  exact shapeCast_apply _ _ _ (ix3 b ar k) (by
    rw [Shape.rowMajor_val_three, Shape.rowMajor_val_four]
    show (b.val * 8 + ar.val) * 160 + k.val = ((b.val * 1 + z.val) * 8 + ar.val) * 160 + k.val
    omega)

/-- Slab 0 (pr = 0, ps = 0). -/
theorem pay5_apply (x : Vec Ideal S32x1x28x28 .f32) (b : Fin 32) (z : Fin 1) (ar : Fin 8) (k : Fin 160) :
    k0_pay5 x (ix4 b z ar k) = Cert.Net.padAt x b (4 * ar.val + 0 + k.val / 32) (0 + k.val % 32) := by
  unfold k0_pay5
  refine (unit_apply _ b z ar k).trans ?_
  exact slab_apply x 0 0 0 0 0 1 0 2 0 3 1 0 _ _ _ _ _ rfl rfl rfl rfl rfl b ar k

/-- Slab 1 (pr = 0, ps = 1). -/
theorem pay6_apply (x : Vec Ideal S32x1x28x28 .f32) (b : Fin 32) (z : Fin 1) (ar : Fin 8) (k : Fin 160) :
    k0_pay6 x (ix4 b z ar k) = Cert.Net.padAt x b (4 * ar.val + 0 + k.val / 32) (2 + k.val % 32) := by
  unfold k0_pay6
  refine (unit_apply _ b z ar k).trans ?_
  exact slab_apply x 0 2 0 0 0 1 0 2 0 3 1 0 _ _ _ _ _ rfl rfl rfl rfl rfl b ar k

/-- Slab 2 (pr = 1, ps = 0). -/
theorem pay3_apply (x : Vec Ideal S32x1x28x28 .f32) (b : Fin 32) (ar : Fin 8) (k : Fin 160) :
    k0_pay3 x (ix3 b ar k) = Cert.Net.padAt x b (4 * ar.val + 2 + k.val / 32) (0 + k.val % 32) := by
  unfold k0_pay3
  exact slab_apply x 2 0 0 2 0 3 1 0 1 1 1 2 _ _ _ _ _ rfl rfl rfl rfl rfl b ar k

/-- Slab 3 (pr = 1, ps = 1). -/
theorem pay4_apply (x : Vec Ideal S32x1x28x28 .f32) (b : Fin 32) (ar : Fin 8) (k : Fin 160) :
    k0_pay4 x (ix3 b ar k) = Cert.Net.padAt x b (4 * ar.val + 2 + k.val / 32) (2 + k.val % 32) := by
  unfold k0_pay4
  exact slab_apply x 2 2 0 2 0 3 1 0 1 1 1 2 _ _ _ _ _ rfl rfl rfl rfl rfl b ar k

/-- The padded pixel a slab holds at (R / 32, R % 8, k) is the patch-row entry (R, k), given the slab's row and column
    offsets m = 2*pr and o = 2*ps for q = R % 32 / 8 = 2*pr + ps. -/
theorem slab_patch (x : Vec Ideal S32x1x28x28 .f32) (R : Fin 1024) (k : Fin 160) (m o : Nat)
    (hB : R.val / 32 < 32) (hm : m = 2 * (R.val % 32 / 8 / 2)) (ho : o = 2 * (R.val % 32 / 8 % 2)) :
    Cert.Net.padAt x (⟨R.val / 32, hB⟩ : Fin 32) (4 * (R.val % 8) + m + k.val / 32) (o + k.val % 32)
      = Cert.Net.patchRows x (ix2 R k) := by
  show _ = Cert.Net.padAt x ⟨R.val / 32, _⟩ (Cert.Net.patchRow (R.val % 32) k.val) (Cert.Net.patchCol (R.val % 32) k.val)
  refine padAt_congr x _ _ _ _ _ _ rfl ?_ ?_
  · unfold Cert.Net.patchRow; omega
  · unfold Cert.Net.patchCol; omega

theorem rowsK_patches (x : Vec Ideal S32x1x28x28 .f32) :
    rowsK (k0_pay3 x) (k0_pay4 x) (k0_pay5 x) (k0_pay6 x) = Cert.Net.patchRows x := by
  funext j
  obtain ⟨R, k, rfl⟩ : ∃ R k, j = ix2 R k := ⟨j 0, j 1, eq_ix2 j⟩
  have hR := R.isLt
  have hB : R.val / 32 < 32 := by omega
  have hQ : R.val % 32 / 8 < 4 := by omega
  have hA : R.val % 8 < 8 := by omega
  unfold rowsK
  -- the flattening: [1024,160] at (R, k) reads [32,4,8,160] at (R / 32, R % 32 / 8, R % 8, k)
  refine (shapeCast_apply _ _ _
    (ix4 (⟨R.val / 32, hB⟩ : Fin 32) (⟨R.val % 32 / 8, hQ⟩ : Fin 4) (⟨R.val % 8, hA⟩ : Fin 8) k) (by
      rw [Shape.rowMajor_val_four, Shape.rowMajor_val_two]
      show ((R.val / 32 * 4 + R.val % 32 / 8) * 8 + R.val % 8) * 160 + k.val = R.val * 160 + k.val
      omega)).trans ?_
  have hq : R.val % 32 / 8 = 0 ∨ R.val % 32 / 8 = 1 ∨ R.val % 32 / 8 = 2 ∨ R.val % 32 / 8 = 3 := by omega
  rcases hq with hq | hq | hq | hq
  · refine (concatenate_apply_piece (t := S32x4x8x160) 1 _ _
      (ix4 (⟨R.val / 32, hB⟩ : Fin 32) (⟨R.val % 32 / 8, hQ⟩ : Fin 4) (⟨R.val % 8, hA⟩ : Fin 8) k)
      0 (by show (0 : Nat) < 4; decide) S32x1x8x160 _ rfl rfl 0 rfl
      (ix4 (⟨R.val / 32, hB⟩ : Fin 32) (0 : Fin 1) (⟨R.val % 8, hA⟩ : Fin 8) k)
      (fun c hc => match c, hc with | ⟨0, _⟩, _ => rfl | ⟨1, _⟩, hc => (hc rfl).elim | ⟨2, _⟩, _ => rfl | ⟨3, _⟩, _ => rfl)
      (by show 0 + 0 = R.val % 32 / 8; omega)).trans ?_
    refine (pay5_apply x _ _ _ k).trans ?_
    exact slab_patch x R k 0 0 hB (by omega) (by omega)
  · refine (concatenate_apply_piece (t := S32x4x8x160) 1 _ _
      (ix4 (⟨R.val / 32, hB⟩ : Fin 32) (⟨R.val % 32 / 8, hQ⟩ : Fin 4) (⟨R.val % 8, hA⟩ : Fin 8) k)
      1 (by show (1 : Nat) < 4; decide) S32x1x8x160 _ rfl rfl 1 rfl
      (ix4 (⟨R.val / 32, hB⟩ : Fin 32) (0 : Fin 1) (⟨R.val % 8, hA⟩ : Fin 8) k)
      (fun c hc => match c, hc with | ⟨0, _⟩, _ => rfl | ⟨1, _⟩, hc => (hc rfl).elim | ⟨2, _⟩, _ => rfl | ⟨3, _⟩, _ => rfl)
      (by show 1 + 0 = R.val % 32 / 8; omega)).trans ?_
    refine (pay6_apply x _ _ _ k).trans ?_
    exact slab_patch x R k 0 2 hB (by omega) (by omega)
  · refine (concatenate_apply_piece (t := S32x4x8x160) 1 _ _
      (ix4 (⟨R.val / 32, hB⟩ : Fin 32) (⟨R.val % 32 / 8, hQ⟩ : Fin 4) (⟨R.val % 8, hA⟩ : Fin 8) k)
      2 (by show (2 : Nat) < 4; decide) S32x1x8x160 _ rfl rfl 2 rfl
      (ix4 (⟨R.val / 32, hB⟩ : Fin 32) (0 : Fin 1) (⟨R.val % 8, hA⟩ : Fin 8) k)
      (fun c hc => match c, hc with | ⟨0, _⟩, _ => rfl | ⟨1, _⟩, hc => (hc rfl).elim | ⟨2, _⟩, _ => rfl | ⟨3, _⟩, _ => rfl)
      (by show 2 + 0 = R.val % 32 / 8; omega)).trans ?_
    refine (unit_apply _ _ _ _ k).trans ?_
    refine (pay3_apply x _ _ k).trans ?_
    exact slab_patch x R k 2 0 hB (by omega) (by omega)
  · refine (concatenate_apply_piece (t := S32x4x8x160) 1 _ _
      (ix4 (⟨R.val / 32, hB⟩ : Fin 32) (⟨R.val % 32 / 8, hQ⟩ : Fin 4) (⟨R.val % 8, hA⟩ : Fin 8) k)
      3 (by show (3 : Nat) < 4; decide) S32x1x8x160 _ rfl rfl 3 rfl
      (ix4 (⟨R.val / 32, hB⟩ : Fin 32) (0 : Fin 1) (⟨R.val % 8, hA⟩ : Fin 8) k)
      (fun c hc => match c, hc with | ⟨0, _⟩, _ => rfl | ⟨1, _⟩, hc => (hc rfl).elim | ⟨2, _⟩, _ => rfl | ⟨3, _⟩, _ => rfl)
      (by show 3 + 0 = R.val % 32 / 8; omega)).trans ?_
    refine (unit_apply _ _ _ _ k).trans ?_
    refine (pay4_apply x _ _ k).trans ?_
    exact slab_patch x R k 2 2 hB (by omega) (by omega)

end Cert.Net.KernelRows
end
-- ==== Proof.Bridge.lean ====
/-
  The two results are one function of the arguments.

  The kernel's 1024 x 160 matrix, built from a block of 32 images, is the block's patch matrix (its rows `32*b + r`);
  cut per image it is the 32 patch matrices of the block; and the patch matrices of images `32*t .. 32*t + 31` are block
  `t` of the batch's patch matrices. With the chain of stages equal stage by stage, the kernel's blocks are the
  reference's blocks at the batch's patch matrices, and so are the results.
-/
import proofs.«126704_g2000501235386493_pallaspilot1_12_3_alg».proof.Proof.TailNet
import proofs.«126704_g2000501235386493_pallaspilot1_12_3_alg».proof.Proof.KernelRows
import proofs.«126704_g2000501235386493_pallaspilot1_12_3_alg».proof.Proof.Patches
import Idealize.ShloMosaic.Lib.Pipeline.Value
import Idealize.ShloMosaic.Lib.ValueIdx

noncomputable section

namespace Cert.Net.Bridge

open Idealize.ShloMosaic Idealize.ShloMosaic.ValueIdx Cert.KernelIdeal Cert.KernelIdeal.Gen

/-- The stacked patch rows of a block of 32 images, cut per image, are the block's 32 patch matrices. -/
theorem perImage_patchRows (x : Vec Ideal S32x1x28x28 .f32) :
    Cert.Net.Tail.perImage (Cert.Net.patchRows x) = Cert.Net.patches (B := 32) x := by
  funext y
  obtain ⟨b, r, k, rfl⟩ : ∃ (b : Fin 32) (r : Fin 32) (k : Fin 160), y = ix3 b r k := ⟨y 0, y 1, y 2, eq_ix3 y⟩
  unfold Cert.Net.Tail.perImage
  refine (shapeCast_apply (Cert.Net.patchRows x) Cert.Net.Tail.cutsInto (ix3 b r k)
    (ix2 ⟨32 * b.val + r.val, by have := b.isLt; have := r.isLt; omega⟩ k) ?_).trans ?_
  · rw [Shape.rowMajor_val_two, Shape.rowMajor_val_three]
    show (32 * b.val + r.val) * 160 + k.val = (b.val * 32 + r.val) * 160 + k.val
    omega
  · unfold Cert.Net.patchRows Cert.Net.patches
    have hb : (32 * b.val + r.val) / 32 = b.val := by have := r.isLt; omega
    have hr : (32 * b.val + r.val) % 32 = r.val := by have := r.isLt; omega
    show Cert.Net.padAt x ⟨(32 * b.val + r.val) / 32, _⟩ (Cert.Net.patchRow ((32 * b.val + r.val) % 32) k.val) (Cert.Net.patchCol ((32 * b.val + r.val) % 32) k.val)
      = Cert.Net.padAt x b (Cert.Net.patchRow r.val k.val) (Cert.Net.patchCol r.val k.val)
    rw [hr]
    congr 1
    exact Fin.ext hb

/-- The patch matrices of images `32*t .. 32*t + 31` are block `t` of the batch's patch matrices. -/
theorem patches_imagesOf (X : S8192x1x28x28.Idx → EReal) (t : Fin 256) :
    Cert.Net.patches (B := 32) (Cert.Net.imagesOf X t) = Cert.Net.blockOf (Cert.Net.patches (B := 8192) X) t := by
  funext y
  rfl

/-- THE BLOCKS AGREE: the kernel's stored blocks are the reference's at the batch's patch matrices. -/
theorem kerBlocks_eq (X : S8192x1x28x28.Idx → EReal)
    (w1 : S160x512.Idx → EReal) (b1 : S1x128.Idx → EReal)
    (w2 : S1280x640.Idx → EReal) (b2 : S1x640.Idx → EReal) (w3 : S800x64.Idx → EReal) (b3 : S1x64.Idx → EReal)
    (w4 : S64x32.Idx → EReal) (b4 : S1x32.Idx → EReal) (w5 : S32x128.Idx → EReal) (b5 : S1x128.Idx → EReal) :
    Cert.Net.kerBlocks X w1 b1 w2 b2 w3 b3 w4 b4 w5 b5
      = Cert.Net.logitsBlocks (Cert.Net.patches (B := 8192) X) w1 b1 w2 b2 w3 b3 w4 b4 w5 b5 := by
  funext i
  unfold Cert.Net.kerBlocks Cert.Net.logitsBlocks
  rw [Cert.Net.Tail.chain]
  have e : Cert.Net.Tail.rows (k0_pay3 (Cert.Net.imagesOf X (i 0))) (k0_pay4 (Cert.Net.imagesOf X (i 0))) (k0_pay5 (Cert.Net.imagesOf X (i 0))) (k0_pay6 (Cert.Net.imagesOf X (i 0)))
      = Cert.Net.patchRows (Cert.Net.imagesOf X (i 0)) := Cert.Net.KernelRows.rowsK_patches _
  rw [e, perImage_patchRows]
  exact congrFun (congrArg (fun P => Cert.Net.refChain P w1 b1 w2 b2 w3 b3 w4 b4 w5 b5) (patches_imagesOf X (i 0))) _

/-- Both programs end with the same two host operations. -/
theorem kerResult_eq (G : S256x32x128.Idx → EReal) : Cert.Net.kerResult G = Cert.Net.result G := rfl

end Cert.Net.Bridge

end
-- ==== Proof.HostPatches.lean ====
/-
  The reference's host side: what the launch's first argument holds.

  Before the launch the reference drops the images' unit axis, pads each 28 x 28 image with zeros to 36 x 36, builds two
  arrays of 32-bit words — the padded row `4*ar + 2*pr + u` at `(ar, pr, u)` and the padded column `2*ps + v` at
  `(ps, v)` —, pairs them into start indices, gathers the padded pixels at those indices, and transposes and reshapes the
  result to `[8192, 32, 160]`. Entry `(b, (2*pr + ps)*8 + ar, 32*u + v)` is then the padded pixel
  `(4*ar + 2*pr + u, 2*ps + v)` of image `b`: the patch matrix `Cert.Net.patches`.

  The file names the composed host term (`hostTerm`), shows that the host operations leave it in the launch's first
  argument (`V46_eq`, the operations run in five stretches), reads it at an index operation by operation
  (`hostTerm_coords`), and concludes (`hostPatches`).
-/
import proofs.«126704_g2000501235386493_pallaspilot1_12_3_alg».proof.Proof.Gen.ReferenceIdeal.Frame
import proofs.«126704_g2000501235386493_pallaspilot1_12_3_alg».proof.Proof.Patches
import Idealize.ShloMosaic.Lib.Pipeline.Value
import Idealize.ShloMosaic.Lib.ValueIdx
import Idealize.ShloMosaic.Lib.ValueIdxRank6
import Idealize.ShloMosaic.Lib.KernelVsHost
import Idealize.ShloMosaic.Lib.IdealHost
import Idealize.ShloMosaic.Lib.StableHlo.Run
import Idealize.ShloMosaic.PureOps.Ideal
noncomputable section
namespace Cert.Net.HostPatches
open Idealize.ShloMosaic Idealize.ShloMosaic.ValueIdx Idealize.SL.Sem Cert.ReferenceIdeal Cert.ReferenceIdeal.Gen

/-! ## The reference's host operations before the launch, as one function of the image batch

Each definition is one value (or a short run of values) of the reference's host code, named by what it holds. -/

/-- The batch with the unit axis dropped, padded with zeros to 36 x 36 images. -/
def padded (X : S8192x1x28x28.Idx → EReal) : S8192x36x36.Idx → EReal :=
  pad S8192x36x36 ![0, 0, 0] ![0, 8, 8] ![0, 0, 0] (shapeCast S8192x28x28 X shapeCasts_S8192x1x28x28_S8192x28x28)
    (sitofp (F := Ideal) .f32 (constantI S_ 32 0#32)) pads_S8192x28x28_S8192x36x36_000_080_080 h_S_

/-- `4 * ar` at `(ar, ·, ·)`. -/
def w4ar : IVec S8x1x1 32 :=
  muli (broadcastInDim S8x1x1 ![] bcast_S_S8x1x1 (constantI S_ 32 4#32)) (broadcastInDim S8x1x1 ![0] bcast_S8_S8x1x1_0 (iotaInDim S8 32 0))
/-- `2 * pr` at `(·, pr, ·)`. -/
def w2pr : IVec S1x2x1 32 :=
  muli (broadcastInDim S1x2x1 ![] bcast_S_S1x2x1 (constantI S_ 32 2#32)) (broadcastInDim S1x2x1 ![1] bcast_S2_S1x2x1_1 (iotaInDim S2 32 0))
/-- `4 * ar + 2 * pr` at `(ar, pr, ·)`. -/
def wArPr : IVec S8x2x1 32 :=
  addi (broadcastInDim S8x2x1 ![0, 1, 2] bcast_S8x1x1_S8x2x1_0_1_2 w4ar) (broadcastInDim S8x2x1 ![0, 1, 2] bcast_S1x2x1_S8x2x1_0_1_2 w2pr)
/-- `4 * ar + 2 * pr + u` at `(ar, pr, u)`. -/
def wRow3 : IVec S8x2x5 32 :=
  addi (broadcastInDim S8x2x5 ![0, 1, 2] bcast_S8x2x1_S8x2x5_0_1_2 wArPr)
    (broadcastInDim S8x2x5 ![0, 1, 2] bcast_S1x1x5_S8x2x5_0_1_2 (broadcastInDim S1x1x5 ![2] bcast_S5_S1x1x5_2 (iotaInDim S5 32 0)))
/-- `2 * ps` at `(ps, ·)`. -/
def w2ps : IVec S2x1 32 :=
  muli (broadcastInDim S2x1 ![] bcast_S_S2x1 (constantI S_ 32 2#32)) (broadcastInDim S2x1 ![0] bcast_S2_S2x1_0 (iotaInDim S2 32 0))
/-- `2 * ps + v` at `(ps, v)`. -/
def wCol2 : IVec S2x32 32 :=
  addi (broadcastInDim S2x32 ![0, 1] bcast_S2x1_S2x32_0_1 w2ps)
    (broadcastInDim S2x32 ![0, 1] bcast_S1x32_S2x32_0_1 (broadcastInDim S1x32 ![1] bcast_S32_S1x32_1 (iotaInDim S32 32 0)))
/-- The row words on five axes `(ar, pr, u, ·, ·)`. -/
def wRow5 : IVec S8x2x5x1x1 32 := broadcastInDim S8x2x5x1x1 ![0, 1, 2] bcast_S8x2x5_S8x2x5x1x1_0_1_2 wRow3
/-- The column words on five axes `(·, ·, ·, ps, v)`. -/
def wCol5 : IVec S1x1x1x2x32 32 := broadcastInDim S1x1x1x2x32 ![3, 4] bcast_S2x32_S1x1x1x2x32_3_4 wCol2
/-- A row-word array on five axes, wrapped: 36 is added to a negative word. -/
def rowSelOf (w : IVec S8x2x5 32) : IVec S8x2x5x1x1 32 :=
  select (cmpi .slt (broadcastInDim S8x2x5x1x1 ![0, 1, 2] bcast_S8x2x5_S8x2x5x1x1_0_1_2 w) (broadcastInDim S8x2x5x1x1 ![] bcast_S_S8x2x5x1x1 (constantI S_ 32 0#32)))
    (addi (broadcastInDim S8x2x5x1x1 ![0, 1, 2] bcast_S8x2x5_S8x2x5x1x1_0_1_2 w) (broadcastInDim S8x2x5x1x1 ![] bcast_S_S8x2x5x1x1 (constantI S_ 32 36#32)))
    (broadcastInDim S8x2x5x1x1 ![0, 1, 2] bcast_S8x2x5_S8x2x5x1x1_0_1_2 w)
/-- The row words wrapped. -/
def wRowSel : IVec S8x2x5x1x1 32 := rowSelOf wRow3
/-- A column-word array on five axes, wrapped: 36 is added to a negative word. -/
def colSelOf (w : IVec S2x32 32) : IVec S1x1x1x2x32 32 :=
  select (cmpi .slt (broadcastInDim S1x1x1x2x32 ![3, 4] bcast_S2x32_S1x1x1x2x32_3_4 w) (broadcastInDim S1x1x1x2x32 ![] bcast_S_S1x1x1x2x32 (constantI S_ 32 0#32)))
    (addi (broadcastInDim S1x1x1x2x32 ![3, 4] bcast_S2x32_S1x1x1x2x32_3_4 w) (broadcastInDim S1x1x1x2x32 ![] bcast_S_S1x1x1x2x32 (constantI S_ 32 36#32)))
    (broadcastInDim S1x1x1x2x32 ![3, 4] bcast_S2x32_S1x1x1x2x32_3_4 w)
/-- The column words wrapped. -/
def wColSel : IVec S1x1x1x2x32 32 := colSelOf wCol2
/-- The start indices of the gather: at `(ar, pr, u, ps, v, ·)` the pair (row word, column word). -/
def startIdx : IVec S8x2x5x2x32x2 32 :=
  concatenate S8x2x5x2x32x2 5
    [⟨S8x2x5x2x32x1, broadcastInDim S8x2x5x2x32x1 ![0, 1, 2, 3, 4] bcast_S8x2x5x2x32_S8x2x5x2x32x1_0_1_2_3_4
        (broadcastInDim S8x2x5x2x32 ![0, 1, 2, 3, 4] bcast_S8x2x5x1x1_S8x2x5x2x32_0_1_2_3_4 wRowSel)⟩,
     ⟨S8x2x5x2x32x1, broadcastInDim S8x2x5x2x32x1 ![0, 1, 2, 3, 4] bcast_S8x2x5x2x32_S8x2x5x2x32x1_0_1_2_3_4
        (broadcastInDim S8x2x5x2x32 ![0, 1, 2, 3, 4] bcast_S1x1x1x2x32_S8x2x5x2x32_0_1_2_3_4 wColSel)⟩]
    concatenates_S8x2x5x2x32x1_S8x2x5x2x32x1_S8x2x5x2x32x2_d5
/-- The gathered pixels: at `(b, ar, pr, u, ps, v)` the padded pixel of image `b` at the start index. -/
def gathered (X : S8192x1x28x28.Idx → EReal) : S8192x8x2x5x2x32.Idx → EReal :=
  Host.gather gather_S8192x36x36_S8x2x5x2x32x2_S8192x8x2x5x2x32_0_12_n_n_12_5_819211 (padded X) startIdx
/-- The patch matrices as the host code assembles them. -/
def hostTerm (X : S8192x1x28x28.Idx → EReal) : S8192x32x160.Idx → EReal :=
  shapeCast S8192x32x160
    (transpose S8192x2x2x8x5x32 [0, 2, 4, 1, 3, 5] (gathered X) transposes_S8192x8x2x5x2x32_S8192x2x2x8x5x32_0_2_4_1_3_5)
    shapeCasts_S8192x2x2x8x5x32_S8192x32x160

/-- The last host operations over any padded batch and any two word arrays: pair, gather, transpose, reshape. -/
def tailOf (P : S8192x36x36.Idx → EReal) (rs : IVec S8x2x5x1x1 32) (cs : IVec S1x1x1x2x32 32) : S8192x32x160.Idx → EReal :=
  shapeCast S8192x32x160
    (transpose S8192x2x2x8x5x32 [0, 2, 4, 1, 3, 5]
      (Host.gather gather_S8192x36x36_S8x2x5x2x32x2_S8192x8x2x5x2x32_0_12_n_n_12_5_819211 P
        (concatenate S8x2x5x2x32x2 5
          [⟨S8x2x5x2x32x1, broadcastInDim S8x2x5x2x32x1 ![0, 1, 2, 3, 4] bcast_S8x2x5x2x32_S8x2x5x2x32x1_0_1_2_3_4
              (broadcastInDim S8x2x5x2x32 ![0, 1, 2, 3, 4] bcast_S8x2x5x1x1_S8x2x5x2x32_0_1_2_3_4 rs)⟩,
           ⟨S8x2x5x2x32x1, broadcastInDim S8x2x5x2x32x1 ![0, 1, 2, 3, 4] bcast_S8x2x5x2x32_S8x2x5x2x32x1_0_1_2_3_4
              (broadcastInDim S8x2x5x2x32 ![0, 1, 2, 3, 4] bcast_S1x1x1x2x32_S8x2x5x2x32_0_1_2_3_4 cs)⟩]
          concatenates_S8x2x5x2x32x1_S8x2x5x2x32x1_S8x2x5x2x32x2_d5))
      transposes_S8192x8x2x5x2x32_S8192x2x2x8x5x32_0_2_4_1_3_5)
    shapeCasts_S8192x2x2x8x5x32_S8192x32x160
/-- The host's matrix is the last operations over the padded batch and the wrapped words. -/
theorem hostTerm_tail (X : S8192x1x28x28.Idx → EReal) : hostTerm X = tailOf (padded X) wRowSel wColSel := rfl

/-! ## What the host operations leave in the launch's first argument

The operations are run in five stretches; each stretch's results are read off an arbitrary valuation `W` before it. -/

open Idealize.ShloMosaic.StableHlo in
/-- Two stretches run one after the other. -/
theorem after_append (l₁ l₂ : List (HloOp τ sig (Elt Ideal))) (W : Valuation τ sig (Elt Ideal)) :
    after (l₁ ++ l₂) W = after l₂ (after l₁ W) := by
  induction l₁ generalizing W with
  | nil => rfl
  | cons op l ih => simp only [List.cons_append, after_cons, ih]

/-- The host operations that drop the unit axis and pad the images. -/
abbrev segA : List (HloOp τ sig (Elt Ideal)) :=
  [ StableHlo.TRef.reshape (.of main_arg0 : StableHlo.TRef sig ⟨S8192x1x28x28, .f32⟩) (.of main_call0_v0 : StableHlo.TRef sig ⟨S8192x28x28, .f32⟩) rfl shapeCasts_S8192x1x28x28_S8192x28x28,
    StableHlo.TRef.nullary (.of main_call0_c : StableHlo.TRef sig ⟨S_, .i32⟩) (constantI S_ 32 0#32),
    StableHlo.TRef.unary (.of main_call0_c : StableHlo.TRef sig ⟨S_, .i32⟩) (.of main_call0_call0_v0 : StableHlo.TRef sig ⟨S_, .f32⟩) (sitofp (F := Ideal) .f32),
    StableHlo.TRef.binary (.of main_call0_v0 : StableHlo.TRef sig ⟨S8192x28x28, .f32⟩) (.of main_call0_call0_v0 : StableHlo.TRef sig ⟨S_, .f32⟩) (.of main_call0_v1 : StableHlo.TRef sig ⟨S8192x36x36, .f32⟩) (fun x v => pad S8192x36x36 ![0, 0, 0] ![0, 8, 8] ![0, 0, 0] x v pads_S8192x28x28_S8192x36x36_000_080_080 h_S_) ]

/-- The host operations that build the row words `4 * ar + 2 * pr + u`. -/
abbrev segB : List (HloOp τ sig (Elt Ideal)) :=
  [ StableHlo.TRef.nullary (.of main_call0_v2 : StableHlo.TRef sig ⟨S8, .i32⟩) (iotaInDim S8 32 0),
    StableHlo.TRef.unary (.of main_call0_v2 : StableHlo.TRef sig ⟨S8, .i32⟩) (.of main_call0_v3 : StableHlo.TRef sig ⟨S8x1x1, .i32⟩) (broadcastInDim S8x1x1 ![0] bcast_S8_S8x1x1_0),
    StableHlo.TRef.nullary (.of main_call0_v4 : StableHlo.TRef sig ⟨S2, .i32⟩) (iotaInDim S2 32 0),
    StableHlo.TRef.unary (.of main_call0_v4 : StableHlo.TRef sig ⟨S2, .i32⟩) (.of main_call0_v5 : StableHlo.TRef sig ⟨S1x2x1, .i32⟩) (broadcastInDim S1x2x1 ![1] bcast_S2_S1x2x1_1),
    StableHlo.TRef.nullary (.of main_call0_v6 : StableHlo.TRef sig ⟨S5, .i32⟩) (iotaInDim S5 32 0),
    StableHlo.TRef.unary (.of main_call0_v6 : StableHlo.TRef sig ⟨S5, .i32⟩) (.of main_call0_v7 : StableHlo.TRef sig ⟨S1x1x5, .i32⟩) (broadcastInDim S1x1x5 ![2] bcast_S5_S1x1x5_2),
    StableHlo.TRef.nullary (.of main_call0_c_0 : StableHlo.TRef sig ⟨S_, .i32⟩) (constantI S_ 32 4#32),
    StableHlo.TRef.unary (.of main_call0_c_0 : StableHlo.TRef sig ⟨S_, .i32⟩) (.of main_call0_v8 : StableHlo.TRef sig ⟨S8x1x1, .i32⟩) (broadcastInDim S8x1x1 ![] bcast_S_S8x1x1),
    StableHlo.TRef.binary (.of main_call0_v8 : StableHlo.TRef sig ⟨S8x1x1, .i32⟩) (.of main_call0_v3 : StableHlo.TRef sig ⟨S8x1x1, .i32⟩) (.of main_call0_v9 : StableHlo.TRef sig ⟨S8x1x1, .i32⟩) muli,
    StableHlo.TRef.nullary (.of main_call0_c_1 : StableHlo.TRef sig ⟨S_, .i32⟩) (constantI S_ 32 2#32),
    StableHlo.TRef.unary (.of main_call0_c_1 : StableHlo.TRef sig ⟨S_, .i32⟩) (.of main_call0_v10 : StableHlo.TRef sig ⟨S1x2x1, .i32⟩) (broadcastInDim S1x2x1 ![] bcast_S_S1x2x1),
    StableHlo.TRef.binary (.of main_call0_v10 : StableHlo.TRef sig ⟨S1x2x1, .i32⟩) (.of main_call0_v5 : StableHlo.TRef sig ⟨S1x2x1, .i32⟩) (.of main_call0_v11 : StableHlo.TRef sig ⟨S1x2x1, .i32⟩) muli,
    StableHlo.TRef.unary (.of main_call0_v9 : StableHlo.TRef sig ⟨S8x1x1, .i32⟩) (.of main_call0_v12 : StableHlo.TRef sig ⟨S8x2x1, .i32⟩) (broadcastInDim S8x2x1 ![0, 1, 2] bcast_S8x1x1_S8x2x1_0_1_2),
    StableHlo.TRef.unary (.of main_call0_v11 : StableHlo.TRef sig ⟨S1x2x1, .i32⟩) (.of main_call0_v13 : StableHlo.TRef sig ⟨S8x2x1, .i32⟩) (broadcastInDim S8x2x1 ![0, 1, 2] bcast_S1x2x1_S8x2x1_0_1_2),
    StableHlo.TRef.binary (.of main_call0_v12 : StableHlo.TRef sig ⟨S8x2x1, .i32⟩) (.of main_call0_v13 : StableHlo.TRef sig ⟨S8x2x1, .i32⟩) (.of main_call0_v14 : StableHlo.TRef sig ⟨S8x2x1, .i32⟩) addi,
    StableHlo.TRef.unary (.of main_call0_v14 : StableHlo.TRef sig ⟨S8x2x1, .i32⟩) (.of main_call0_v15 : StableHlo.TRef sig ⟨S8x2x5, .i32⟩) (broadcastInDim S8x2x5 ![0, 1, 2] bcast_S8x2x1_S8x2x5_0_1_2),
    StableHlo.TRef.unary (.of main_call0_v7 : StableHlo.TRef sig ⟨S1x1x5, .i32⟩) (.of main_call0_v16 : StableHlo.TRef sig ⟨S8x2x5, .i32⟩) (broadcastInDim S8x2x5 ![0, 1, 2] bcast_S1x1x5_S8x2x5_0_1_2),
    StableHlo.TRef.binary (.of main_call0_v15 : StableHlo.TRef sig ⟨S8x2x5, .i32⟩) (.of main_call0_v16 : StableHlo.TRef sig ⟨S8x2x5, .i32⟩) (.of main_call0_v17 : StableHlo.TRef sig ⟨S8x2x5, .i32⟩) addi ]

/-- The host operations that build the column words `2 * ps + v`. -/
abbrev segC : List (HloOp τ sig (Elt Ideal)) :=
  [ StableHlo.TRef.nullary (.of main_call0_v18 : StableHlo.TRef sig ⟨S2, .i32⟩) (iotaInDim S2 32 0),
    StableHlo.TRef.unary (.of main_call0_v18 : StableHlo.TRef sig ⟨S2, .i32⟩) (.of main_call0_v19 : StableHlo.TRef sig ⟨S2x1, .i32⟩) (broadcastInDim S2x1 ![0] bcast_S2_S2x1_0),
    StableHlo.TRef.nullary (.of main_call0_v20 : StableHlo.TRef sig ⟨S32, .i32⟩) (iotaInDim S32 32 0),
    StableHlo.TRef.unary (.of main_call0_v20 : StableHlo.TRef sig ⟨S32, .i32⟩) (.of main_call0_v21 : StableHlo.TRef sig ⟨S1x32, .i32⟩) (broadcastInDim S1x32 ![1] bcast_S32_S1x32_1),
    StableHlo.TRef.nullary (.of main_call0_c_2 : StableHlo.TRef sig ⟨S_, .i32⟩) (constantI S_ 32 2#32),
    StableHlo.TRef.unary (.of main_call0_c_2 : StableHlo.TRef sig ⟨S_, .i32⟩) (.of main_call0_v22 : StableHlo.TRef sig ⟨S2x1, .i32⟩) (broadcastInDim S2x1 ![] bcast_S_S2x1),
    StableHlo.TRef.binary (.of main_call0_v22 : StableHlo.TRef sig ⟨S2x1, .i32⟩) (.of main_call0_v19 : StableHlo.TRef sig ⟨S2x1, .i32⟩) (.of main_call0_v23 : StableHlo.TRef sig ⟨S2x1, .i32⟩) muli,
    StableHlo.TRef.unary (.of main_call0_v23 : StableHlo.TRef sig ⟨S2x1, .i32⟩) (.of main_call0_v24 : StableHlo.TRef sig ⟨S2x32, .i32⟩) (broadcastInDim S2x32 ![0, 1] bcast_S2x1_S2x32_0_1),
    StableHlo.TRef.unary (.of main_call0_v21 : StableHlo.TRef sig ⟨S1x32, .i32⟩) (.of main_call0_v25 : StableHlo.TRef sig ⟨S2x32, .i32⟩) (broadcastInDim S2x32 ![0, 1] bcast_S1x32_S2x32_0_1),
    StableHlo.TRef.binary (.of main_call0_v24 : StableHlo.TRef sig ⟨S2x32, .i32⟩) (.of main_call0_v25 : StableHlo.TRef sig ⟨S2x32, .i32⟩) (.of main_call0_v26 : StableHlo.TRef sig ⟨S2x32, .i32⟩) addi ]

/-- The host operations that put both on five axes and wrap negative words. -/
abbrev segD : List (HloOp τ sig (Elt Ideal)) :=
  [ StableHlo.TRef.unary (.of main_call0_v17 : StableHlo.TRef sig ⟨S8x2x5, .i32⟩) (.of main_call0_v27 : StableHlo.TRef sig ⟨S8x2x5x1x1, .i32⟩) (broadcastInDim S8x2x5x1x1 ![0, 1, 2] bcast_S8x2x5_S8x2x5x1x1_0_1_2),
    StableHlo.TRef.unary (.of main_call0_v26 : StableHlo.TRef sig ⟨S2x32, .i32⟩) (.of main_call0_v28 : StableHlo.TRef sig ⟨S1x1x1x2x32, .i32⟩) (broadcastInDim S1x1x1x2x32 ![3, 4] bcast_S2x32_S1x1x1x2x32_3_4),
    StableHlo.TRef.nullary (.of main_call0_c_3 : StableHlo.TRef sig ⟨S_, .i32⟩) (constantI S_ 32 0#32),
    StableHlo.TRef.unary (.of main_call0_c_3 : StableHlo.TRef sig ⟨S_, .i32⟩) (.of main_call0_v29 : StableHlo.TRef sig ⟨S8x2x5x1x1, .i32⟩) (broadcastInDim S8x2x5x1x1 ![] bcast_S_S8x2x5x1x1),
    StableHlo.TRef.binary (.of main_call0_v27 : StableHlo.TRef sig ⟨S8x2x5x1x1, .i32⟩) (.of main_call0_v29 : StableHlo.TRef sig ⟨S8x2x5x1x1, .i32⟩) (.of main_call0_v30 : StableHlo.TRef sig ⟨S8x2x5x1x1, .i1⟩) (cmpi .slt),
    StableHlo.TRef.nullary (.of main_call0_c_4 : StableHlo.TRef sig ⟨S_, .i32⟩) (constantI S_ 32 36#32),
    StableHlo.TRef.unary (.of main_call0_c_4 : StableHlo.TRef sig ⟨S_, .i32⟩) (.of main_call0_v31 : StableHlo.TRef sig ⟨S8x2x5x1x1, .i32⟩) (broadcastInDim S8x2x5x1x1 ![] bcast_S_S8x2x5x1x1),
    StableHlo.TRef.binary (.of main_call0_v27 : StableHlo.TRef sig ⟨S8x2x5x1x1, .i32⟩) (.of main_call0_v31 : StableHlo.TRef sig ⟨S8x2x5x1x1, .i32⟩) (.of main_call0_v32 : StableHlo.TRef sig ⟨S8x2x5x1x1, .i32⟩) addi,
    StableHlo.TRef.ternary (.of main_call0_v30 : StableHlo.TRef sig ⟨S8x2x5x1x1, .i1⟩) (.of main_call0_v32 : StableHlo.TRef sig ⟨S8x2x5x1x1, .i32⟩) (.of main_call0_v27 : StableHlo.TRef sig ⟨S8x2x5x1x1, .i32⟩) (.of main_call0_v33 : StableHlo.TRef sig ⟨S8x2x5x1x1, .i32⟩) select,
    StableHlo.TRef.nullary (.of main_call0_c_5 : StableHlo.TRef sig ⟨S_, .i32⟩) (constantI S_ 32 0#32),
    StableHlo.TRef.unary (.of main_call0_c_5 : StableHlo.TRef sig ⟨S_, .i32⟩) (.of main_call0_v34 : StableHlo.TRef sig ⟨S1x1x1x2x32, .i32⟩) (broadcastInDim S1x1x1x2x32 ![] bcast_S_S1x1x1x2x32),
    StableHlo.TRef.binary (.of main_call0_v28 : StableHlo.TRef sig ⟨S1x1x1x2x32, .i32⟩) (.of main_call0_v34 : StableHlo.TRef sig ⟨S1x1x1x2x32, .i32⟩) (.of main_call0_v35 : StableHlo.TRef sig ⟨S1x1x1x2x32, .i1⟩) (cmpi .slt),
    StableHlo.TRef.nullary (.of main_call0_c_6 : StableHlo.TRef sig ⟨S_, .i32⟩) (constantI S_ 32 36#32),
    StableHlo.TRef.unary (.of main_call0_c_6 : StableHlo.TRef sig ⟨S_, .i32⟩) (.of main_call0_v36 : StableHlo.TRef sig ⟨S1x1x1x2x32, .i32⟩) (broadcastInDim S1x1x1x2x32 ![] bcast_S_S1x1x1x2x32),
    StableHlo.TRef.binary (.of main_call0_v28 : StableHlo.TRef sig ⟨S1x1x1x2x32, .i32⟩) (.of main_call0_v36 : StableHlo.TRef sig ⟨S1x1x1x2x32, .i32⟩) (.of main_call0_v37 : StableHlo.TRef sig ⟨S1x1x1x2x32, .i32⟩) addi,
    StableHlo.TRef.ternary (.of main_call0_v35 : StableHlo.TRef sig ⟨S1x1x1x2x32, .i1⟩) (.of main_call0_v37 : StableHlo.TRef sig ⟨S1x1x1x2x32, .i32⟩) (.of main_call0_v28 : StableHlo.TRef sig ⟨S1x1x1x2x32, .i32⟩) (.of main_call0_v38 : StableHlo.TRef sig ⟨S1x1x1x2x32, .i32⟩) select ]

/-- The host operations that pair the words, gather, transpose and reshape. -/
abbrev segE : List (HloOp τ sig (Elt Ideal)) :=
  [ StableHlo.TRef.unary (.of main_call0_v33 : StableHlo.TRef sig ⟨S8x2x5x1x1, .i32⟩) (.of main_call0_v39 : StableHlo.TRef sig ⟨S8x2x5x2x32, .i32⟩) (broadcastInDim S8x2x5x2x32 ![0, 1, 2, 3, 4] bcast_S8x2x5x1x1_S8x2x5x2x32_0_1_2_3_4),
    StableHlo.TRef.unary (.of main_call0_v38 : StableHlo.TRef sig ⟨S1x1x1x2x32, .i32⟩) (.of main_call0_v40 : StableHlo.TRef sig ⟨S8x2x5x2x32, .i32⟩) (broadcastInDim S8x2x5x2x32 ![0, 1, 2, 3, 4] bcast_S1x1x1x2x32_S8x2x5x2x32_0_1_2_3_4),
    StableHlo.TRef.unary (.of main_call0_v39 : StableHlo.TRef sig ⟨S8x2x5x2x32, .i32⟩) (.of main_call0_v41 : StableHlo.TRef sig ⟨S8x2x5x2x32x1, .i32⟩) (broadcastInDim S8x2x5x2x32x1 ![0, 1, 2, 3, 4] bcast_S8x2x5x2x32_S8x2x5x2x32x1_0_1_2_3_4),
    StableHlo.TRef.unary (.of main_call0_v40 : StableHlo.TRef sig ⟨S8x2x5x2x32, .i32⟩) (.of main_call0_v42 : StableHlo.TRef sig ⟨S8x2x5x2x32x1, .i32⟩) (broadcastInDim S8x2x5x2x32x1 ![0, 1, 2, 3, 4] bcast_S8x2x5x2x32_S8x2x5x2x32x1_0_1_2_3_4),
    StableHlo.TRef.binary (.of main_call0_v41 : StableHlo.TRef sig ⟨S8x2x5x2x32x1, .i32⟩) (.of main_call0_v42 : StableHlo.TRef sig ⟨S8x2x5x2x32x1, .i32⟩) (.of main_call0_v43 : StableHlo.TRef sig ⟨S8x2x5x2x32x2, .i32⟩) (fun a b => concatenate S8x2x5x2x32x2 5 [⟨S8x2x5x2x32x1, a⟩, ⟨S8x2x5x2x32x1, b⟩] concatenates_S8x2x5x2x32x1_S8x2x5x2x32x1_S8x2x5x2x32x2_d5),
    StableHlo.TRef.binary main_call0_call0.v1 (.of main_call0_v43 : StableHlo.TRef sig ⟨S8x2x5x2x32x2, .i32⟩) (.of main_call0_v44 : StableHlo.TRef sig ⟨S8192x8x2x5x2x32, .f32⟩) (fun x i => Host.gather gather_S8192x36x36_S8x2x5x2x32x2_S8192x8x2x5x2x32_0_12_n_n_12_5_819211 x i),
    StableHlo.TRef.unary (.of main_call0_v44 : StableHlo.TRef sig ⟨S8192x8x2x5x2x32, .f32⟩) (.of main_call0_v45 : StableHlo.TRef sig ⟨S8192x2x2x8x5x32, .f32⟩) (transpose S8192x2x2x8x5x32 [0, 2, 4, 1, 3, 5] · transposes_S8192x8x2x5x2x32_S8192x2x2x8x5x32_0_2_4_1_3_5),
    StableHlo.TRef.reshape (.of main_call0_v45 : StableHlo.TRef sig ⟨S8192x2x2x8x5x32, .f32⟩) (.of main_call0_v46 : StableHlo.TRef sig ⟨S8192x32x160, .f32⟩) rfl shapeCasts_S8192x2x2x8x5x32_S8192x32x160 ]

/-- The five stretches are the host operations before the launch. -/
theorem hostOps0_eq : (hostOps0 : List (HloOp τ sig (Elt Ideal))) = segA ++ (segB ++ (segC ++ (segD ++ segE))) := rfl

section Stretches
open Idealize.ShloMosaic.StableHlo
variable (W : Valuation τ sig (Elt Ideal))

theorem segA_v1 : (after segA W (Proc.devRef .tc main_call0_v1) : S8192x36x36.Idx → EReal)
    = padded (W (Proc.devRef .tc main_arg0)) := by
  after_results
  all_goals rfl
theorem segB_v1 : after segB W (Proc.devRef .tc main_call0_v1) = W (Proc.devRef .tc main_call0_v1) := by
  after_results
  all_goals rfl
theorem segB_v17 : (after segB W (Proc.devRef .tc main_call0_v17) : IVec S8x2x5 32) = wRow3 := by
  after_results
  all_goals rfl
theorem segC_v1 : after segC W (Proc.devRef .tc main_call0_v1) = W (Proc.devRef .tc main_call0_v1) := by
  after_results
  all_goals rfl
theorem segC_v17 : after segC W (Proc.devRef .tc main_call0_v17) = W (Proc.devRef .tc main_call0_v17) := by
  after_results
  all_goals rfl
theorem segC_v26 : (after segC W (Proc.devRef .tc main_call0_v26) : IVec S2x32 32) = wCol2 := by
  after_results
  all_goals rfl
theorem segD_v1 : after segD W (Proc.devRef .tc main_call0_v1) = W (Proc.devRef .tc main_call0_v1) := by
  after_results
  all_goals rfl
theorem segD_v33 : (after segD W (Proc.devRef .tc main_call0_v33) : IVec S8x2x5x1x1 32)
    = rowSelOf (W (Proc.devRef .tc main_call0_v17)) := by
  after_results
  all_goals rfl
theorem segD_v38 : (after segD W (Proc.devRef .tc main_call0_v38) : IVec S1x1x1x2x32 32)
    = colSelOf (W (Proc.devRef .tc main_call0_v26)) := by
  after_results
  all_goals rfl
theorem segE_v46 : (after segE W (Proc.devRef .tc main_call0_v46) : S8192x32x160.Idx → EReal)
    = tailOf (W (Proc.devRef .tc main_call0_v1)) (W (Proc.devRef .tc main_call0_v33)) (W (Proc.devRef .tc main_call0_v38)) := by
  after_results
  all_goals rfl

end Stretches

/-- The launch's first argument after the host operations is the host's matrix of the image batch. -/
theorem V46_eq (m : (ℓ : Loc nD τ sig) → Buf (Elt Ideal) ℓ) (c : Dev nD) :
    (V m c main_call0_v46 : S8192x32x160.Idx → EReal) = hostTerm (m ((c.tc : Thread nD τ).loc main_arg0) : S8192x1x28x28.Idx → EReal) := by
  show StableHlo.after hostOps0 (fun b => m (c, b)) (Proc.devRef .tc main_call0_v46) = _
  rw [hostOps0_eq, after_append, after_append, after_append, after_append, segE_v46, segD_v1, segD_v33, segD_v38,
    segC_v1, segC_v17, segC_v26, segB_v1, segB_v17, segA_v1, hostTerm_tail]
  rfl

/-! ## The index words at an index -/

theorem w4ar_apply (j : S8x1x1.Idx) : w4ar j = 4#32 * BitVec.ofNat 32 (j 0).val := rfl
theorem w2pr_apply (j : S1x2x1.Idx) : w2pr j = 2#32 * BitVec.ofNat 32 (j 1).val := rfl
theorem wArPr_apply (j : S8x2x1.Idx) :
    wArPr j = 4#32 * BitVec.ofNat 32 (j 0).val + 2#32 * BitVec.ofNat 32 (j 1).val := rfl
theorem wRow3_apply (j : S8x2x5.Idx) :
    wRow3 j = 4#32 * BitVec.ofNat 32 (j 0).val + 2#32 * BitVec.ofNat 32 (j 1).val + BitVec.ofNat 32 (j 2).val := rfl
theorem wCol2_apply (j : S2x32.Idx) : wCol2 j = 2#32 * BitVec.ofNat 32 (j 0).val + BitVec.ofNat 32 (j 1).val := rfl
theorem wRow5_apply (j : S8x2x5x1x1.Idx) :
    wRow5 j = 4#32 * BitVec.ofNat 32 (j 0).val + 2#32 * BitVec.ofNat 32 (j 1).val + BitVec.ofNat 32 (j 2).val := rfl
theorem wCol5_apply (j : S1x1x1x2x32.Idx) : wCol5 j = 2#32 * BitVec.ofNat 32 (j 3).val + BitVec.ofNat 32 (j 4).val := rfl

/-! ## Words of small naturals -/

/-- A 32-bit word of a natural below `2^31` reads, signed, as that natural. -/
theorem toInt_ofNat_small (n : Nat) (h : n < 2147483648) : (BitVec.ofNat 32 n).toInt = (n : Int) := by
  rw [BitVec.toInt_eq_toNat_cond, BitVec.toNat_ofNat]
  have e : n % 2 ^ 32 = n := Nat.mod_eq_of_lt (by omega)
  rw [e, if_pos (by omega)]

/-- The wrap of a word of a natural below `2^31` leaves it: it is not negative. -/
theorem select_nonneg (n : Nat) (h : n < 2147483648) (W : BitVec 32) (hW : W = BitVec.ofNat 32 n) :
    Scalar.select (IntOp.cmpi .slt W 0#32) (IntOp.addi W 36#32) W = BitVec.ofNat 32 n := by
  subst hW
  have h0 : IntOp.cmpi .slt (BitVec.ofNat 32 n) 0#32 = 0#1 := by
    show BitVec.ofBool ((BitVec.ofNat 32 n).slt 0#32) = 0#1
    have hs : (BitVec.ofNat 32 n).slt 0#32 = false := by
      unfold BitVec.slt
      rw [toInt_ofNat_small n h]
      simp
    rw [hs]; rfl
  rw [h0]; exact select_zero _ _

/-- `4 * a + 2 * p + u` as a word is the sum of the words. -/
theorem word_row (a p u : Nat) :
    4#32 * BitVec.ofNat 32 a + 2#32 * BitVec.ofNat 32 p + BitVec.ofNat 32 u = BitVec.ofNat 32 (4 * a + 2 * p + u) := by
  rw [BitVec.ofNat_add, BitVec.ofNat_add, BitVec.ofNat_mul, BitVec.ofNat_mul]
/-- `2 * p + v` as a word is the sum of the words. -/
theorem word_col (p v : Nat) : 2#32 * BitVec.ofNat 32 p + BitVec.ofNat 32 v = BitVec.ofNat 32 (2 * p + v) := by
  rw [BitVec.ofNat_add, BitVec.ofNat_mul]

/-- The wrapped row word at `(ar, pr, u, ·, ·)` is the word of `4 * ar + 2 * pr + u`. -/
theorem wRowSel_apply (j : S8x2x5x1x1.Idx) :
    wRowSel j = BitVec.ofNat 32 (4 * (j 0).val + 2 * (j 1).val + (j 2).val) := by
  have h0 : (j 0).val < 8 := (j 0).isLt
  have h1 : (j 1).val < 2 := (j 1).isLt
  have h2 : (j 2).val < 5 := (j 2).isLt
  exact select_nonneg _ (by omega) (wRow5 j) ((wRow5_apply j).trans (word_row _ _ _))
/-- The wrapped column word at `(·, ·, ·, ps, v)` is the word of `2 * ps + v`. -/
theorem wColSel_apply (j : S1x1x1x2x32.Idx) : wColSel j = BitVec.ofNat 32 (2 * (j 3).val + (j 4).val) := by
  have h3 : (j 3).val < 2 := (j 3).isLt
  have h4 : (j 4).val < 32 := (j 4).isLt
  exact select_nonneg _ (by omega) (wCol5 j) ((wCol5_apply j).trans (word_col _ _))

/-- The start indices' first component at `(ar, pr, u, ps, v)`: the row `4 * ar + 2 * pr + u`. -/
theorem startIdx_row (ar : Fin 8) (pr : Fin 2) (u : Fin 5) (ps : Fin 2) (v : Fin 32) :
    startIdx (ix6 ar pr u ps v (0 : Fin 2)) = BitVec.ofNat 32 (4 * ar.val + 2 * pr.val + u.val) := by
  unfold startIdx
  refine (concatenate_pair_apply_left (t := S8x2x5x2x32x2) (s₁ := S8x2x5x2x32x1) (s₂ := S8x2x5x2x32x1) 5 _ _ _ (ix6 ar pr u ps v (0 : Fin 2)) rfl (ix6 ar pr u ps v (0 : Fin 1)) (fun b => by
    match b with
    | ⟨0, _⟩ => rfl
    | ⟨1, _⟩ => rfl
    | ⟨2, _⟩ => rfl
    | ⟨3, _⟩ => rfl
    | ⟨4, _⟩ => rfl
    | ⟨5, _⟩ => rfl)).trans ?_
  exact wRowSel_apply _
/-- The start indices' second component at `(ar, pr, u, ps, v)`: the column `2 * ps + v`. -/
theorem startIdx_col (ar : Fin 8) (pr : Fin 2) (u : Fin 5) (ps : Fin 2) (v : Fin 32) :
    startIdx (ix6 ar pr u ps v (1 : Fin 2)) = BitVec.ofNat 32 (2 * ps.val + v.val) := by
  unfold startIdx
  refine (concatenate_pair_apply_right (t := S8x2x5x2x32x2) (s₁ := S8x2x5x2x32x1) (s₂ := S8x2x5x2x32x1) 5 _ _ _ (ix6 ar pr u ps v (1 : Fin 2)) rfl rfl (ix6 ar pr u ps v (0 : Fin 1)) (fun b hb => by
    match b with
    | ⟨0, _⟩ => rfl
    | ⟨1, _⟩ => rfl
    | ⟨2, _⟩ => rfl
    | ⟨3, _⟩ => rfl
    | ⟨4, _⟩ => rfl
    | ⟨5, _⟩ => exact absurd rfl hb) rfl).trans ?_
  exact wColSel_apply _

/-! ## The gather and the padding at an index -/

/-- The gather read at `(b, ar, pr, u, ps, v)`: the operand of image `b` at the start index's two components, each read
    signed and clamped into `0 .. 35`. -/
theorem gather_apply {α : Type} (x : S8192x36x36.Idx → α) (idx : IVec S8x2x5x2x32x2 32)
    (b : Fin 8192) (ar : Fin 8) (pr : Fin 2) (u : Fin 5) (ps : Fin 2) (v : Fin 32) (R W : Fin 36)
    (hR : min (idx (ix6 ar pr u ps v (0 : Fin 2))).toInt.toNat 35 = R.val)
    (hW : min (idx (ix6 ar pr u ps v (1 : Fin 2))).toInt.toNat 35 = W.val) :
    Host.gather gather_S8192x36x36_S8x2x5x2x32x2_S8192x8x2x5x2x32_0_12_n_n_12_5_819211 x idx (ix6 b ar pr u ps v)
      = x (ix3 b R W) := by
  unfold Host.gather
  congr 1
  funext a
  refine Fin.ext ?_
  match a with
  | ⟨0, _⟩ =>
    show GatherDims.start _ _ idx 0 + GatherDims.batchCoord _ _ 0 + GatherDims.offCoord _ _ 0 = b.val
    rw [GatherDims.batchCoord_eq_zero _ _ _ List.not_mem_nil]
    unfold GatherDims.start GatherDims.offCoord
    rw [dif_neg (by decide), dif_pos (by decide)]
    show 0 + 0 + b.val = b.val
    omega
  | ⟨1, _⟩ =>
    show GatherDims.start _ _ idx 1 + GatherDims.batchCoord _ _ 1 + GatherDims.offCoord _ _ 1 = R.val
    rw [GatherDims.batchCoord_eq_zero _ _ _ List.not_mem_nil, GatherDims.offCoord_eq_zero _ _ _ (by decide)]
    simp only [Nat.add_zero]
    unfold GatherDims.start
    rw [dif_pos (by decide)]
    refine Eq.trans ?_ hR
    congr 3
    refine congrArg idx (funext fun d => Fin.ext ?_)
    match d with
    | ⟨0, _⟩ => rfl
    | ⟨1, _⟩ => rfl
    | ⟨2, _⟩ => rfl
    | ⟨3, _⟩ => rfl
    | ⟨4, _⟩ => rfl
    | ⟨5, _⟩ => rfl
  | ⟨2, _⟩ =>
    show GatherDims.start _ _ idx 2 + GatherDims.batchCoord _ _ 2 + GatherDims.offCoord _ _ 2 = W.val
    rw [GatherDims.batchCoord_eq_zero _ _ _ List.not_mem_nil, GatherDims.offCoord_eq_zero _ _ _ (by decide)]
    simp only [Nat.add_zero]
    unfold GatherDims.start
    rw [dif_pos (by decide)]
    refine Eq.trans ?_ hW
    congr 3
    refine congrArg idx (funext fun d => Fin.ext ?_)
    match d with
    | ⟨0, _⟩ => rfl
    | ⟨1, _⟩ => rfl
    | ⟨2, _⟩ => rfl
    | ⟨3, _⟩ => rfl
    | ⟨4, _⟩ => rfl
    | ⟨5, _⟩ => rfl

/-- The padding value is zero. -/
theorem padVal_apply (j : S_.Idx) : (sitofp (F := Ideal) .f32 (constantI S_ 32 0#32) : S_.Idx → EReal) j = 0 := by
  show (((0#32 : BitVec 32).toInt : ℝ) : EReal) = 0
  simp

/-- The padded batch at `(b, R, W)` is the padded pixel `(R, W)` of image `b`. -/
theorem padded_apply (X : S8192x1x28x28.Idx → EReal) (b : Fin 8192) (R W : Fin 36) :
    padded X (ix3 b R W) = Cert.Net.padAt X b R.val W.val := by
  unfold padded Cert.Net.padAt
  by_cases h : R.val < 28 ∧ W.val < 28
  · rw [dif_pos h]
    refine (pad_apply_of_inside _ _ _ _ _ _ _ (ix3 b R W) (ix3 b (⟨R.val, h.1⟩ : Fin 28) (⟨W.val, h.2⟩ : Fin 28)) (fun a => by
      match a with
      | ⟨0, _⟩ => show b.val = 0 + b.val * (0 + 1); omega
      | ⟨1, _⟩ => show R.val = 0 + R.val * (0 + 1); omega
      | ⟨2, _⟩ => show W.val = 0 + W.val * (0 + 1); omega)).trans ?_
    refine shapeCast_apply _ _ _ (ix4 b (0 : Fin 1) (⟨R.val, h.1⟩ : Fin 28) (⟨W.val, h.2⟩ : Fin 28)) (by
      rw [Shape.rowMajor_val_four, Shape.rowMajor_val_three]
      show ((b.val * 1 + 0) * 28 + R.val) * 28 + W.val = (b.val * 28 + R.val) * 28 + W.val
      omega)
  · rw [dif_neg h]
    have h' : ¬ R.val < 28 ∨ ¬ W.val < 28 := by omega
    rcases h' with hR | hW
    · refine (pad_apply_of_not_inside _ _ _ _ _ _ _ (ix3 b R W) (1 : Fin 3) (fun hin => hR ?_)).trans (padVal_apply _)
      have h3 : (R.val - 0) / (0 + 1) < 28 := hin.2.2
      omega
    · refine (pad_apply_of_not_inside _ _ _ _ _ _ _ (ix3 b R W) (2 : Fin 3) (fun hin => hW ?_)).trans (padVal_apply _)
      have h3 : (W.val - 0) / (0 + 1) < 28 := hin.2.2
      omega

/-! ## The assembled matrix at an index -/

/-- The host's matrix at row `(2 * pr + ps) * 8 + ar` and column `32 * u + v` of image `b`: the padded pixel
    `(4 * ar + 2 * pr + u, 2 * ps + v)`. -/
theorem hostTerm_coords (X : S8192x1x28x28.Idx → EReal) (b : Fin 8192) (pr ps : Fin 2) (ar : Fin 8) (u : Fin 5) (v : Fin 32)
    (r : Fin 32) (k : Fin 160) (hr : r.val = (2 * pr.val + ps.val) * 8 + ar.val) (hk : k.val = 32 * u.val + v.val) :
    hostTerm X (ix3 b r k) = Cert.Net.padAt X b (4 * ar.val + 2 * pr.val + u.val) (2 * ps.val + v.val) := by
  have hpr : pr.val < 2 := pr.isLt
  have hps : ps.val < 2 := ps.isLt
  have har : ar.val < 8 := ar.isLt
  have hu : u.val < 5 := u.isLt
  have hv : v.val < 32 := v.isLt
  unfold hostTerm
  -- the reshape: (b, r, k) reads (b, pr, ps, ar, u, v)
  refine (shapeCast_apply _ _ (ix3 b r k) (ix6 b pr ps ar u v) (by
    rw [Shape.rowMajor_val_six, Shape.rowMajor_val_three]
    show ((((b.val * 2 + pr.val) * 2 + ps.val) * 8 + ar.val) * 5 + u.val) * 32 + v.val = (b.val * 32 + r.val) * 160 + k.val
    omega)).trans ?_
  -- the transpose: (b, pr, ps, ar, u, v) reads (b, ar, pr, u, ps, v)
  refine (transpose_apply _ _ _ (ix6 b pr ps ar u v) (ix6 b ar pr u ps v) (fun a => by
    match a with
    | ⟨0, _⟩ => rfl
    | ⟨1, _⟩ => rfl
    | ⟨2, _⟩ => rfl
    | ⟨3, _⟩ => rfl
    | ⟨4, _⟩ => rfl
    | ⟨5, _⟩ => rfl)).trans ?_
  -- the gather: the padded pixel at the two start-index components, neither clamped
  unfold gathered
  refine (gather_apply _ _ b ar pr u ps v (⟨4 * ar.val + 2 * pr.val + u.val, by omega⟩ : Fin 36) (⟨2 * ps.val + v.val, by omega⟩ : Fin 36)
    (by rw [startIdx_row, toInt_ofNat_small _ (by omega), Int.toNat_natCast]; show min (4 * ar.val + 2 * pr.val + u.val) 35 = 4 * ar.val + 2 * pr.val + u.val; omega)
    (by rw [startIdx_col, toInt_ofNat_small _ (by omega), Int.toNat_natCast]; show min (2 * ps.val + v.val) 35 = 2 * ps.val + v.val; omega)).trans ?_
  exact padded_apply X b _ _

/-- The host's matrix at `(b, r, k)` is the patch entry there. -/
theorem hostTerm_apply (X : S8192x1x28x28.Idx → EReal) (b : Fin 8192) (r : Fin 32) (k : Fin 160) :
    hostTerm X (ix3 b r k) = Cert.Net.padAt X b (Cert.Net.patchRow r.val k.val) (Cert.Net.patchCol r.val k.val) := by
  have hr : r.val < 32 := r.isLt
  have hk : k.val < 160 := k.isLt
  have e := hostTerm_coords X b (⟨r.val / 8 / 2, by omega⟩ : Fin 2) (⟨r.val / 8 % 2, by omega⟩ : Fin 2) (⟨r.val % 8, by omega⟩ : Fin 8)
    (⟨k.val / 32, by omega⟩ : Fin 5) (⟨k.val % 32, by omega⟩ : Fin 32) r k
    (by show r.val = (2 * (r.val / 8 / 2) + r.val / 8 % 2) * 8 + r.val % 8; omega)
    (by show k.val = 32 * (k.val / 32) + k.val % 32; omega)
  exact e

/-- The reference's host operations assemble the patch matrices. -/
theorem hostTerm_eq (X : S8192x1x28x28.Idx → EReal) : hostTerm X = Cert.Net.patches (B := 8192) X := by
  funext i
  obtain ⟨b, r, k, rfl⟩ : ∃ b r k, i = ix3 b r k := ⟨i 0, i 1, i 2, eq_ix3 i⟩
  exact hostTerm_apply X b r k

/-- THE REFERENCE'S HOST SIDE: after the host operations before the launch, the launch's first argument holds the patch
    matrices of the image batch. -/
theorem hostPatches (m : (ℓ : Loc nD τ sig) → Buf (Elt Ideal) ℓ) (c : Dev nD) :
    (V m c main_call0_v46 : S8192x32x160.Idx → EReal) = Cert.Net.patches (B := 8192) (m ((c.tc : Thread nD τ).loc main_arg0) : S8192x1x28x28.Idx → EReal) :=
  (V46_eq m c).trans (hostTerm_eq _)
end Cert.Net.HostPatches
end
-- ==== Proof.KernelValue.lean ====
/-
  The kernel's run read as a value.

  The program narrows three weight matrices on the host (the identity on extended reals), runs the kernel over a grid of
  256 points, and then stacks the kernel's output array `[256, 32, 128]` into 8192 rows and keeps the first ten lanes.
  At grid point `t` the kernel reads images `32*t .. 32*t + 31` and the whole of each weight and bias array, and stores
  one `1 x 32 x 128` block, its chain of stages `Cert.Net.kerChain` of those blocks, at `[t, 0..31, 0..127]` of the
  output array. The 256 blocks tile the output array, so after the region it is `Cert.Net.kerBlocks` of the arguments
  as launched, and the result buffer ends at `Cert.Net.kerResult` of it; no argument is written.
-/
import proofs.«126704_g2000501235386493_pallaspilot1_12_3_alg».proof.Proof.Gen.KernelIdeal.Frame
import proofs.«126704_g2000501235386493_pallaspilot1_12_3_alg».proof.Proof.KernelLogits
import Idealize.ShloMosaic.Lib.Pipeline.Value
import Idealize.ShloMosaic.Lib.ValueIdx
import Idealize.ShloMosaic.Lib.StableHlo.Run
noncomputable section
namespace Cert.Net.KernelSide
open Idealize.ShloMosaic Idealize.ShloMosaic.TcCoe Idealize.ShloMosaic.ValueIdx Idealize.SL.Sem Cert.KernelIdeal Cert.KernelIdeal.Gen

section Value
variable (m : (ℓ : Loc nD τ sig) → Buf (Elt Ideal) ℓ)

/-! ## Where each window's block sits, over the grid -/

/-- The printed index maps over the 256 grid points: the image window and the output window move one block per point
    along their first axis, every weight window stays at block 0. -/
theorem blockIndex : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 3) = t.val ∧ win0_11.index t (1 : Fin 3) = 0 ∧ win0_11.index t (2 : Fin 3) = 0 :=
  (by decide +kernel : ∀ t : Fin grid0.N, _)

/-! ## The arrays the windows stage, as the region finds them -/

/-- The first weight matrix narrowed by the host is, on extended reals, the matrix itself. -/
theorem V_w1 (c : Dev nD) : (V m c main_call0_v0 : S160x512.Idx → EReal) = m ((c.tc : Thread nD τ).loc main_arg1) := by
  show StableHlo.after hostOps0 (fun b => m (c, b)) (Proc.devRef .tc main_call0_v0) = _
  after_results
  rfl
/-- The second weight matrix narrowed by the host is the matrix itself. -/
theorem V_w2 (c : Dev nD) : (V m c main_call0_v1 : S1280x640.Idx → EReal) = m ((c.tc : Thread nD τ).loc main_arg3) := by
  show StableHlo.after hostOps0 (fun b => m (c, b)) (Proc.devRef .tc main_call0_v1) = _
  after_results
  rfl
/-- The third weight matrix narrowed by the host is the matrix itself. -/
theorem V_w3 (c : Dev nD) : (V m c main_call0_v2 : S800x64.Idx → EReal) = m ((c.tc : Thread nD τ).loc main_arg5) := by
  show StableHlo.after hostOps0 (fun b => m (c, b)) (Proc.devRef .tc main_call0_v2) = _
  after_results
  rfl

/-! ## The windows' blocks at a grid point -/

/-- The image window's block at point `t`: images `32*t .. 32*t + 31` of the batch. -/
theorem block_images (c : Dev nD) (t : Fin cfg0.N) :
    (iblk m c 0 t : S32x1x28x28.Idx → EReal) = Cert.Net.imagesOf (m ((c.tc : Thread nD τ).loc main_arg0)) t := by
  obtain ⟨e0, e1, e2, e3, -⟩ := blockIndex t
  funext y
  show V m c main_arg0 (((cfg0.win 0).blk t).view.emb y) = _
  rw [V_main_arg0]
  unfold Cert.Net.imagesOf
  refine congrArg _ (funext fun a => Fin.ext ?_)
  match a with
  | ⟨0, _⟩ => show win0_0.index t (0 : Fin 4) * 32 + 1 * (y 0).val = 32 * t.val + (y 0).val; omega
  | ⟨1, _⟩ => show win0_0.index t (1 : Fin 4) * 1 + 1 * (y 1).val = (y 1).val; omega
  | ⟨2, _⟩ => show win0_0.index t (2 : Fin 4) * 28 + 1 * (y 2).val = (y 2).val; omega
  | ⟨3, _⟩ => show win0_0.index t (3 : Fin 4) * 28 + 1 * (y 3).val = (y 3).val; omega
/-- Window 1's block at every point is the whole array: the first weight matrix. -/
theorem block_w1 (c : Dev nD) (t : Fin cfg0.N) :
    (iblk m c 1 t : S160x512.Idx → EReal) = m ((c.tc : Thread nD τ).loc main_arg1) := by
  obtain ⟨-, -, -, -, e0, e1, -⟩ := blockIndex t
  funext y
  show V m c main_call0_v0 (((cfg0.win 1).blk t).view.emb y) = _
  rw [V_w1]
  refine congrArg _ (funext fun a => Fin.ext ?_)
  match a with
  | ⟨0, _⟩ => show win0_1.index t (0 : Fin 2) * 160 + 1 * (y 0).val = (y 0).val; omega
  | ⟨1, _⟩ => show win0_1.index t (1 : Fin 2) * 512 + 1 * (y 1).val = (y 1).val; omega
/-- Window 2's block at every point is the whole array: the first bias. -/
theorem block_b1 (c : Dev nD) (t : Fin cfg0.N) :
    (iblk m c 2 t : S1x128.Idx → EReal) = m ((c.tc : Thread nD τ).loc main_arg2) := by
  obtain ⟨-, -, -, -, -, -, e0, e1, -⟩ := blockIndex t
  funext y
  show V m c main_arg2 (((cfg0.win 2).blk t).view.emb y) = _
  rw [V_main_arg2]
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega
/-- Window 3's block at every point is the whole array: the second weight matrix. -/
theorem block_w2 (c : Dev nD) (t : Fin cfg0.N) :
    (iblk m c 3 t : S1280x640.Idx → EReal) = m ((c.tc : Thread nD τ).loc main_arg3) := by
  obtain ⟨-, -, -, -, -, -, -, -, e0, e1, -⟩ := blockIndex t
  funext y
  show V m c main_call0_v1 (((cfg0.win 3).blk t).view.emb y) = _
  rw [V_w2]
  refine congrArg _ (funext fun a => Fin.ext ?_)
  match a with
  | ⟨0, _⟩ => show win0_3.index t (0 : Fin 2) * 1280 + 1 * (y 0).val = (y 0).val; omega
  | ⟨1, _⟩ => show win0_3.index t (1 : Fin 2) * 640 + 1 * (y 1).val = (y 1).val; omega
/-- Window 4's block at every point is the whole array: the second bias. -/
theorem block_b2 (c : Dev nD) (t : Fin cfg0.N) :
    (iblk m c 4 t : S1x640.Idx → EReal) = m ((c.tc : Thread nD τ).loc main_arg4) := by
  obtain ⟨-, -, -, -, -, -, -, -, -, -, e0, e1, -⟩ := blockIndex t
  funext y
  show V m c main_arg4 (((cfg0.win 4).blk t).view.emb y) = _
  rw [V_main_arg4]
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 640 + 1 * (y 1).val = (y 1).val; omega
/-- Window 5's block at every point is the whole array: the third weight matrix. -/
theorem block_w3 (c : Dev nD) (t : Fin cfg0.N) :
    (iblk m c 5 t : S800x64.Idx → EReal) = m ((c.tc : Thread nD τ).loc main_arg5) := by
  obtain ⟨-, -, -, -, -, -, -, -, -, -, -, -, e0, e1, -⟩ := blockIndex t
  funext y
  show V m c main_call0_v2 (((cfg0.win 5).blk t).view.emb y) = _
  rw [V_w3]
  refine congrArg _ (funext fun a => Fin.ext ?_)
  match a with
  | ⟨0, _⟩ => show win0_5.index t (0 : Fin 2) * 800 + 1 * (y 0).val = (y 0).val; omega
  | ⟨1, _⟩ => show win0_5.index t (1 : Fin 2) * 64 + 1 * (y 1).val = (y 1).val; omega
/-- Window 6's block at every point is the whole array: the third bias. -/
theorem block_b3 (c : Dev nD) (t : Fin cfg0.N) :
    (iblk m c 6 t : S1x64.Idx → EReal) = m ((c.tc : Thread nD τ).loc main_arg6) := by
  obtain ⟨-, -, -, -, -, -, -, -, -, -, -, -, -, -, e0, e1, -⟩ := blockIndex t
  funext y
  show V m c main_arg6 (((cfg0.win 6).blk t).view.emb y) = _
  rw [V_main_arg6]
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 64 + 1 * (y 1).val = (y 1).val; omega
/-- Window 7's block at every point is the whole array: the fourth weight matrix. -/
theorem block_w4 (c : Dev nD) (t : Fin cfg0.N) :
    (iblk m c 7 t : S64x32.Idx → EReal) = m ((c.tc : Thread nD τ).loc main_arg7) := by
  obtain ⟨-, -, -, -, -, -, -, -, -, -, -, -, -, -, -, -, e0, e1, -⟩ := blockIndex t
  funext y
  show V m c main_arg7 (((cfg0.win 7).blk t).view.emb y) = _
  rw [V_main_arg7]
  refine congrArg _ (funext fun a => Fin.ext ?_)
  match a with
  | ⟨0, _⟩ => show win0_7.index t (0 : Fin 2) * 64 + 1 * (y 0).val = (y 0).val; omega
  | ⟨1, _⟩ => show win0_7.index t (1 : Fin 2) * 32 + 1 * (y 1).val = (y 1).val; omega
/-- Window 8's block at every point is the whole array: the fourth bias. -/
theorem block_b4 (c : Dev nD) (t : Fin cfg0.N) :
    (iblk m c 8 t : S1x32.Idx → EReal) = m ((c.tc : Thread nD τ).loc main_arg8) := by
  obtain ⟨-, -, -, -, -, -, -, -, -, -, -, -, -, -, -, -, -, -, e0, e1, -⟩ := blockIndex t
  funext y
  show V m c main_arg8 (((cfg0.win 8).blk t).view.emb y) = _
  rw [V_main_arg8]
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 32 + 1 * (y 1).val = (y 1).val; omega
/-- Window 9's block at every point is the whole array: the fifth weight matrix. -/
theorem block_w5 (c : Dev nD) (t : Fin cfg0.N) :
    (iblk m c 9 t : S32x128.Idx → EReal) = m ((c.tc : Thread nD τ).loc main_arg9) := by
  obtain ⟨-, -, -, -, -, -, -, -, -, -, -, -, -, -, -, -, -, -, -, -, e0, e1, -⟩ := blockIndex t
  funext y
  show V m c main_arg9 (((cfg0.win 9).blk t).view.emb y) = _
  rw [V_main_arg9]
  refine congrArg _ (funext fun a => Fin.ext ?_)
  match a with
  | ⟨0, _⟩ => show win0_9.index t (0 : Fin 2) * 32 + 1 * (y 0).val = (y 0).val; omega
  | ⟨1, _⟩ => show win0_9.index t (1 : Fin 2) * 128 + 1 * (y 1).val = (y 1).val; omega
/-- Window 10's block at every point is the whole array: the fifth bias. -/
theorem block_b5 (c : Dev nD) (t : Fin cfg0.N) :
    (iblk m c 10 t : S1x128.Idx → EReal) = m ((c.tc : Thread nD τ).loc main_arg10) := by
  obtain ⟨-, -, -, -, -, -, -, -, -, -, -, -, -, -, -, -, -, -, -, -, -, -, e0, e1, -⟩ := blockIndex t
  funext y
  show V m c main_arg10 (((cfg0.win 10).blk t).view.emb y) = _
  rw [V_main_arg10]
  refine congrArg _ (funext fun a => Fin.ext ?_)
  match a with
  | ⟨0, _⟩ => show win0_10.index t (0 : Fin 2) * 1 + 1 * (y 0).val = (y 0).val; omega
  | ⟨1, _⟩ => show win0_10.index t (1 : Fin 2) * 128 + 1 * (y 1).val = (y 1).val; omega

/-! ## What a grid point stores -/

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- What the body leaves in the output window's buffer is the kernel's chain of stages of the eleven input blocks: every
    load reads a whole block and the one store covers the buffer. -/
theorem out_chain (x0 : Vec Ideal S32x1x28x28 .f32) (x1 : Vec Ideal S160x512 .f32) (x2 : Vec Ideal S1x128 .f32) (x3 : Vec Ideal S1280x640 .f32)
    (x4 : Vec Ideal S1x640 .f32) (x5 : Vec Ideal S800x64 .f32) (x6 : Vec Ideal S1x64 .f32) (x7 : Vec Ideal S64x32 .f32) (x8 : Vec Ideal S1x32 .f32)
    (x9 : Vec Ideal S32x128 .f32) (x10 : Vec Ideal S1x128 .f32) :
    out0_11 (F := Ideal) x0 x1 x2 x3 x4 x5 x6 x7 x8 x9 x10 = Cert.Net.kerChain x0 x1 x2 x3 x4 x5 x6 x7 x8 x9 x10 := by
  unfold out0_11
  rw [View.canon_unit_zero zeros3]
  simp only [View.ld_unit_zero (S := S32x1x28x28) zeros4, View.ld_unit_zero (S := S160x512) zeros2, View.ld_unit_zero (S := S1x128) zeros2,
    View.ld_unit_zero (S := S1280x640) zeros2, View.ld_unit_zero (S := S1x640) zeros2, View.ld_unit_zero (S := S800x64) zeros2,
    View.ld_unit_zero (S := S1x64) zeros2, View.ld_unit_zero (S := S64x32) zeros2, View.ld_unit_zero (S := S1x32) zeros2,
    View.ld_unit_zero (S := S32x128) zeros2]
  rfl

/-- The chain of stages of images `32*t ..` at `(·, b, l)` is the blocks function at any index `(t, b, l)`. -/
theorem chain_at_block (X : S8192x1x28x28.Idx → EReal) (w1 : Vec Ideal S160x512 .f32) (b1 : Vec Ideal S1x128 .f32) (w2 : Vec Ideal S1280x640 .f32) (b2 : Vec Ideal S1x640 .f32)
    (w3 : Vec Ideal S800x64 .f32) (b3 : Vec Ideal S1x64 .f32) (w4 : Vec Ideal S64x32 .f32) (b4 : Vec Ideal S1x32 .f32)
    (w5 : Vec Ideal S32x128 .f32) (b5 : Vec Ideal S1x128 .f32)
    (t : Fin 256) (j : S1x32x128.Idx) (i : S256x32x128.Idx) (h0 : (i 0).val = t.val) (h1 : (i 1).val = (j 1).val) (h2 : (i 2).val = (j 2).val) :
    Cert.Net.kerChain (Cert.Net.imagesOf X t) w1 b1 w2 b2 w3 b3 w4 b4 w5 b5 j = Cert.Net.kerBlocks X w1 b1 w2 b2 w3 b3 w4 b4 w5 b5 i := by
  unfold Cert.Net.kerBlocks
  have e0 : i 0 = t := Fin.ext h0
  have ej : (ix3 (0 : Fin 1) (i 1) (i 2) : S1x32x128.Idx) = j := by
    funext a
    match a with
    | ⟨0, _⟩ => exact Fin.ext (by show 0 = (j 0).val; have hj : (j 0).val < 1 := (j 0).isLt; omega)
    | ⟨1, _⟩ => exact Fin.ext h1
    | ⟨2, _⟩ => exact Fin.ext h2
  rw [e0, ej]

/-- WHAT POINT `t` WRITES BACK is block `t` of the kernel's blocks function of the arguments. -/
theorem flushed_eq (c : Dev nD) (t : Fin cfg0.N) :
    (dats m 0 c).flushed 11 t = ((cfg0.win 11).blk t).view.read (Elt Ideal)
      (Cert.Net.kerBlocks (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  show (cfg0.win 11).cut (grid0.coords t) ((dats m 0 c).after 11 t) = _
  rw [after0_11, block_images m c t, block_w1 m c t, block_b1 m c t, block_w2 m c t, block_b2 m c t, block_w3 m c t, block_b3 m c t,
    block_w4 m c t, block_b4 m c t, block_w5 m c t, block_b5 m c t, out_chain]
  obtain ⟨-, -, -, -, -, -, -, -, -, -, -, -, -, -, -, -, -, -, -, -, -, -, -, -, e0, e1, e2⟩ := blockIndex t
  funext j
  exact chain_at_block _ _ _ _ _ _ _ _ _ _ _ t j (((cfg0.win 11).blk t).view.emb j)
    (by show win0_11.index t (0 : Fin 3) * 1 + 1 * (j 0).val = t.val; have hj : (j 0).val < 1 := (j 0).isLt; omega)
    (by show win0_11.index t (1 : Fin 3) * 32 + 1 * (j 1).val = (j 1).val; omega)
    (by show win0_11.index t (2 : Fin 3) * 128 + 1 * (j 2).val = (j 2).val; omega)

/-! ## From the blocks to the array -/

/-- An index of the output array is in point `t`'s block iff each coordinate is in the block's range on its axis. -/
theorem mem_block (t : Fin cfg0.N) (i : S256x32x128.Idx) :
    i ∈ ((cfg0.win 11).blk t).view.set ↔ ∀ a : Fin 3, win0_11.index t a * S1x32x128.size a ≤ (i a).val ∧ (i a).val < win0_11.index t a * S1x32x128.size a + S1x32x128.size a := by
  show i ∈ ((View.whole main_call0_v3).slice (win0_11.rect t)).set ↔ _
  rw [View.set_slice_whole, Rect.mem_set_unit]
  exact Iff.rfl

/-- Every index `(t, b, l)` of the output array lies in point `t`'s block, which is written back. -/
theorem blocks_cover (i : S256x32x128.Idx) :
    ∃ t : Fin cfg0.N, (cfg0.win 11).flush t = true ∧ i ∈ ((cfg0.win 11).blk t).view.set := by
  have h0 : (i 0).val < 256 := (i 0).isLt
  have h1 : (i 1).val < 32 := (i 1).isLt
  have h2 : (i 2).val < 128 := (i 2).isLt
  obtain ⟨-, -, -, -, -, -, -, -, -, -, -, -, -, -, -, -, -, -, -, -, -, -, -, -, e0, e1, e2⟩ :=
    blockIndex (⟨(i 0).val, lt_of_lt_of_eq h0 N_0.symm⟩ : Fin cfg0.N)
  have e0' : win0_11.index (⟨(i 0).val, lt_of_lt_of_eq h0 N_0.symm⟩ : Fin cfg0.N) (0 : Fin 3) = (i 0).val := e0
  refine ⟨⟨(i 0).val, lt_of_lt_of_eq h0 N_0.symm⟩, flush0_11 _, ?_⟩
  rw [mem_block]
  intro a
  match a with
  | ⟨0, _⟩ => show win0_11.index _ (0 : Fin 3) * 1 ≤ (i 0).val ∧ (i 0).val < win0_11.index _ (0 : Fin 3) * 1 + 1; omega
  | ⟨1, _⟩ => show win0_11.index _ (1 : Fin 3) * 32 ≤ (i 1).val ∧ (i 1).val < win0_11.index _ (1 : Fin 3) * 32 + 32; omega
  | ⟨2, _⟩ => show win0_11.index _ (2 : Fin 3) * 128 ≤ (i 2).val ∧ (i 2).val < win0_11.index _ (2 : Fin 3) * 128 + 128; omega

/-- THE OUTPUT ARRAY after the region: the kernel's blocks function of the arguments. -/
theorem final (c : Dev nD) : (dats m 0 c).arrAt 11 cfg0.N
    = Cert.Net.kerBlocks (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (dats m 0 c).arrAt_eq_of_cover 11 _ (fun t _ => flushed_eq m c t) blocks_cover

/-! ## The host operations after the region, and the run -/

/-- The host's last operations over any contents `W` of the buffers: the output array stacked into rows, the first ten
    lanes kept. -/
theorem tail_of (W : Valuation τ sig (Elt Ideal)) :
    (StableHlo.after hostOps1 W (Proc.devRef .tc main_v0) : S8192x10.Idx → EReal)
      = Cert.Net.kerResult (W (Proc.devRef .tc main_call0_v3)) := by
  after_results
  all_goals rfl

/-- The result buffer after the host's last operations: the result of the kernel's blocks. -/
theorem tail_eq (c : Dev nD) :
    (Pipeline.afterTail₀ cfgs (dats m) 0 (V0 m) [hostOps1] c main_v0 : S8192x10.Idx → EReal)
      = Cert.Net.kerResult (Cert.Net.kerBlocks (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  unfold Pipeline.afterTail₀
  show StableHlo.after hostOps1 _ (Proc.devRef .tc main_v0) = _
  refine (tail_of _).trans ?_
  exact congrArg Cert.Net.kerResult ((Pipeline.withArrays_arr spec0 launch0.win.arr_inj c _ _ 11).trans (final m c))

/-- After the run, the result buffer holds the result of the kernel's blocks. -/
theorem post_result (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v0)
      = Cert.Net.kerResult (Cert.Net.kerBlocks (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) :=
  ((h c).2 main_v0 (Pipeline.mem_restRefs_of main_v0 (by decide) (by decide))).trans (tail_eq m c)
/-- After the run, argument 0 is as launched: input window 0 stages it and never writes it back. -/
theorem kept_arg0 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))
/-- After the run, argument 1 is as launched: no window stages it and no host operation after the region writes it. -/
theorem kept_arg1 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg1) = m ((c.tc : Thread nD τ).loc main_arg1) :=
  ((h c).2 main_arg1 (Pipeline.mem_restRefs_of main_arg1 (by decide) (by decide))).trans (W_main_arg1 m (dats m) c)
/-- After the run, argument 2 is as launched: input window 2 stages it and never writes it back. -/
theorem kept_arg2 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg2) = m ((c.tc : Thread nD τ).loc main_arg2) :=
  ((h c).1 2).trans (((dats m 0 c).arrAt_in 2 rfl _).trans ((A_eq m c 2).trans (V_main_arg2 m c)))
/-- After the run, argument 3 is as launched: no window stages it and no host operation after the region writes it. -/
theorem kept_arg3 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg3) = m ((c.tc : Thread nD τ).loc main_arg3) :=
  ((h c).2 main_arg3 (Pipeline.mem_restRefs_of main_arg3 (by decide) (by decide))).trans (W_main_arg3 m (dats m) c)
/-- After the run, argument 4 is as launched: input window 4 stages it and never writes it back. -/
theorem kept_arg4 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg4) = m ((c.tc : Thread nD τ).loc main_arg4) :=
  ((h c).1 4).trans (((dats m 0 c).arrAt_in 4 rfl _).trans ((A_eq m c 4).trans (V_main_arg4 m c)))
/-- After the run, argument 5 is as launched: no window stages it and no host operation after the region writes it. -/
theorem kept_arg5 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg5) = m ((c.tc : Thread nD τ).loc main_arg5) :=
  ((h c).2 main_arg5 (Pipeline.mem_restRefs_of main_arg5 (by decide) (by decide))).trans (W_main_arg5 m (dats m) c)
/-- After the run, argument 6 is as launched: input window 6 stages it and never writes it back. -/
theorem kept_arg6 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg6) = m ((c.tc : Thread nD τ).loc main_arg6) :=
  ((h c).1 6).trans (((dats m 0 c).arrAt_in 6 rfl _).trans ((A_eq m c 6).trans (V_main_arg6 m c)))
/-- After the run, argument 7 is as launched: input window 7 stages it and never writes it back. -/
theorem kept_arg7 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg7) = m ((c.tc : Thread nD τ).loc main_arg7) :=
  ((h c).1 7).trans (((dats m 0 c).arrAt_in 7 rfl _).trans ((A_eq m c 7).trans (V_main_arg7 m c)))
/-- After the run, argument 8 is as launched: input window 8 stages it and never writes it back. -/
theorem kept_arg8 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg8) = m ((c.tc : Thread nD τ).loc main_arg8) :=
  ((h c).1 8).trans (((dats m 0 c).arrAt_in 8 rfl _).trans ((A_eq m c 8).trans (V_main_arg8 m c)))
/-- After the run, argument 9 is as launched: input window 9 stages it and never writes it back. -/
theorem kept_arg9 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg9) = m ((c.tc : Thread nD τ).loc main_arg9) :=
  ((h c).1 9).trans (((dats m 0 c).arrAt_in 9 rfl _).trans ((A_eq m c 9).trans (V_main_arg9 m c)))
/-- After the run, argument 10 is as launched: input window 10 stages it and never writes it back. -/
theorem kept_arg10 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg10) = m ((c.tc : Thread nD τ).loc main_arg10) :=
  ((h c).1 10).trans (((dats m 0 c).arrAt_in 10 rfl _).trans ((A_eq m c 10).trans (V_main_arg10 m c)))

end Value

/-- THE KERNEL'S RUN READ AS A VALUE: every weakly fair execution of the program ends with the result buffer holding the
    result of the 256 stored blocks — each the kernel's chain of stages of that point's 32 images and the weights — and
    with all eleven arguments as launched. -/
theorem run_ker (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = Cert.Net.kerResult (Cert.Net.kerBlocks (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨post_result m r h c, kept_arg0 m r h c, kept_arg1 m r h c, kept_arg2 m r h c, kept_arg3 m r h c, kept_arg4 m r h c, kept_arg5 m r h c, kept_arg6 m r h c, kept_arg7 m r h c, kept_arg8 m r h c, kept_arg9 m r h c, kept_arg10 m r h c⟩)
    (run_main m ρ)

end Cert.Net.KernelSide
end
-- ==== Proof.ReferenceValue.lean ====
/-
  The reference's run, read as a value.

  The reference's program runs its kernel at 256 grid points. Point t reads images 32*t .. 32*t + 31 of the patch
  matrices and the ten weight and bias arrays whole, and writes block t of a 256 x 32 x 128 array: the chain of stages
  applied to what it read. The blocks tile that array, so after the run it is the blocks function of the patch
  matrices and the weights; the program then stacks the blocks into 8192 rows and keeps the first ten lanes, and
  leaves every argument as launched.
-/
import proofs.«126704_g2000501235386493_pallaspilot1_12_3_alg».proof.Proof.Gen.ReferenceIdeal.Frame
import proofs.«126704_g2000501235386493_pallaspilot1_12_3_alg».proof.Proof.Logits
import Idealize.ShloMosaic.Lib.Pipeline.Value
import Idealize.ShloMosaic.Lib.ValueIdx
import Idealize.ShloMosaic.Lib.StableHlo.Run
noncomputable section
namespace Cert.Net.ReferenceSide
open Idealize.ShloMosaic Idealize.ShloMosaic.TcCoe Idealize.ShloMosaic.ValueIdx Idealize.SL.Sem Cert.ReferenceIdeal Cert.ReferenceIdeal.Gen
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The index maps of the patch window and of the output window, decided over the grid: point t takes block t on the
    first axis, block 0 on the others. -/
theorem index_facts : ∀ t : Fin cfg0.N,
    win0_0.index t (0 : Fin 3) = t.val ∧ win0_0.index t (1 : Fin 3) = 0 ∧ win0_0.index t (2 : Fin 3) = 0
    ∧ win0_11.index t (0 : Fin 3) = t.val ∧ win0_11.index t (1 : Fin 3) = 0 ∧ win0_11.index t (2 : Fin 3) = 0 :=
  (by decide +kernel : ∀ t : Fin grid0.N, _)

/-- The index maps of the ten weight windows, decided over the grid: block 0 on both axes at every point. -/
theorem index_facts_w : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- The patch window's block at point t is images 32*t .. 32*t + 31 of its array. -/
theorem block0 (c : Dev nD) (t : Fin cfg0.N) (ht : t.val < 256) :
    iblk m c 0 t = Cert.Net.blockOf (V m c main_call0_v46) (⟨t.val, ht⟩ : Fin 256) := by
  obtain ⟨h0, h1, h2, -⟩ := index_facts t
  funext y
  have hy : (y 0).val < 32 := (y 0).isLt
  show V m c main_call0_v46 (((cfg0.win 0).blk t).view.emb y)
    = V m c main_call0_v46 (ix3 (⟨32 * t.val + (y 0).val, by omega⟩ : Fin 8192) (y 1) (y 2))
  refine congrArg (V m c main_call0_v46) (funext fun a => Fin.ext ?_)
  match a with
  | ⟨0, _⟩ => show win0_0.index t (0 : Fin 3) * 32 + 1 * (y 0).val = 32 * t.val + (y 0).val; rw [h0]; omega
  | ⟨1, _⟩ => show win0_0.index t (1 : Fin 3) * 32 + 1 * (y 1).val = (y 1).val; rw [h1]; omega
  | ⟨2, _⟩ => show win0_0.index t (2 : Fin 3) * 160 + 1 * (y 2).val = (y 2).val; rw [h2]; omega

/-- Window 1's block at every point is its whole array. -/
theorem block1 (c : Dev nD) (t : Fin cfg0.N) : iblk m c 1 t = V m c main_arg1 := by
  obtain ⟨h0, h1⟩ := (index_facts_w t).1
  funext y
  show V m c main_arg1 (((cfg0.win 1).blk t).view.emb y) = V m c main_arg1 y
  refine congrArg (V m c main_arg1) (funext fun a => Fin.ext ?_)
  match a with
  | ⟨0, _⟩ => show win0_1.index t (0 : Fin 2) * 160 + 1 * (y 0).val = (y 0).val; rw [h0]; omega
  | ⟨1, _⟩ => show win0_1.index t (1 : Fin 2) * 512 + 1 * (y 1).val = (y 1).val; rw [h1]; omega

/-- Window 2's block at every point is its whole array. -/
theorem block2 (c : Dev nD) (t : Fin cfg0.N) : iblk m c 2 t = V m c main_arg2 := by
  obtain ⟨h0, h1⟩ := (index_facts_w t).2.1
  funext y
  show V m c main_arg2 (((cfg0.win 2).blk t).view.emb y) = V m c main_arg2 y
  refine congrArg (V m c main_arg2) (funext fun a => Fin.ext ?_)
  match a with
  | ⟨0, _⟩ => show win0_2.index t (0 : Fin 2) * 1 + 1 * (y 0).val = (y 0).val; rw [h0]; omega
  | ⟨1, _⟩ => show win0_2.index t (1 : Fin 2) * 128 + 1 * (y 1).val = (y 1).val; rw [h1]; omega

/-- Window 3's block at every point is its whole array. -/
theorem block3 (c : Dev nD) (t : Fin cfg0.N) : iblk m c 3 t = V m c main_arg3 := by
  obtain ⟨h0, h1⟩ := (index_facts_w t).2.2.1
  funext y
  show V m c main_arg3 (((cfg0.win 3).blk t).view.emb y) = V m c main_arg3 y
  refine congrArg (V m c main_arg3) (funext fun a => Fin.ext ?_)
  match a with
  | ⟨0, _⟩ => show win0_3.index t (0 : Fin 2) * 1280 + 1 * (y 0).val = (y 0).val; rw [h0]; omega
  | ⟨1, _⟩ => show win0_3.index t (1 : Fin 2) * 640 + 1 * (y 1).val = (y 1).val; rw [h1]; omega

/-- Window 4's block at every point is its whole array. -/
theorem block4 (c : Dev nD) (t : Fin cfg0.N) : iblk m c 4 t = V m c main_arg4 := by
  obtain ⟨h0, h1⟩ := (index_facts_w t).2.2.2.1
  funext y
  show V m c main_arg4 (((cfg0.win 4).blk t).view.emb y) = V m c main_arg4 y
  refine congrArg (V m c main_arg4) (funext fun a => Fin.ext ?_)
  match a with
  | ⟨0, _⟩ => show win0_4.index t (0 : Fin 2) * 1 + 1 * (y 0).val = (y 0).val; rw [h0]; omega
  | ⟨1, _⟩ => show win0_4.index t (1 : Fin 2) * 640 + 1 * (y 1).val = (y 1).val; rw [h1]; omega

/-- Window 5's block at every point is its whole array. -/
theorem block5 (c : Dev nD) (t : Fin cfg0.N) : iblk m c 5 t = V m c main_arg5 := by
  obtain ⟨h0, h1⟩ := (index_facts_w t).2.2.2.2.1
  funext y
  show V m c main_arg5 (((cfg0.win 5).blk t).view.emb y) = V m c main_arg5 y
  refine congrArg (V m c main_arg5) (funext fun a => Fin.ext ?_)
  match a with
  | ⟨0, _⟩ => show win0_5.index t (0 : Fin 2) * 800 + 1 * (y 0).val = (y 0).val; rw [h0]; omega
  | ⟨1, _⟩ => show win0_5.index t (1 : Fin 2) * 64 + 1 * (y 1).val = (y 1).val; rw [h1]; omega

/-- Window 6's block at every point is its whole array. -/
theorem block6 (c : Dev nD) (t : Fin cfg0.N) : iblk m c 6 t = V m c main_arg6 := by
  obtain ⟨h0, h1⟩ := (index_facts_w t).2.2.2.2.2.1
  funext y
  show V m c main_arg6 (((cfg0.win 6).blk t).view.emb y) = V m c main_arg6 y
  refine congrArg (V m c main_arg6) (funext fun a => Fin.ext ?_)
  match a with
  | ⟨0, _⟩ => show win0_6.index t (0 : Fin 2) * 1 + 1 * (y 0).val = (y 0).val; rw [h0]; omega
  | ⟨1, _⟩ => show win0_6.index t (1 : Fin 2) * 64 + 1 * (y 1).val = (y 1).val; rw [h1]; omega

/-- Window 7's block at every point is its whole array. -/
theorem block7 (c : Dev nD) (t : Fin cfg0.N) : iblk m c 7 t = V m c main_arg7 := by
  obtain ⟨h0, h1⟩ := (index_facts_w t).2.2.2.2.2.2.1
  funext y
  show V m c main_arg7 (((cfg0.win 7).blk t).view.emb y) = V m c main_arg7 y
  refine congrArg (V m c main_arg7) (funext fun a => Fin.ext ?_)
  match a with
  | ⟨0, _⟩ => show win0_7.index t (0 : Fin 2) * 64 + 1 * (y 0).val = (y 0).val; rw [h0]; omega
  | ⟨1, _⟩ => show win0_7.index t (1 : Fin 2) * 32 + 1 * (y 1).val = (y 1).val; rw [h1]; omega

/-- Window 8's block at every point is its whole array. -/
theorem block8 (c : Dev nD) (t : Fin cfg0.N) : iblk m c 8 t = V m c main_arg8 := by
  obtain ⟨h0, h1⟩ := (index_facts_w t).2.2.2.2.2.2.2.1
  funext y
  show V m c main_arg8 (((cfg0.win 8).blk t).view.emb y) = V m c main_arg8 y
  refine congrArg (V m c main_arg8) (funext fun a => Fin.ext ?_)
  match a with
  | ⟨0, _⟩ => show win0_8.index t (0 : Fin 2) * 1 + 1 * (y 0).val = (y 0).val; rw [h0]; omega
  | ⟨1, _⟩ => show win0_8.index t (1 : Fin 2) * 32 + 1 * (y 1).val = (y 1).val; rw [h1]; omega

/-- Window 9's block at every point is its whole array. -/
theorem block9 (c : Dev nD) (t : Fin cfg0.N) : iblk m c 9 t = V m c main_arg9 := by
  obtain ⟨h0, h1⟩ := (index_facts_w t).2.2.2.2.2.2.2.2.1
  funext y
  show V m c main_arg9 (((cfg0.win 9).blk t).view.emb y) = V m c main_arg9 y
  refine congrArg (V m c main_arg9) (funext fun a => Fin.ext ?_)
  match a with
  | ⟨0, _⟩ => show win0_9.index t (0 : Fin 2) * 32 + 1 * (y 0).val = (y 0).val; rw [h0]; omega
  | ⟨1, _⟩ => show win0_9.index t (1 : Fin 2) * 128 + 1 * (y 1).val = (y 1).val; rw [h1]; omega

/-- Window 10's block at every point is its whole array. -/
theorem block10 (c : Dev nD) (t : Fin cfg0.N) : iblk m c 10 t = V m c main_arg10 := by
  obtain ⟨h0, h1⟩ := (index_facts_w t).2.2.2.2.2.2.2.2.2
  funext y
  show V m c main_arg10 (((cfg0.win 10).blk t).view.emb y) = V m c main_arg10 y
  refine congrArg (V m c main_arg10) (funext fun a => Fin.ext ?_)
  match a with
  | ⟨0, _⟩ => show win0_10.index t (0 : Fin 2) * 1 + 1 * (y 0).val = (y 0).val; rw [h0]; omega
  | ⟨1, _⟩ => show win0_10.index t (1 : Fin 2) * 128 + 1 * (y 1).val = (y 1).val; rw [h1]; omega

/-- The stages' result for block tt at (0, b, l) is entry i of the blocks function when i = (tt, b, l). -/
theorem chain_at (P : S8192x32x160.Idx → EReal) (w1 : Vec Ideal S160x512 .f32) (b1 : Vec Ideal S1x128 .f32) (w2 : Vec Ideal S1280x640 .f32) (b2 : Vec Ideal S1x640 .f32)
    (w3 : Vec Ideal S800x64 .f32) (b3 : Vec Ideal S1x64 .f32) (w4 : Vec Ideal S64x32 .f32) (b4 : Vec Ideal S1x32 .f32)
    (w5 : Vec Ideal S32x128 .f32) (b5 : Vec Ideal S1x128 .f32)
    (i : S256x32x128.Idx) (tt : Fin 256) (j : S1x32x128.Idx)
    (h0 : (i 0).val = tt.val) (h1 : (i 1).val = (j 1).val) (h2 : (i 2).val = (j 2).val) :
    Cert.Net.refChain (Cert.Net.blockOf P tt) w1 b1 w2 b2 w3 b3 w4 b4 w5 b5 j
      = Cert.Net.logitsBlocks P w1 b1 w2 b2 w3 b3 w4 b4 w5 b5 i := by
  have e0 : i 0 = tt := Fin.ext h0
  have ej : j = ix3 (0 : Fin 1) (i 1) (i 2) := funext fun a => match a with
    | ⟨0, _⟩ => Fin.ext (by have hj : (j 0).val < 1 := (j 0).isLt; show (j 0).val = 0; omega)
    | ⟨1, _⟩ => Fin.ext h1.symm
    | ⟨2, _⟩ => Fin.ext h2.symm
  show _ = Cert.Net.refChain (Cert.Net.blockOf P (i 0)) w1 b1 w2 b2 w3 b3 w4 b4 w5 b5 (ix3 (0 : Fin 1) (i 1) (i 2))
  rw [e0]
  exact congrArg (Cert.Net.refChain (Cert.Net.blockOf P tt) w1 b1 w2 b2 w3 b3 w4 b4 w5 b5) ej

/-- What point t writes back to the output array is block t of the blocks function. -/
theorem flushed_eq (c : Dev nD) (t : Fin cfg0.N) :
    (dats m 0 c).flushed 11 t = ((cfg0.win 11).blk t).view.read (Elt Ideal)
      (Cert.Net.logitsBlocks (V m c main_call0_v46) (V m c main_arg1) (V m c main_arg2) (V m c main_arg3) (V m c main_arg4) (V m c main_arg5) (V m c main_arg6) (V m c main_arg7) (V m c main_arg8) (V m c main_arg9) (V m c main_arg10)) := by
  have ht : t.val < 256 := Nat.lt_of_lt_of_eq t.isLt N_0
  obtain ⟨-, -, -, g0, g1, g2⟩ := index_facts t
  show (cfg0.win 11).cut (grid0.coords t) ((dats m 0 c).after 11 t) = _
  rw [after0_11]
  unfold out0_11
  rw [View.canon_unit_zero zeros3]
  simp only [View.ld_unit_zero (S := S32x32x160) zeros3, View.ld_unit_zero (S := S160x512) zeros2, View.ld_unit_zero (S := S1x128) zeros2,
    View.ld_unit_zero (S := S1280x640) zeros2, View.ld_unit_zero (S := S1x640) zeros2, View.ld_unit_zero (S := S800x64) zeros2,
    View.ld_unit_zero (S := S1x64) zeros2, View.ld_unit_zero (S := S64x32) zeros2, View.ld_unit_zero (S := S1x32) zeros2,
    View.ld_unit_zero (S := S32x128) zeros2]
  rw [block0 m c t ht, block1 m c t, block2 m c t, block3 m c t, block4 m c t, block5 m c t, block6 m c t, block7 m c t,
    block8 m c t, block9 m c t, block10 m c t]
  funext j
  show Cert.Net.refChain (Cert.Net.blockOf (V m c main_call0_v46) (⟨t.val, ht⟩ : Fin 256)) (V m c main_arg1) (V m c main_arg2) (V m c main_arg3) (V m c main_arg4) (V m c main_arg5) (V m c main_arg6) (V m c main_arg7) (V m c main_arg8) (V m c main_arg9) (V m c main_arg10) j
    = Cert.Net.logitsBlocks (V m c main_call0_v46) (V m c main_arg1) (V m c main_arg2) (V m c main_arg3) (V m c main_arg4) (V m c main_arg5) (V m c main_arg6) (V m c main_arg7) (V m c main_arg8) (V m c main_arg9) (V m c main_arg10) (((cfg0.win 11).blk t).view.emb j)
  have hj0 : (j 0).val < 1 := (j 0).isLt
  exact chain_at (V m c main_call0_v46) (V m c main_arg1) (V m c main_arg2) (V m c main_arg3) (V m c main_arg4) (V m c main_arg5) (V m c main_arg6) (V m c main_arg7) (V m c main_arg8) (V m c main_arg9) (V m c main_arg10) (((cfg0.win 11).blk t).view.emb j) (⟨t.val, ht⟩ : Fin 256) j
    (by show win0_11.index t (0 : Fin 3) * 1 + 1 * (j 0).val = t.val; rw [g0]; omega)
    (by show win0_11.index t (1 : Fin 3) * 32 + 1 * (j 1).val = (j 1).val; rw [g1]; omega)
    (by show win0_11.index t (2 : Fin 3) * 128 + 1 * (j 2).val = (j 2).val; rw [g2]; omega)

/-- An index of the output array is in point t's block iff each coordinate is in the block's range on its axis. -/
theorem mem_block (t : Fin cfg0.N) (i : S256x32x128.Idx) :
    i ∈ ((cfg0.win 11).blk t).view.set ↔ ∀ a : Fin 3, win0_11.index t a * S1x32x128.size a ≤ (i a).val ∧ (i a).val < win0_11.index t a * S1x32x128.size a + S1x32x128.size a := by
  show i ∈ ((View.whole main_call0_v47).slice (win0_11.rect t)).set ↔ _
  rw [View.set_slice_whole, Rect.mem_set_unit]
  exact Iff.rfl

/-- Every index (t, b, l) of the output array lies in point t's block. -/
theorem cover (i : S256x32x128.Idx) : ∃ t : Fin cfg0.N, (cfg0.win 11).flush t = true ∧ i ∈ ((cfg0.win 11).blk t).view.set := by
  have hi0 : (i 0).val < 256 := (i 0).isLt
  have hi1 : (i 1).val < 32 := (i 1).isLt
  have hi2 : (i 2).val < 128 := (i 2).isLt
  have hN : (i 0).val < cfg0.N := Nat.lt_of_lt_of_eq hi0 N_0.symm
  refine ⟨⟨(i 0).val, hN⟩, flush0_11 _, ?_⟩
  obtain ⟨-, -, -, g0, g1, g2⟩ := index_facts ⟨(i 0).val, hN⟩
  have g0 : win0_11.index ⟨(i 0).val, hN⟩ (0 : Fin 3) = (i 0).val := g0
  rw [mem_block]
  intro a
  match a with
  | ⟨0, _⟩ => show win0_11.index ⟨(i 0).val, hN⟩ (0 : Fin 3) * 1 ≤ (i 0).val ∧ (i 0).val < win0_11.index ⟨(i 0).val, hN⟩ (0 : Fin 3) * 1 + 1; rw [g0]; omega
  | ⟨1, _⟩ => show win0_11.index ⟨(i 0).val, hN⟩ (1 : Fin 3) * 32 ≤ (i 1).val ∧ (i 1).val < win0_11.index ⟨(i 0).val, hN⟩ (1 : Fin 3) * 32 + 32; rw [g1]; omega
  | ⟨2, _⟩ => show win0_11.index ⟨(i 0).val, hN⟩ (2 : Fin 3) * 128 ≤ (i 2).val ∧ (i 2).val < win0_11.index ⟨(i 0).val, hN⟩ (2 : Fin 3) * 128 + 128; rw [g2]; omega

/-- The output array after the run is the blocks function of the arrays the region finds. -/
theorem final (c : Dev nD) : (dats m 0 c).arrAt 11 cfg0.N = Cert.Net.logitsBlocks (V m c main_call0_v46) (V m c main_arg1) (V m c main_arg2) (V m c main_arg3) (V m c main_arg4) (V m c main_arg5) (V m c main_arg6) (V m c main_arg7) (V m c main_arg8) (V m c main_arg9) (V m c main_arg10) :=
  (dats m 0 c).arrAt_eq_of_cover 11 _ (fun t _ => flushed_eq m c t) cover

/-- The weights reach the region as launched. -/
theorem blocks_launched (c : Dev nD) : Cert.Net.logitsBlocks (V m c main_call0_v46) (V m c main_arg1) (V m c main_arg2) (V m c main_arg3) (V m c main_arg4) (V m c main_arg5) (V m c main_arg6) (V m c main_arg7) (V m c main_arg8) (V m c main_arg9) (V m c main_arg10) = Cert.Net.logitsBlocks (V m c main_call0_v46) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [V_main_arg1 m c, V_main_arg2 m c, V_main_arg3 m c, V_main_arg4 m c, V_main_arg5 m c, V_main_arg6 m c, V_main_arg7 m c,
    V_main_arg8 m c, V_main_arg9 m c, V_main_arg10 m c]

/-- After the run the result buffer holds the stacked blocks' first ten lanes. -/
theorem post_result (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v0) = Cert.Net.result (Cert.Net.logitsBlocks (V m c main_call0_v46) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  refine ((h c).2 main_v0 (Pipeline.mem_restRefs_of main_v0 (by decide) (by decide))).trans ?_
  unfold Pipeline.afterTail₀
  show StableHlo.after hostOps1 _ (Proc.devRef .tc main_v0) = _
  after_results
  rw [(Pipeline.withArrays_arr spec0 launch0.win.arr_inj c _ _ 11).trans (final m c), blocks_launched m c]
  rfl

theorem run_ref (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = Cert.Net.result (Cert.Net.logitsBlocks (V m c main_call0_v46) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨post_result m r h c,
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c)))⟩) (run_main m ρ)

end Cert.Net.ReferenceSide
end
-- ==== Proof.lean ====
/-
  A small convolutional network on 8192 images of 28 x 28 (three convolutions folded into matrix products with their
  poolings, two dense layers, a softmax over 128 padded lanes), run 32 images per grid point, against the same network
  whose first convolution's patch matrix is assembled on the host.

  Both programs multiply the SAME patch matrix into the first weight matrix: entry (row `(2*pr + ps)*8 + ar`, column
  `32*u + v`) of an image's matrix is pixel `(4*ar + 2*pr + u, 2*ps + v)` of the image padded with zeros to 36 x 36. The
  kernel cuts it out of the padded image block by twenty slices and concatenations (Proof/KernelRows.lean); the reference
  gathers it on the host through index arrays it computes, transposes and reshapes (Proof/HostPatches.lean). After that
  the two bodies are the same chain of operations, except that the kernel narrows three operands to a 16-bit format, which
  is the identity on the extended reals (Proof/TailNet.lean). So block by block, and then row by row of the result, the
  two programs compute one function of the arguments (Proof/Bridge.lean); no law of arithmetic is used, and the
  precondition is never opened. What each program's run leaves in its result array is read off its frame run
  (Proof/KernelValue.lean, Proof/ReferenceValue.lean). The idealization rewrote nothing, so `preserves` is `True`.
-/
import proofs.«126704_g2000501235386493_pallaspilot1_12_3_alg».proof.Defs
import proofs.«126704_g2000501235386493_pallaspilot1_12_3_alg».proof.Proof.Gen.Kernel
import proofs.«126704_g2000501235386493_pallaspilot1_12_3_alg».proof.Proof.Gen.Kernel.Frame
import proofs.«126704_g2000501235386493_pallaspilot1_12_3_alg».proof.Proof.Gen.KernelIdeal
import proofs.«126704_g2000501235386493_pallaspilot1_12_3_alg».proof.Proof.Gen.KernelIdeal.Frame
import proofs.«126704_g2000501235386493_pallaspilot1_12_3_alg».proof.Proof.Gen.ReferenceIdeal
import proofs.«126704_g2000501235386493_pallaspilot1_12_3_alg».proof.Proof.Gen.ReferenceIdeal.Frame
import proofs.«126704_g2000501235386493_pallaspilot1_12_3_alg».proof.Proof.Gen.Pre_finite_inputs
import proofs.«126704_g2000501235386493_pallaspilot1_12_3_alg».proof.Proof.Bridge
import proofs.«126704_g2000501235386493_pallaspilot1_12_3_alg».proof.Proof.HostPatches
import proofs.«126704_g2000501235386493_pallaspilot1_12_3_alg».proof.Proof.KernelValue
import proofs.«126704_g2000501235386493_pallaspilot1_12_3_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the idealized reference. -/
theorem frame_referenceIdeal : Cert.frame_ReferenceIdeal := fun m ρ _ => Cert.ReferenceIdeal.Gen.frame m ρ

/-- The idealization rewrote no operation. -/
theorem preserves : Cert.preserves_Kernel_KernelIdeal := trivial

/-- On the extended reals both programs end with the first ten lanes of the 256 stored blocks stacked, and the blocks
    are one function of the image batch's patch matrices and the weights: the kernel's by its own assembly of the
    patch matrix, the reference's by the host's, from arguments that agree. -/
theorem algebraic : Cert.algebraic_KernelIdeal_ReferenceIdeal := by
  intro m ρ m' ρ' _ hagree
  refine ⟨fun c => Cert.Net.kerResult (Cert.Net.kerBlocks (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))), Cert.Net.KernelSide.run_ker m ρ, ?_⟩
  refine (θ_run (Cert.ReferenceIdeal.defs (F := Ideal)) _ _).mono (fun r h c => ⟨(h c).1.trans ?_, (h c).2⟩) (Cert.Net.ReferenceSide.run_ref m' ρ')
  obtain ⟨h0, h1, h2, h3, h4, h5, h6, h7, h8, h9, h10⟩ := hagree c
  rw [Cert.Net.HostPatches.hostPatches, h0, h1, h2, h3, h4, h5, h6, h7, h8, h9, h10]
  beta_reduce
  rw [Cert.Net.Bridge.kerBlocks_eq, Cert.Net.Bridge.kerResult_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
